-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S4x256 .f32) (main_arg6 : FVec F S256x64 .f32) (main_arg7 : FVec F S64 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg5
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S4x256x256 .f32) (main_arg5 : FVec F S4x256 .f32) (main_arg6 : FVec F S256x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4x256x256 .f32 := Host.absf main_arg4
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x256x256 : Shape := ⟨3, ![1, 256, 256]⟩
abbrev S256x256 : Shape := ⟨2, ![256, 256]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S850000x256 : Shape := ⟨2, ![850000, 256]⟩
abbrev S256x128 : Shape := ⟨2, ![256, 128]⟩
abbrev S128 : Shape := ⟨1, ![128]⟩
abbrev S1x128 : Shape := ⟨2, ![1, 128]⟩
abbrev S50000x64 : Shape := ⟨2, ![50000, 64]⟩

abbrev nBuf : Space → Nat
  | .hbm => 119
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S4x256x256, .f32⟩
  | .hbm, ⟨5, _⟩ => ⟨S4x256, .f32⟩
  | .hbm, ⟨6, _⟩ => ⟨S256x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S1x256x256, .f32⟩
  | .hbm, ⟨30, _⟩ => ⟨S256x256, .f32⟩
  | .hbm, ⟨31, _⟩ => ⟨S1x256, .f32⟩
  | .hbm, ⟨32, _⟩ => ⟨S50000x256, .bf16⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x256, .bf16⟩
  | .hbm, ⟨42, _⟩ => ⟨S850000x256, .f32⟩
  | .hbm, ⟨43, _⟩ => ⟨S_, .f32⟩
  | .hbm, ⟨44, _⟩ => ⟨S50000x256, .f32⟩
  | .hbm, ⟨45, _⟩ => ⟨S850000x1, .i32⟩
  | .hbm, ⟨46, _⟩ => ⟨S50000x256, .f32⟩
  | .hbm, ⟨47, _⟩ => ⟨S1x256, .f32⟩
  | .hbm, ⟨48, _⟩ => ⟨S256, .f32⟩
  | .hbm, ⟨49, _⟩ => ⟨S1x256x256, .f32⟩
  | .hbm, ⟨50, _⟩ => ⟨S256x256, .f32⟩
  | .hbm, ⟨51, _⟩ => ⟨S1x256, .f32⟩
  | .hbm, ⟨52, _⟩ => ⟨S50000x256, .bf16⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x256, .bf16⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S256, .f32⟩
  | .hbm, ⟨69, _⟩ => ⟨S1x256x256, .f32⟩
  | .hbm, ⟨70, _⟩ => ⟨S256x256, .f32⟩
  | .hbm, ⟨71, _⟩ => ⟨S1x256, .f32⟩
  | .hbm, ⟨72, _⟩ => ⟨S50000x256, .bf16⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x256, .bf16⟩
  | .hbm, ⟨82, _⟩ => ⟨S850000x256, .f32⟩
  | .hbm, ⟨83, _⟩ => ⟨S_, .f32⟩
  | .hbm, ⟨84, _⟩ => ⟨S50000x256, .f32⟩
  | .hbm, ⟨85, _⟩ => ⟨S850000x1, .i32⟩
  | .hbm, ⟨86, _⟩ => ⟨S50000x256, .f32⟩
  | .hbm, ⟨87, _⟩ => ⟨S1x256, .f32⟩
  | .hbm, ⟨88, _⟩ => ⟨S256, .f32⟩
  | .hbm, ⟨89, _⟩ => ⟨S1x256x256, .f32⟩
  | .hbm, ⟨90, _⟩ => ⟨S256x256, .f32⟩
  | .hbm, ⟨91, _⟩ => ⟨S1x256, .f32⟩
  | .hbm, ⟨92, _⟩ => ⟨S50000x256, .bf16⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000x256, .bf16⟩
  | .hbm, ⟨102, _⟩ => ⟨S850000x256, .f32⟩
  | .hbm, ⟨103, _⟩ => ⟨S_, .f32⟩
  | .hbm, ⟨104, _⟩ => ⟨S50000x256, .f32⟩
  | .hbm, ⟨105, _⟩ => ⟨S850000x1, .i32⟩
  | .hbm, ⟨106, _⟩ => ⟨S50000x256, .f32⟩
  | .hbm, ⟨107, _⟩ => ⟨S_, .i32⟩
  | .hbm, ⟨108, _⟩ => ⟨S_, .f32⟩
  | .hbm, ⟨109, _⟩ => ⟨S256x128, .f32⟩
  | .hbm, ⟨110, _⟩ => ⟨S_, .i32⟩
  | .hbm, ⟨111, _⟩ => ⟨S_, .f32⟩
  | .hbm, ⟨112, _⟩ => ⟨S128, .f32⟩
  | .hbm, ⟨113, _⟩ => ⟨S1x256, .f32⟩
  | .hbm, ⟨114, _⟩ => ⟨S256, .f32⟩
  | .hbm, ⟨115, _⟩ => ⟨S1x256, .f32⟩
  | .hbm, ⟨116, _⟩ => ⟨S1x128, .f32⟩
  | .hbm, ⟨117, _⟩ => ⟨S50000x128, .f32⟩
  | .hbm, ⟨118, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S2000x1, .f32⟩
  | .local _ .vmem, ⟨6, _⟩ => ⟨S2000x1, .f32⟩
  | .local _ .vmem, ⟨7, _⟩ => ⟨S2000x256, .bf16⟩
  | .local _ .vmem, ⟨8, _⟩ => ⟨S2000x256, .bf16⟩
  | .local _ .vmem, ⟨9, _⟩ => ⟨S2000x256, .f32⟩
  | .local _ .vmem, ⟨10, _⟩ => ⟨S2000x256, .f32⟩
  | .local _ .vmem, ⟨11, _⟩ => ⟨S2000x1, .f32⟩
  | .local _ .vmem, ⟨12, _⟩ => ⟨S2000x1, .f32⟩
  | .local _ .vmem, ⟨13, _⟩ => ⟨S1x256, .f32⟩
  | .local _ .vmem, ⟨14, _⟩ => ⟨S256x256, .f32⟩
  | .local _ .vmem, ⟨15, _⟩ => ⟨S2000x256, .bf16⟩
  | .local _ .vmem, ⟨16, _⟩ => ⟨S2000x256, .bf16⟩
  | .local _ .vmem, ⟨17, _⟩ => ⟨S2000x256, .f32⟩
  | .local _ .vmem, ⟨18, _⟩ => ⟨S2000x256, .f32⟩
  | .local _ .vmem, ⟨19, _⟩ => ⟨S2000x1, .f32⟩
  | .local _ .vmem, ⟨20, _⟩ => ⟨S2000x1, .f32⟩
  | .local _ .vmem, ⟨21, _⟩ => ⟨S1x256, .f32⟩
  | .local _ .vmem, ⟨22, _⟩ => ⟨S256x256, .f32⟩
  | .local _ .vmem, ⟨23, _⟩ => ⟨S2000x256, .bf16⟩
  | .local _ .vmem, ⟨24, _⟩ => ⟨S2000x256, .bf16⟩
  | .local _ .vmem, ⟨25, _⟩ => ⟨S2000x256, .f32⟩
  | .local _ .vmem, ⟨26, _⟩ => ⟨S2000x256, .f32⟩
  | .local _ .vmem, ⟨27, _⟩ => ⟨S2000x1, .f32⟩
  | .local _ .vmem, ⟨28, _⟩ => ⟨S2000x1, .f32⟩
  | .local _ .vmem, ⟨29, _⟩ => ⟨S1x256, .f32⟩
  | .local _ .vmem, ⟨30, _⟩ => ⟨S256x256, .f32⟩
  | .local _ .vmem, ⟨31, _⟩ => ⟨S2000x256, .bf16⟩
  | .local _ .vmem, ⟨32, _⟩ => ⟨S2000x256, .bf16⟩
  | .local _ .vmem, ⟨33, _⟩ => ⟨S2000x256, .f32⟩
  | .local _ .vmem, ⟨34, _⟩ => ⟨S2000x256, .f32⟩
  | .local _ .vmem, ⟨35, _⟩ => ⟨S2000x1, .f32⟩
  | .local _ .vmem, ⟨36, _⟩ => ⟨S2000x1, .f32⟩
  | .local _ .vmem, ⟨37, _⟩ => ⟨S1x256, .f32⟩
  | .local _ .vmem, ⟨38, _⟩ => ⟨S256x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_8 : Ref sig .tc := ⟨.hbm, 73, rfl⟩
abbrev main_v55 : Ref sig .tc := ⟨.hbm, 74, rfl⟩
abbrev main_v56 : Ref sig .tc := ⟨.hbm, 75, rfl⟩
abbrev main_c_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_11 : Ref sig .tc := ⟨.hbm, 93, rfl⟩
abbrev main_v72 : Ref sig .tc := ⟨.hbm, 94, rfl⟩
abbrev main_v73 : Ref sig .tc := ⟨.hbm, 95, rfl⟩
abbrev main_c_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_c_14 : Ref sig .tc := ⟨.hbm, 107, rfl⟩
abbrev main_call1_v0 : Ref sig .tc := ⟨.hbm, 108, rfl⟩
abbrev main_v83 : Ref sig .tc := ⟨.hbm, 109, rfl⟩
abbrev main_c_15 : Ref sig .tc := ⟨.hbm, 110, rfl⟩
abbrev main_call2_v0 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem4_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  slices_S4x256x256_S1x256x256_0_0_0 : S4x256x256.Slices ![0, 0, 0] S1x256x256
  shapeCasts_S1x256x256_S256x256 : S1x256x256.ShapeCasts S256x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  slices_S4x256_S1x256_0_0 : S4x256.Slices ![0, 0] S1x256
  shapeCasts_S1x256_S256 : S1x256.ShapeCasts S256
  slices_S4x256x256_S1x256x256_1_0_0 : S4x256x256.Slices ![1, 0, 0] S1x256x256
  shapeCasts_S2000x256_S2000x256 : S2000x256.ShapeCasts S2000x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  pads_S256x64_S256x128_000_0640 : S256x64.Pads (![0, 0] : Fin 2 → Nat) ![0, 64] ![0, 0] S256x128
  h_S_ : 0 < S_.numel
  pads_S64_S128_0640 : S64.Pads (![0] : Fin 1 → Nat) ![64] ![0] S128
  slices_S4x256_S1x256_3_0 : S4x256.Slices ![3, 0] S1x256
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S50000x128_S50000x64_0_0 : S50000x128.Slices ![0, 0] S50000x64
  scatter_S50000_S850000x1_S850000_n_0_0_1_wf : ScatterDims.WF S50000 S850000x1 S850000 [] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .bf16 = 32 ∨ (Rect.block (s := S50000x256) S2000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .bf16 = 32 ∨ (Rect.block (s := S50000x256) S2000x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .bf16 = 32 ∨ (Rect.block (s := S50000x256) S2000x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .bf16 = 32 ∨ (Rect.block (s := S50000x256) S2000x256.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v65) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v82) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S1x256 : Shape := ⟨2, ![1, 256]⟩
abbrev S1x256x256 : Shape := ⟨3, ![1, 256, 256]⟩
abbrev S256x256 : Shape := ⟨2, ![256, 256]⟩
abbrev S850000x256 : Shape := ⟨2, ![850000, 256]⟩
abbrev S50000x64 : Shape := ⟨2, ![50000, 64]⟩
abbrev S1x64 : Shape := ⟨2, ![1, 64]⟩

abbrev nBuf : Space → Nat
  | .hbm => 155
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S4x256x256, .f32⟩
  | 5 => ⟨S4x256, .f32⟩
  | 6 => ⟨S256x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000x256, .f32⟩
  | 48 => ⟨S1x256, .f32⟩
  | 49 => ⟨S50000x256, .f32⟩
  | 50 => ⟨S50000x256, .f32⟩
  | 51 => ⟨S1x256x256, .f32⟩
  | 52 => ⟨S256x256, .f32⟩
  | 53 => ⟨S1x256, .f32⟩
  | 54 => ⟨S256, .f32⟩
  | 55 => ⟨S50000x256, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x256, .f32⟩
  | 65 => ⟨S850000x1, .f32⟩
  | 66 => ⟨S850000x256, .f32⟩
  | 67 => ⟨S850000x256, .f32⟩
  | 68 => ⟨S_, .f32⟩
  | 69 => ⟨S50000x256, .f32⟩
  | 70 => ⟨S850000x1, .i32⟩
  | 71 => ⟨S50000x256, .f32⟩
  | 72 => ⟨S1x256, .f32⟩
  | 73 => ⟨S50000x256, .f32⟩
  | 74 => ⟨S50000x256, .f32⟩
  | 75 => ⟨S50000x256, .f32⟩
  | 76 => ⟨S1x256x256, .f32⟩
  | 77 => ⟨S256x256, .f32⟩
  | 78 => ⟨S1x256, .f32⟩
  | 79 => ⟨S256, .f32⟩
  | 80 => ⟨S50000x256, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x256, .f32⟩
  | 90 => ⟨S850000x1, .f32⟩
  | 91 => ⟨S850000x256, .f32⟩
  | 92 => ⟨S850000x256, .f32⟩
  | 93 => ⟨S_, .f32⟩
  | 94 => ⟨S50000x256, .f32⟩
  | 95 => ⟨S850000x1, .i32⟩
  | 96 => ⟨S50000x256, .f32⟩
  | 97 => ⟨S1x256, .f32⟩
  | 98 => ⟨S50000x256, .f32⟩
  | 99 => ⟨S50000x256, .f32⟩
  | 100 => ⟨S50000x256, .f32⟩
  | 101 => ⟨S1x256x256, .f32⟩
  | 102 => ⟨S256x256, .f32⟩
  | 103 => ⟨S1x256, .f32⟩
  | 104 => ⟨S256, .f32⟩
  | 105 => ⟨S50000x256, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x256, .f32⟩
  | 115 => ⟨S850000x1, .f32⟩
  | 116 => ⟨S850000x256, .f32⟩
  | 117 => ⟨S850000x256, .f32⟩
  | 118 => ⟨S_, .f32⟩
  | 119 => ⟨S50000x256, .f32⟩
  | 120 => ⟨S850000x1, .i32⟩
  | 121 => ⟨S50000x256, .f32⟩
  | 122 => ⟨S1x256, .f32⟩
  | 123 => ⟨S50000x256, .f32⟩
  | 124 => ⟨S50000x256, .f32⟩
  | 125 => ⟨S50000x256, .f32⟩
  | 126 => ⟨S1x256x256, .f32⟩
  | 127 => ⟨S256x256, .f32⟩
  | _ => ⟨S50000x128, .f32⟩

abbrev hbmTy0_1 (i : Nat) : BufTy := match i % 128 with
  | 0 => ⟨S1x256, .f32⟩
  | 1 => ⟨S256, .f32⟩
  | 2 => ⟨S50000x256, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000x256, .f32⟩
  | 12 => ⟨S850000x1, .f32⟩
  | 13 => ⟨S850000x256, .f32⟩
  | 14 => ⟨S850000x256, .f32⟩
  | 15 => ⟨S_, .f32⟩
  | 16 => ⟨S50000x256, .f32⟩
  | 17 => ⟨S850000x1, .i32⟩
  | 18 => ⟨S50000x256, .f32⟩
  | 19 => ⟨S1x256, .f32⟩
  | 20 => ⟨S50000x256, .f32⟩
  | 21 => ⟨S50000x256, .f32⟩
  | 22 => ⟨S50000x256, .f32⟩
  | 23 => ⟨S50000x64, .f32⟩
  | 24 => ⟨S1x64, .f32⟩
  | 25 => ⟨S50000x64, .f32⟩
  | 26 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_9 : Ref sig .tc := ⟨.hbm, 81, rfl⟩
abbrev main_v62 : Ref sig .tc := ⟨.hbm, 82, rfl⟩
abbrev main_v63 : Ref sig .tc := ⟨.hbm, 83, rfl⟩
abbrev main_c_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_12 : Ref sig .tc := ⟨.hbm, 106, rfl⟩
abbrev main_v84 : Ref sig .tc := ⟨.hbm, 107, rfl⟩
abbrev main_v85 : Ref sig .tc := ⟨.hbm, 108, rfl⟩
abbrev main_c_13 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_14 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_c_15 : Ref sig .tc := ⟨.hbm, 131, rfl⟩
abbrev main_v106 : Ref sig .tc := ⟨.hbm, 132, rfl⟩
abbrev main_v107 : Ref sig .tc := ⟨.hbm, 133, rfl⟩
abbrev main_c_16 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_17 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelRun.lean ====
/- The run of the kernel program with its result named: from any launch memory with zero counters every weakly fair
   execution of @main on the TensorCores terminates without fault, the result buffer holds the last boundary's contents
   of the fold of buffer contents through @main, and the argument arrays are as launched. The statement is the
   frame claim with one more conjunct (the result buffer read against the final boundary). -/
import proofs.«175976_j4475355922587_2_alg».proof.Proof.Gen.KernelIdeal.Frame

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- The run with its result: the result buffer `main_v90` ends at the last boundary's contents `Gen.W17`, and every
    argument array ends as launched. -/
theorem run_result : θ_run defs (onTc (τ := τ) (main (F := F))) ⟨m, fun _ => 0, ρ⟩ (fun r => ∀ c : Dev nD,
      r.2.mem ((c.tc : Thread nD τ).loc main_v90) = Gen.W17 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨(h c _ (mem_uc main_v90 (by decide))),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c)⟩)

end Cert.KernelIdeal.Run

end
-- ==== Proof.KernelStages.lean ====
/-
  The host side of the kernel program, stage by stage, as functions of the argument arrays.

  From the edge list (two rows of 800000 node numbers) the program builds, with one self loop per node appended:
  the source and the destination of each of the 850000 edges; the destinations as a column of scatter indices; the
  sources, with a negative number moved up by the node count, as a column of gather indices; each node's in-degree as a
  scatter-add of ones; the node weight (the inverse square root of a positive degree, else zero) as a column.
  One aggregation gathers the rows of a node table by the sources and scatter-adds them at the destinations.
  Layer l's weight matrix and bias row are slices of the stacked parameters; the read-out matrix and bias are padded
  with zero columns from 64 to 128.
-/
import proofs.«175976_j4475355922587_2_alg».proof.Proof.Gen.KernelIdeal

noncomputable section

namespace Cert.KernelIdeal.Stages

open Cert.KernelIdeal Cert.KernelIdeal.Gen Idealize.ShloMosaic

variable {F : FTy → Type} [FloatOps F]

/-- The edge sources: row 0 of the edge list, then every node once. -/
def src (x1 : IVec S2x800000 32) : IVec S850000 32 :=
  concatenate S850000 0 [⟨S800000, shapeCast S800000 (extractStridedSlice S1x800000 ![0, 0] x1 slices_S2x800000_S1x800000_0_0) shapeCasts_S1x800000_S800000⟩,
    ⟨S50000, iotaInDim S50000 32 0⟩] concatenates_S800000_S50000_S850000_d0

/-- The edge destinations: row 1 of the edge list, then every node once. -/
def dst (x1 : IVec S2x800000 32) : IVec S850000 32 :=
  concatenate S850000 0 [⟨S800000, shapeCast S800000 (extractStridedSlice S1x800000 ![1, 0] x1 slices_S2x800000_S1x800000_1_0) shapeCasts_S1x800000_S800000⟩,
    ⟨S50000, iotaInDim S50000 32 0⟩] concatenates_S800000_S50000_S850000_d0

/-- The gather indices: the sources, a negative one moved up by the node count, as a column. -/
def srcCol (x1 : IVec S2x800000 32) : IVec S850000x1 32 :=
  broadcastInDim S850000x1 ![0] bcast_S850000_S850000x1_0
    (select (cmpi .slt (src x1) (broadcastInDim S850000 ![] bcast_S_S850000 (constantI S_ 32 0#32)))
      (addi (src x1) (broadcastInDim S850000 ![] bcast_S_S850000 (constantI S_ 32 50000#32))) (src x1))

/-- The scatter indices: the destinations as a column. -/
def dstCol (x1 : IVec S2x800000 32) : IVec S850000x1 32 :=
  broadcastInDim S850000x1 ![0] bcast_S850000_S850000x1_0 (dst x1)

/-- Each node's in-degree: a scatter-add of ones at the destinations. -/
def deg (x1 : IVec S2x800000 32) : FVec F S50000 .f32 :=
  Host.scatterAdd scatter_S50000_S850000x1_S850000_n_0_0_1
    (broadcastInDim S50000 ![] bcast_S_S50000 (constant (F := F) S_ .f32 0x00000000#32)) (dstCol x1)
    (broadcastInDim S850000 ![] bcast_S_S850000 (constant (F := F) S_ .f32 0x3F800000#32))

/-- The node weights: the inverse square root of a positive degree, zero otherwise. -/
def dinv (x1 : IVec S2x800000 32) : FVec F S50000 .f32 :=
  select (cmpf .ogt (deg (F := F) x1) (broadcastInDim S50000 ![] bcast_S_S50000 (constant (F := F) S_ .f32 0x00000000#32)))
    (Host.rsqrt (deg (F := F) x1)) (broadcastInDim S50000 ![] bcast_S_S50000 (constant (F := F) S_ .f32 0x00000000#32))

/-- The node weights as a column. -/
def dcol (x1 : IVec S2x800000 32) : FVec F S50000x1 .f32 :=
  shapeCast S50000x1 (dinv (F := F) x1) shapeCasts_S50000_S50000x1

/-- One aggregation of a node table: its rows gathered by the sources, scatter-added at the destinations. -/
def agg (S : FVec F S50000x256 .bf16) (x1 : IVec S2x800000 32) : FVec F S50000x256 .f32 :=
  Host.scatterAdd scatter_S50000x256_S850000x1_S850000x256_1_0_0_1
    (broadcastInDim S50000x256 ![] bcast_S_S50000x256 (constant (F := F) S_ .f32 0x00000000#32)) (dstCol x1)
    (extf .f32 (Host.gather gather_S50000x256_S850000x1_S850000x256_1_0_n_n_0_1_1256 S (srcCol x1)) bitsLt_bf16_f32)

/-- The embedding bias as a row. -/
def beRow (x3 : FVec F S256 .f32) : FVec F S1x256 .f32 := shapeCast S1x256 x3 shapeCasts_S256_S1x256

/-- The weight matrix of layer 0 … 3. -/
def wc0 (x4 : FVec F S4x256x256 .f32) : FVec F S256x256 .f32 :=
  shapeCast S256x256 (extractStridedSlice S1x256x256 ![0, 0, 0] x4 slices_S4x256x256_S1x256x256_0_0_0) shapeCasts_S1x256x256_S256x256
def wc1 (x4 : FVec F S4x256x256 .f32) : FVec F S256x256 .f32 :=
  shapeCast S256x256 (extractStridedSlice S1x256x256 ![1, 0, 0] x4 slices_S4x256x256_S1x256x256_1_0_0) shapeCasts_S1x256x256_S256x256
def wc2 (x4 : FVec F S4x256x256 .f32) : FVec F S256x256 .f32 :=
  shapeCast S256x256 (extractStridedSlice S1x256x256 ![2, 0, 0] x4 slices_S4x256x256_S1x256x256_2_0_0) shapeCasts_S1x256x256_S256x256
def wc3 (x4 : FVec F S4x256x256 .f32) : FVec F S256x256 .f32 :=
  shapeCast S256x256 (extractStridedSlice S1x256x256 ![3, 0, 0] x4 slices_S4x256x256_S1x256x256_3_0_0) shapeCasts_S1x256x256_S256x256

/-- The bias of layer 0 … 3 as a row. -/
def bRow0 (x5 : FVec F S4x256 .f32) : FVec F S1x256 .f32 :=
  shapeCast S1x256 (shapeCast S256 (extractStridedSlice S1x256 ![0, 0] x5 slices_S4x256_S1x256_0_0) shapeCasts_S1x256_S256) shapeCasts_S256_S1x256
def bRow1 (x5 : FVec F S4x256 .f32) : FVec F S1x256 .f32 :=
  shapeCast S1x256 (shapeCast S256 (extractStridedSlice S1x256 ![1, 0] x5 slices_S4x256_S1x256_1_0) shapeCasts_S1x256_S256) shapeCasts_S256_S1x256
def bRow2 (x5 : FVec F S4x256 .f32) : FVec F S1x256 .f32 :=
  shapeCast S1x256 (shapeCast S256 (extractStridedSlice S1x256 ![2, 0] x5 slices_S4x256_S1x256_2_0) shapeCasts_S1x256_S256) shapeCasts_S256_S1x256
def bRow3 (x5 : FVec F S4x256 .f32) : FVec F S1x256 .f32 :=
  shapeCast S1x256 (shapeCast S256 (extractStridedSlice S1x256 ![3, 0] x5 slices_S4x256_S1x256_3_0) shapeCasts_S1x256_S256) shapeCasts_S256_S1x256

/-- The read-out matrix and bias, padded with zero columns. -/
def woPad (x6 : FVec F S256x64 .f32) : FVec F S256x128 .f32 :=
  pad S256x128 ![0, 0] ![0, 64] ![0, 0] x6 (sitofp .f32 (constantI S_ 32 0#32)) pads_S256x64_S256x128_000_0640 h_S_
def boPadRow (x7 : FVec F S64 .f32) : FVec F S1x128 .f32 :=
  shapeCast S1x128 (pad S128 ![0] ![64] ![0] x7 (sitofp .f32 (constantI S_ 32 0#32)) pads_S64_S128_0640 h_S_) shapeCasts_S128_S1x128

/-- The result: the first 64 columns of the padded read-out. -/
def cols64 (y : FVec F S50000x128 .f32) : FVec F S50000x64 .f32 :=
  extractStridedSlice S50000x64 ![0, 0] y slices_S50000x128_S50000x64_0_0

end Cert.KernelIdeal.Stages

end
-- ==== Proof.LibKeeps.lean ====
/-
  A straight line of host operations leaves every buffer it does not write as it was. Which buffers a line writes is
  read off the line itself: each operation writes exactly its result reference. The tactic below proves, for a literal
  line `ops` and a literal list `W` of references, that every operation's written set lies inside `W`; the library's
  `StableHlo.after_of_writes_sub` then gives `after ops V b = V b` for any reference `b` outside `W`
  (membership in `W` is decided over references).
-/
import Idealize.ShloMosaic.Lib.StableHlo.Run

open Idealize.ShloMosaic

/-- Closes `ops.Forall fun op => op.writes ⊆ (W.map (Proc.devRef .tc)).toFinset` for a literal line `ops` (named by the
    identifier given, so that it can be unfolded) of the library's operation builders and a literal list `W` holding
    every result reference of the line: the conjunction is split, each builder's written set is the singleton of its
    result reference, and that reference is found in `W` by `decide`. -/
macro "host_writes" ops:ident : tactic =>
  `(tactic| (simp only [$ops:ident, List.Forall]
             repeat' apply And.intro
             all_goals
               (simp only [StableHlo.nullary_writes, StableHlo.unary_writes, StableHlo.binary_writes, StableHlo.ternary_writes,
                  StableHlo.quaternary_writes, StableHlo.reshape_writes, StableHlo.binaryIndexed_writes,
                  StableHlo.unaryIndexed_writes, StableHlo.nary_writes, Finset.singleton_subset_iff, List.mem_toFinset]
                exact List.mem_map_of_mem (by decide))))
-- ==== Proof.LibRefsNe.lean ====
/-
  A buffer name differs from every name of a list, shown one comparison at a time.

  The statement "for every y in [a1, …, an], b ≠ y" is a conjunction of n separate comparisons of names; peeling the
  list entry by entry and deciding each comparison by itself keeps every step small, where deciding the whole
  quantified statement at once builds a term that grows with the square of the list's length.
-/

/-- Closes a goal `∀ y ∈ [a1, …, an], b ≠ y` over decidable comparisons: one comparison per entry of the list. -/
macro "refs_ne" : tactic =>
  `(tactic| (repeat' (first | refine List.forall_mem_cons.mpr ⟨by decide, ?_⟩ | exact fun _ h => nomatch h)))
-- ==== Proof.KernelChain.lean ====
/- The chain of buffer contents of the kernel program, from the launch memory to each region's entry and to the result.

   The generated run is a fold of buffer contents through @main: a stretch of host operations rewrites the buffers it
   writes and keeps the rest; a region leaves its output array at what its write-backs fold to and every other buffer as
   it found it. Each lemma below reads ONE buffer at ONE boundary of that fold, from the same buffer (or the buffers the
   writing operation reads) one boundary earlier. The host side's values are the stage functions of the argument arrays
   (module KernelStages); a region's output stays named by the region's own proof data at its entry contents. -/
import proofs.«175976_j4475355922587_2_alg».proof.Proof.Gen.KernelIdeal.Frame
import proofs.«175976_j4475355922587_2_alg».proof.Proof.KernelStages
import proofs.«175976_j4475355922587_2_alg».proof.Proof.LibKeeps
import proofs.«175976_j4475355922587_2_alg».proof.Proof.LibRefsNe

set_option maxRecDepth 16384

noncomputable section

namespace Cert.KernelIdeal.Chain

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (ρ : Dev nD → PrngReg) (c : Dev nD)

/-! ## A stretch of host operations keeps every buffer it does not write -/

/-- The references `hostOps0` writes. -/
def L0 : List (Ref sig .tc) := [main_v0, main_v1, main_v2, main_v3, main_v4, main_v5, main_v6, main_cst, main_v7, main_cst_0, main_v8, main_v9, main_v10, main_cst_1, main_v11, main_v12, main_v13, main_cst_2, main_v14]
theorem keeps0 (V : Valuation τ sig (Elt F)) {r : Ref sig .tc} (hr : r ∉ L0) :
    StableHlo.after hostOps0 V (Proc.devRef .tc r) = V (Proc.devRef .tc r) :=
  StableHlo.after_of_writes_sub hostOps0 V (by host_writes hostOps0) hr

/-- The references `hostOps0_1` writes. -/
def L0_1 : List (Ref sig .tc) := [main_v15]
theorem keeps0_1 (V : Valuation τ sig (Elt F)) {r : Ref sig .tc} (hr : r ∉ L0_1) :
    StableHlo.after hostOps0_1 V (Proc.devRef .tc r) = V (Proc.devRef .tc r) :=
  StableHlo.after_of_writes_sub hostOps0_1 V (by host_writes hostOps0_1) hr

/-- The references `hostOps0_2` writes. -/
def L0_2 : List (Ref sig .tc) := [main_v16, main_v17, main_v18, main_v19]
theorem keeps0_2 (V : Valuation τ sig (Elt F)) {r : Ref sig .tc} (hr : r ∉ L0_2) :
    StableHlo.after hostOps0_2 V (Proc.devRef .tc r) = V (Proc.devRef .tc r) :=
  StableHlo.after_of_writes_sub hostOps0_2 V (by host_writes hostOps0_2) hr

/-- The references `hostOps1` writes. -/
def L1 : List (Ref sig .tc) := [main_c, main_v21, main_v22, main_c_3, main_v23, main_v24, main_v25, main_v26, main_v27, main_v28, main_cst_4, main_v29, main_v30, main_v31, main_v32, main_v33, main_v34, main_v35, main_v36]
theorem keeps1 (V : Valuation τ sig (Elt F)) {r : Ref sig .tc} (hr : r ∉ L1) :
    StableHlo.after hostOps1 V (Proc.devRef .tc r) = V (Proc.devRef .tc r) :=
  StableHlo.after_of_writes_sub hostOps1 V (by host_writes hostOps1) hr

/-- The references `hostOps2` writes. -/
def L2 : List (Ref sig .tc) := [main_c_5, main_v38, main_v39, main_c_6, main_v40, main_v41, main_v42, main_v43, main_v44, main_v45, main_cst_7, main_v46, main_v47, main_v48, main_v49, main_v50, main_v51, main_v52, main_v53]
theorem keeps2 (V : Valuation τ sig (Elt F)) {r : Ref sig .tc} (hr : r ∉ L2) :
    StableHlo.after hostOps2 V (Proc.devRef .tc r) = V (Proc.devRef .tc r) :=
  StableHlo.after_of_writes_sub hostOps2 V (by host_writes hostOps2) hr

/-- The references `hostOps3` writes. -/
def L3 : List (Ref sig .tc) := [main_c_8, main_v55, main_v56, main_c_9, main_v57, main_v58, main_v59, main_v60, main_v61, main_v62, main_cst_10, main_v63, main_v64, main_v65, main_v66, main_v67, main_v68, main_v69, main_v70]
theorem keeps3 (V : Valuation τ sig (Elt F)) {r : Ref sig .tc} (hr : r ∉ L3) :
    StableHlo.after hostOps3 V (Proc.devRef .tc r) = V (Proc.devRef .tc r) :=
  StableHlo.after_of_writes_sub hostOps3 V (by host_writes hostOps3) hr

/-- The references `hostOps4` writes. -/
def L4 : List (Ref sig .tc) := [main_c_11, main_v72, main_v73, main_c_12, main_v74, main_v75, main_v76, main_v77, main_v78, main_v79, main_cst_13, main_v80, main_v81, main_v82, main_c_14]
theorem keeps4 (V : Valuation τ sig (Elt F)) {r : Ref sig .tc} (hr : r ∉ L4) :
    StableHlo.after hostOps4 V (Proc.devRef .tc r) = V (Proc.devRef .tc r) :=
  StableHlo.after_of_writes_sub hostOps4 V (by host_writes hostOps4) hr

/-- The references `hostOps4_1` writes. -/
def L4_1 : List (Ref sig .tc) := [main_call1_v0, main_v83]
theorem keeps4_1 (V : Valuation τ sig (Elt F)) {r : Ref sig .tc} (hr : r ∉ L4_1) :
    StableHlo.after hostOps4_1 V (Proc.devRef .tc r) = V (Proc.devRef .tc r) :=
  StableHlo.after_of_writes_sub hostOps4_1 V (by host_writes hostOps4_1) hr

/-- The references `hostOps4_2` writes. -/
def L4_2 : List (Ref sig .tc) := [main_c_15]
theorem keeps4_2 (V : Valuation τ sig (Elt F)) {r : Ref sig .tc} (hr : r ∉ L4_2) :
    StableHlo.after hostOps4_2 V (Proc.devRef .tc r) = V (Proc.devRef .tc r) :=
  StableHlo.after_of_writes_sub hostOps4_2 V (by host_writes hostOps4_2) hr

/-- The references `hostOps4_3` writes. -/
def L4_3 : List (Ref sig .tc) := [main_call2_v0, main_v84]
theorem keeps4_3 (V : Valuation τ sig (Elt F)) {r : Ref sig .tc} (hr : r ∉ L4_3) :
    StableHlo.after hostOps4_3 V (Proc.devRef .tc r) = V (Proc.devRef .tc r) :=
  StableHlo.after_of_writes_sub hostOps4_3 V (by host_writes hostOps4_3) hr

/-- The references `hostOps4_4` writes. -/
def L4_4 : List (Ref sig .tc) := [main_v85, main_v86, main_v87, main_v88]
theorem keeps4_4 (V : Valuation τ sig (Elt F)) {r : Ref sig .tc} (hr : r ∉ L4_4) :
    StableHlo.after hostOps4_4 V (Proc.devRef .tc r) = V (Proc.devRef .tc r) :=
  StableHlo.after_of_writes_sub hostOps4_4 V (by host_writes hostOps4_4) hr

/-- The references `hostOps5` writes. -/
def L5 : List (Ref sig .tc) := [main_v90]
theorem keeps5 (V : Valuation τ sig (Elt F)) {r : Ref sig .tc} (hr : r ∉ L5) :
    StableHlo.after hostOps5 V (Proc.devRef .tc r) = V (Proc.devRef .tc r) :=
  StableHlo.after_of_writes_sub hostOps5 V (by host_writes hostOps5) hr

/-! ## What a stretch of host operations leaves in a buffer it writes, from any contents `V` -/

theorem ops0_v3 (V : Valuation τ sig (Elt F)) :
    (StableHlo.after hostOps0 V (Proc.devRef .tc main_v3) : (⟨S850000, .i32⟩ : BufTy).Contents (Elt F)) = Stages.src (V (Proc.devRef .tc main_arg1)) := by
  after_results <;> rfl

theorem ops0_v6 (V : Valuation τ sig (Elt F)) :
    (StableHlo.after hostOps0 V (Proc.devRef .tc main_v6) : (⟨S850000, .i32⟩ : BufTy).Contents (Elt F)) = Stages.dst (V (Proc.devRef .tc main_arg1)) := by
  after_results <;> rfl

theorem ops0_v12 (V : Valuation τ sig (Elt F)) :
    (StableHlo.after hostOps0 V (Proc.devRef .tc main_v12) : (⟨S50000, .i1⟩ : BufTy).Contents (Elt F)) = cmpf .ogt (Stages.deg (F := F) (V (Proc.devRef .tc main_arg1))) (broadcastInDim S50000 ![] bcast_S_S50000 (constant (F := F) S_ .f32 0x00000000#32)) := by
  after_results <;> rfl

theorem ops0_v13 (V : Valuation τ sig (Elt F)) :
    (StableHlo.after hostOps0 V (Proc.devRef .tc main_v13) : (⟨S50000, .f32⟩ : BufTy).Contents (Elt F)) = Host.rsqrt (Stages.deg (F := F) (V (Proc.devRef .tc main_arg1))) := by
  after_results <;> rfl

theorem ops0_v14 (V : Valuation τ sig (Elt F)) :
    (StableHlo.after hostOps0 V (Proc.devRef .tc main_v14) : (⟨S50000, .f32⟩ : BufTy).Contents (Elt F)) = broadcastInDim S50000 ![] bcast_S_S50000 (constant (F := F) S_ .f32 0x00000000#32) := by
  after_results <;> rfl

theorem ops0_1_v15 (V : Valuation τ sig (Elt F)) :
    (StableHlo.after hostOps0_1 V (Proc.devRef .tc main_v15) : (⟨S50000, .f32⟩ : BufTy).Contents (Elt F)) = select (V (Proc.devRef .tc main_v12)) (V (Proc.devRef .tc main_v13)) (V (Proc.devRef .tc main_v14)) := by
  after_results <;> rfl

theorem ops0_2_v16 (V : Valuation τ sig (Elt F)) :
    (StableHlo.after hostOps0_2 V (Proc.devRef .tc main_v16) : (⟨S50000x1, .f32⟩ : BufTy).Contents (Elt F)) = shapeCast S50000x1 (V (Proc.devRef .tc main_v15)) shapeCasts_S50000_S50000x1 := by
  after_results <;> rfl

theorem ops0_2_v18 (V : Valuation τ sig (Elt F)) :
    (StableHlo.after hostOps0_2 V (Proc.devRef .tc main_v18) : (⟨S256x256, .f32⟩ : BufTy).Contents (Elt F)) = Stages.wc0 (V (Proc.devRef .tc main_arg4)) := by
  after_results <;> rfl

theorem ops0_2_v19 (V : Valuation τ sig (Elt F)) :
    (StableHlo.after hostOps0_2 V (Proc.devRef .tc main_v19) : (⟨S1x256, .f32⟩ : BufTy).Contents (Elt F)) = Stages.beRow (V (Proc.devRef .tc main_arg3)) := by
  after_results <;> rfl

theorem ops1_v31 (V : Valuation τ sig (Elt F)) (x1 : IVec S2x800000 32)
    (h3 : (V (Proc.devRef .tc main_v3) : (⟨S850000, .i32⟩ : BufTy).Contents (Elt F)) = Stages.src x1) (h6 : (V (Proc.devRef .tc main_v6) : (⟨S850000, .i32⟩ : BufTy).Contents (Elt F)) = Stages.dst x1) :
    (StableHlo.after hostOps1 V (Proc.devRef .tc main_v31) : (⟨S50000x256, .f32⟩ : BufTy).Contents (Elt F)) = Stages.agg (V (Proc.devRef .tc main_v20)) x1 := by
  after_results_simp; rw [h3, h6] <;> rfl

theorem ops1_v36 (V : Valuation τ sig (Elt F)) :
    (StableHlo.after hostOps1 V (Proc.devRef .tc main_v36) : (⟨S1x256, .f32⟩ : BufTy).Contents (Elt F)) = Stages.bRow0 (V (Proc.devRef .tc main_arg5)) := by
  after_results <;> rfl

theorem ops1_v35 (V : Valuation τ sig (Elt F)) :
    (StableHlo.after hostOps1 V (Proc.devRef .tc main_v35) : (⟨S256x256, .f32⟩ : BufTy).Contents (Elt F)) = Stages.wc1 (V (Proc.devRef .tc main_arg4)) := by
  after_results <;> rfl

theorem ops2_v48 (V : Valuation τ sig (Elt F)) (x1 : IVec S2x800000 32)
    (h3 : (V (Proc.devRef .tc main_v3) : (⟨S850000, .i32⟩ : BufTy).Contents (Elt F)) = Stages.src x1) (h6 : (V (Proc.devRef .tc main_v6) : (⟨S850000, .i32⟩ : BufTy).Contents (Elt F)) = Stages.dst x1) :
    (StableHlo.after hostOps2 V (Proc.devRef .tc main_v48) : (⟨S50000x256, .f32⟩ : BufTy).Contents (Elt F)) = Stages.agg (V (Proc.devRef .tc main_v37)) x1 := by
  after_results_simp; rw [h3, h6] <;> rfl

theorem ops2_v53 (V : Valuation τ sig (Elt F)) :
    (StableHlo.after hostOps2 V (Proc.devRef .tc main_v53) : (⟨S1x256, .f32⟩ : BufTy).Contents (Elt F)) = Stages.bRow1 (V (Proc.devRef .tc main_arg5)) := by
  after_results <;> rfl

theorem ops2_v52 (V : Valuation τ sig (Elt F)) :
    (StableHlo.after hostOps2 V (Proc.devRef .tc main_v52) : (⟨S256x256, .f32⟩ : BufTy).Contents (Elt F)) = Stages.wc2 (V (Proc.devRef .tc main_arg4)) := by
  after_results <;> rfl

theorem ops3_v65 (V : Valuation τ sig (Elt F)) (x1 : IVec S2x800000 32)
    (h3 : (V (Proc.devRef .tc main_v3) : (⟨S850000, .i32⟩ : BufTy).Contents (Elt F)) = Stages.src x1) (h6 : (V (Proc.devRef .tc main_v6) : (⟨S850000, .i32⟩ : BufTy).Contents (Elt F)) = Stages.dst x1) :
    (StableHlo.after hostOps3 V (Proc.devRef .tc main_v65) : (⟨S50000x256, .f32⟩ : BufTy).Contents (Elt F)) = Stages.agg (V (Proc.devRef .tc main_v54)) x1 := by
  after_results_simp; rw [h3, h6] <;> rfl

theorem ops3_v70 (V : Valuation τ sig (Elt F)) :
    (StableHlo.after hostOps3 V (Proc.devRef .tc main_v70) : (⟨S1x256, .f32⟩ : BufTy).Contents (Elt F)) = Stages.bRow2 (V (Proc.devRef .tc main_arg5)) := by
  after_results <;> rfl

theorem ops3_v69 (V : Valuation τ sig (Elt F)) :
    (StableHlo.after hostOps3 V (Proc.devRef .tc main_v69) : (⟨S256x256, .f32⟩ : BufTy).Contents (Elt F)) = Stages.wc3 (V (Proc.devRef .tc main_arg4)) := by
  after_results <;> rfl

theorem ops4_v82 (V : Valuation τ sig (Elt F)) (x1 : IVec S2x800000 32)
    (h3 : (V (Proc.devRef .tc main_v3) : (⟨S850000, .i32⟩ : BufTy).Contents (Elt F)) = Stages.src x1) (h6 : (V (Proc.devRef .tc main_v6) : (⟨S850000, .i32⟩ : BufTy).Contents (Elt F)) = Stages.dst x1) :
    (StableHlo.after hostOps4 V (Proc.devRef .tc main_v82) : (⟨S50000x256, .f32⟩ : BufTy).Contents (Elt F)) = Stages.agg (V (Proc.devRef .tc main_v71)) x1 := by
  after_results_simp; rw [h3, h6] <;> rfl

theorem ops4_c_14 (V : Valuation τ sig (Elt F)) :
    (StableHlo.after hostOps4 V (Proc.devRef .tc main_c_14) : (⟨S_, .i32⟩ : BufTy).Contents (Elt F)) = constantI S_ 32 0#32 := by
  after_results <;> rfl

theorem ops4_1_v83 (V : Valuation τ sig (Elt F)) :
    (StableHlo.after hostOps4_1 V (Proc.devRef .tc main_v83) : (⟨S256x128, .f32⟩ : BufTy).Contents (Elt F)) = pad S256x128 ![0, 0] ![0, 64] ![0, 0] (V (Proc.devRef .tc main_arg6)) (sitofp .f32 (V (Proc.devRef .tc main_c_14))) pads_S256x64_S256x128_000_0640 h_S_ := by
  after_results <;> rfl

theorem ops4_2_c_15 (V : Valuation τ sig (Elt F)) :
    (StableHlo.after hostOps4_2 V (Proc.devRef .tc main_c_15) : (⟨S_, .i32⟩ : BufTy).Contents (Elt F)) = constantI S_ 32 0#32 := by
  after_results <;> rfl

theorem ops4_3_v84 (V : Valuation τ sig (Elt F)) :
    (StableHlo.after hostOps4_3 V (Proc.devRef .tc main_v84) : (⟨S128, .f32⟩ : BufTy).Contents (Elt F)) = pad S128 ![0] ![64] ![0] (V (Proc.devRef .tc main_arg7)) (sitofp .f32 (V (Proc.devRef .tc main_c_15))) pads_S64_S128_0640 h_S_ := by
  after_results <;> rfl

theorem ops4_4_v87 (V : Valuation τ sig (Elt F)) :
    (StableHlo.after hostOps4_4 V (Proc.devRef .tc main_v87) : (⟨S1x256, .f32⟩ : BufTy).Contents (Elt F)) = Stages.bRow3 (V (Proc.devRef .tc main_arg5)) := by
  after_results <;> rfl

theorem ops4_4_v88 (V : Valuation τ sig (Elt F)) :
    (StableHlo.after hostOps4_4 V (Proc.devRef .tc main_v88) : (⟨S1x128, .f32⟩ : BufTy).Contents (Elt F)) = shapeCast S1x128 (V (Proc.devRef .tc main_v84)) shapeCasts_S128_S1x128 := by
  after_results <;> rfl

theorem ops5_v90 (V : Valuation τ sig (Elt F)) :
    (StableHlo.after hostOps5 V (Proc.devRef .tc main_v90) : (⟨S50000x64, .f32⟩ : BufTy).Contents (Elt F)) = Stages.cols64 (V (Proc.devRef .tc main_v89)) := by
  after_results <;> rfl

/-! ## The fold, boundary by boundary -/

/-! ### The launch memory -/

theorem W0_arg0 : (Gen.W0 m ρ c (Proc.devRef .tc main_arg0) : (⟨S50000x128, .f32⟩ : BufTy).Contents (Elt F)) = (m ((c.tc : Thread nD τ).loc main_arg0)) :=
  rfl

theorem W0_arg1 : (Gen.W0 m ρ c (Proc.devRef .tc main_arg1) : (⟨S2x800000, .i32⟩ : BufTy).Contents (Elt F)) = (m ((c.tc : Thread nD τ).loc main_arg1)) :=
  rfl

theorem W0_arg2 : (Gen.W0 m ρ c (Proc.devRef .tc main_arg2) : (⟨S128x256, .f32⟩ : BufTy).Contents (Elt F)) = (m ((c.tc : Thread nD τ).loc main_arg2)) :=
  rfl

theorem W0_arg3 : (Gen.W0 m ρ c (Proc.devRef .tc main_arg3) : (⟨S256, .f32⟩ : BufTy).Contents (Elt F)) = (m ((c.tc : Thread nD τ).loc main_arg3)) :=
  rfl

theorem W0_arg4 : (Gen.W0 m ρ c (Proc.devRef .tc main_arg4) : (⟨S4x256x256, .f32⟩ : BufTy).Contents (Elt F)) = (m ((c.tc : Thread nD τ).loc main_arg4)) :=
  rfl

theorem W0_arg5 : (Gen.W0 m ρ c (Proc.devRef .tc main_arg5) : (⟨S4x256, .f32⟩ : BufTy).Contents (Elt F)) = (m ((c.tc : Thread nD τ).loc main_arg5)) :=
  rfl

theorem W0_arg6 : (Gen.W0 m ρ c (Proc.devRef .tc main_arg6) : (⟨S256x64, .f32⟩ : BufTy).Contents (Elt F)) = (m ((c.tc : Thread nD τ).loc main_arg6)) :=
  rfl

theorem W0_arg7 : (Gen.W0 m ρ c (Proc.devRef .tc main_arg7) : (⟨S64, .f32⟩ : BufTy).Contents (Elt F)) = (m ((c.tc : Thread nD τ).loc main_arg7)) :=
  rfl

/-! ### Boundary 1: after `hostOps0` -/

theorem W1_v3 : (Gen.W1 m ρ c (Proc.devRef .tc main_v3) : (⟨S850000, .i32⟩ : BufTy).Contents (Elt F)) = Stages.src (m ((c.tc : Thread nD τ).loc main_arg1)) :=
  ops0_v3 (Gen.W0 m ρ c)

theorem W1_v6 : (Gen.W1 m ρ c (Proc.devRef .tc main_v6) : (⟨S850000, .i32⟩ : BufTy).Contents (Elt F)) = Stages.dst (m ((c.tc : Thread nD τ).loc main_arg1)) :=
  ops0_v6 (Gen.W0 m ρ c)

theorem W1_v12 : (Gen.W1 m ρ c (Proc.devRef .tc main_v12) : (⟨S50000, .i1⟩ : BufTy).Contents (Elt F)) = cmpf .ogt (Stages.deg (F := F) (m ((c.tc : Thread nD τ).loc main_arg1))) (broadcastInDim S50000 ![] bcast_S_S50000 (constant (F := F) S_ .f32 0x00000000#32)) :=
  ops0_v12 (Gen.W0 m ρ c)

theorem W1_v13 : (Gen.W1 m ρ c (Proc.devRef .tc main_v13) : (⟨S50000, .f32⟩ : BufTy).Contents (Elt F)) = Host.rsqrt (Stages.deg (F := F) (m ((c.tc : Thread nD τ).loc main_arg1))) :=
  ops0_v13 (Gen.W0 m ρ c)

theorem W1_v14 : (Gen.W1 m ρ c (Proc.devRef .tc main_v14) : (⟨S50000, .f32⟩ : BufTy).Contents (Elt F)) = broadcastInDim S50000 ![] bcast_S_S50000 (constant (F := F) S_ .f32 0x00000000#32) :=
  ops0_v14 (Gen.W0 m ρ c)

theorem W1_arg0 : (Gen.W1 m ρ c (Proc.devRef .tc main_arg0) : (⟨S50000x128, .f32⟩ : BufTy).Contents (Elt F)) = (m ((c.tc : Thread nD τ).loc main_arg0)) :=
  (show Gen.W1 m ρ c (Proc.devRef .tc main_arg0) = Gen.W0 m ρ c (Proc.devRef .tc main_arg0) from keeps0 _ (by decide)).trans (W0_arg0 m ρ c)

theorem W1_arg2 : (Gen.W1 m ρ c (Proc.devRef .tc main_arg2) : (⟨S128x256, .f32⟩ : BufTy).Contents (Elt F)) = (m ((c.tc : Thread nD τ).loc main_arg2)) :=
  (show Gen.W1 m ρ c (Proc.devRef .tc main_arg2) = Gen.W0 m ρ c (Proc.devRef .tc main_arg2) from keeps0 _ (by decide)).trans (W0_arg2 m ρ c)

theorem W1_arg3 : (Gen.W1 m ρ c (Proc.devRef .tc main_arg3) : (⟨S256, .f32⟩ : BufTy).Contents (Elt F)) = (m ((c.tc : Thread nD τ).loc main_arg3)) :=
  (show Gen.W1 m ρ c (Proc.devRef .tc main_arg3) = Gen.W0 m ρ c (Proc.devRef .tc main_arg3) from keeps0 _ (by decide)).trans (W0_arg3 m ρ c)

theorem W1_arg4 : (Gen.W1 m ρ c (Proc.devRef .tc main_arg4) : (⟨S4x256x256, .f32⟩ : BufTy).Contents (Elt F)) = (m ((c.tc : Thread nD τ).loc main_arg4)) :=
  (show Gen.W1 m ρ c (Proc.devRef .tc main_arg4) = Gen.W0 m ρ c (Proc.devRef .tc main_arg4) from keeps0 _ (by decide)).trans (W0_arg4 m ρ c)

theorem W1_arg5 : (Gen.W1 m ρ c (Proc.devRef .tc main_arg5) : (⟨S4x256, .f32⟩ : BufTy).Contents (Elt F)) = (m ((c.tc : Thread nD τ).loc main_arg5)) :=
  (show Gen.W1 m ρ c (Proc.devRef .tc main_arg5) = Gen.W0 m ρ c (Proc.devRef .tc main_arg5) from keeps0 _ (by decide)).trans (W0_arg5 m ρ c)

theorem W1_arg6 : (Gen.W1 m ρ c (Proc.devRef .tc main_arg6) : (⟨S256x64, .f32⟩ : BufTy).Contents (Elt F)) = (m ((c.tc : Thread nD τ).loc main_arg6)) :=
  (show Gen.W1 m ρ c (Proc.devRef .tc main_arg6) = Gen.W0 m ρ c (Proc.devRef .tc main_arg6) from keeps0 _ (by decide)).trans (W0_arg6 m ρ c)

theorem W1_arg7 : (Gen.W1 m ρ c (Proc.devRef .tc main_arg7) : (⟨S64, .f32⟩ : BufTy).Contents (Elt F)) = (m ((c.tc : Thread nD τ).loc main_arg7)) :=
  (show Gen.W1 m ρ c (Proc.devRef .tc main_arg7) = Gen.W0 m ρ c (Proc.devRef .tc main_arg7) from keeps0 _ (by decide)).trans (W0_arg7 m ρ c)

/-! ### Boundary 2: after `hostOps0_1` -/

theorem W2_v15 : (Gen.W2 m ρ c (Proc.devRef .tc main_v15) : (⟨S50000, .f32⟩ : BufTy).Contents (Elt F)) = Stages.dinv (F := F) (m ((c.tc : Thread nD τ).loc main_arg1)) :=
  (ops0_1_v15 (Gen.W1 m ρ c)).trans (by rw [W1_v12 m ρ c, W1_v13 m ρ c, W1_v14 m ρ c] <;> rfl)

theorem W2_arg0 : (Gen.W2 m ρ c (Proc.devRef .tc main_arg0) : (⟨S50000x128, .f32⟩ : BufTy).Contents (Elt F)) = (m ((c.tc : Thread nD τ).loc main_arg0)) :=
  (show Gen.W2 m ρ c (Proc.devRef .tc main_arg0) = Gen.W1 m ρ c (Proc.devRef .tc main_arg0) from keeps0_1 _ (by decide)).trans (W1_arg0 m ρ c)

theorem W2_arg2 : (Gen.W2 m ρ c (Proc.devRef .tc main_arg2) : (⟨S128x256, .f32⟩ : BufTy).Contents (Elt F)) = (m ((c.tc : Thread nD τ).loc main_arg2)) :=
  (show Gen.W2 m ρ c (Proc.devRef .tc main_arg2) = Gen.W1 m ρ c (Proc.devRef .tc main_arg2) from keeps0_1 _ (by decide)).trans (W1_arg2 m ρ c)

theorem W2_arg3 : (Gen.W2 m ρ c (Proc.devRef .tc main_arg3) : (⟨S256, .f32⟩ : BufTy).Contents (Elt F)) = (m ((c.tc : Thread nD τ).loc main_arg3)) :=
  (show Gen.W2 m ρ c (Proc.devRef .tc main_arg3) = Gen.W1 m ρ c (Proc.devRef .tc main_arg3) from keeps0_1 _ (by decide)).trans (W1_arg3 m ρ c)

theorem W2_arg4 : (Gen.W2 m ρ c (Proc.devRef .tc main_arg4) : (⟨S4x256x256, .f32⟩ : BufTy).Contents (Elt F)) = (m ((c.tc : Thread nD τ).loc main_arg4)) :=
  (show Gen.W2 m ρ c (Proc.devRef .tc main_arg4) = Gen.W1 m ρ c (Proc.devRef .tc main_arg4) from keeps0_1 _ (by decide)).trans (W1_arg4 m ρ c)

theorem W2_arg5 : (Gen.W2 m ρ c (Proc.devRef .tc main_arg5) : (⟨S4x256, .f32⟩ : BufTy).Contents (Elt F)) = (m ((c.tc : Thread nD τ).loc main_arg5)) :=
  (show Gen.W2 m ρ c (Proc.devRef .tc main_arg5) = Gen.W1 m ρ c (Proc.devRef .tc main_arg5) from keeps0_1 _ (by decide)).trans (W1_arg5 m ρ c)

theorem W2_arg6 : (Gen.W2 m ρ c (Proc.devRef .tc main_arg6) : (⟨S256x64, .f32⟩ : BufTy).Contents (Elt F)) = (m ((c.tc : Thread nD τ).loc main_arg6)) :=
  (show Gen.W2 m ρ c (Proc.devRef .tc main_arg6) = Gen.W1 m ρ c (Proc.devRef .tc main_arg6) from keeps0_1 _ (by decide)).trans (W1_arg6 m ρ c)

theorem W2_arg7 : (Gen.W2 m ρ c (Proc.devRef .tc main_arg7) : (⟨S64, .f32⟩ : BufTy).Contents (Elt F)) = (m ((c.tc : Thread nD τ).loc main_arg7)) :=
  (show Gen.W2 m ρ c (Proc.devRef .tc main_arg7) = Gen.W1 m ρ c (Proc.devRef .tc main_arg7) from keeps0_1 _ (by decide)).trans (W1_arg7 m ρ c)

theorem W2_v3 : (Gen.W2 m ρ c (Proc.devRef .tc main_v3) : (⟨S850000, .i32⟩ : BufTy).Contents (Elt F)) = Stages.src (m ((c.tc : Thread nD τ).loc main_arg1)) :=
  (show Gen.W2 m ρ c (Proc.devRef .tc main_v3) = Gen.W1 m ρ c (Proc.devRef .tc main_v3) from keeps0_1 _ (by decide)).trans (W1_v3 m ρ c)

theorem W2_v6 : (Gen.W2 m ρ c (Proc.devRef .tc main_v6) : (⟨S850000, .i32⟩ : BufTy).Contents (Elt F)) = Stages.dst (m ((c.tc : Thread nD τ).loc main_arg1)) :=
  (show Gen.W2 m ρ c (Proc.devRef .tc main_v6) = Gen.W1 m ρ c (Proc.devRef .tc main_v6) from keeps0_1 _ (by decide)).trans (W1_v6 m ρ c)

/-! ### Boundary 3: after `hostOps0_2` -/

theorem W3_v16 : (Gen.W3 m ρ c (Proc.devRef .tc main_v16) : (⟨S50000x1, .f32⟩ : BufTy).Contents (Elt F)) = Stages.dcol (F := F) (m ((c.tc : Thread nD τ).loc main_arg1)) :=
  (ops0_2_v16 (Gen.W2 m ρ c)).trans (by rw [W2_v15 m ρ c] <;> rfl)

theorem W3_v18 : (Gen.W3 m ρ c (Proc.devRef .tc main_v18) : (⟨S256x256, .f32⟩ : BufTy).Contents (Elt F)) = Stages.wc0 (m ((c.tc : Thread nD τ).loc main_arg4)) :=
  (ops0_2_v18 (Gen.W2 m ρ c)).trans (by rw [W2_arg4 m ρ c])

theorem W3_v19 : (Gen.W3 m ρ c (Proc.devRef .tc main_v19) : (⟨S1x256, .f32⟩ : BufTy).Contents (Elt F)) = Stages.beRow (m ((c.tc : Thread nD τ).loc main_arg3)) :=
  (ops0_2_v19 (Gen.W2 m ρ c)).trans (by rw [W2_arg3 m ρ c])

theorem W3_arg0 : (Gen.W3 m ρ c (Proc.devRef .tc main_arg0) : (⟨S50000x128, .f32⟩ : BufTy).Contents (Elt F)) = (m ((c.tc : Thread nD τ).loc main_arg0)) :=
  (show Gen.W3 m ρ c (Proc.devRef .tc main_arg0) = Gen.W2 m ρ c (Proc.devRef .tc main_arg0) from keeps0_2 _ (by decide)).trans (W2_arg0 m ρ c)

theorem W3_arg2 : (Gen.W3 m ρ c (Proc.devRef .tc main_arg2) : (⟨S128x256, .f32⟩ : BufTy).Contents (Elt F)) = (m ((c.tc : Thread nD τ).loc main_arg2)) :=
  (show Gen.W3 m ρ c (Proc.devRef .tc main_arg2) = Gen.W2 m ρ c (Proc.devRef .tc main_arg2) from keeps0_2 _ (by decide)).trans (W2_arg2 m ρ c)

theorem W3_arg4 : (Gen.W3 m ρ c (Proc.devRef .tc main_arg4) : (⟨S4x256x256, .f32⟩ : BufTy).Contents (Elt F)) = (m ((c.tc : Thread nD τ).loc main_arg4)) :=
  (show Gen.W3 m ρ c (Proc.devRef .tc main_arg4) = Gen.W2 m ρ c (Proc.devRef .tc main_arg4) from keeps0_2 _ (by decide)).trans (W2_arg4 m ρ c)

theorem W3_arg5 : (Gen.W3 m ρ c (Proc.devRef .tc main_arg5) : (⟨S4x256, .f32⟩ : BufTy).Contents (Elt F)) = (m ((c.tc : Thread nD τ).loc main_arg5)) :=
  (show Gen.W3 m ρ c (Proc.devRef .tc main_arg5) = Gen.W2 m ρ c (Proc.devRef .tc main_arg5) from keeps0_2 _ (by decide)).trans (W2_arg5 m ρ c)

theorem W3_arg6 : (Gen.W3 m ρ c (Proc.devRef .tc main_arg6) : (⟨S256x64, .f32⟩ : BufTy).Contents (Elt F)) = (m ((c.tc : Thread nD τ).loc main_arg6)) :=
  (show Gen.W3 m ρ c (Proc.devRef .tc main_arg6) = Gen.W2 m ρ c (Proc.devRef .tc main_arg6) from keeps0_2 _ (by decide)).trans (W2_arg6 m ρ c)

theorem W3_arg7 : (Gen.W3 m ρ c (Proc.devRef .tc main_arg7) : (⟨S64, .f32⟩ : BufTy).Contents (Elt F)) = (m ((c.tc : Thread nD τ).loc main_arg7)) :=
  (show Gen.W3 m ρ c (Proc.devRef .tc main_arg7) = Gen.W2 m ρ c (Proc.devRef .tc main_arg7) from keeps0_2 _ (by decide)).trans (W2_arg7 m ρ c)

theorem W3_v3 : (Gen.W3 m ρ c (Proc.devRef .tc main_v3) : (⟨S850000, .i32⟩ : BufTy).Contents (Elt F)) = Stages.src (m ((c.tc : Thread nD τ).loc main_arg1)) :=
  (show Gen.W3 m ρ c (Proc.devRef .tc main_v3) = Gen.W2 m ρ c (Proc.devRef .tc main_v3) from keeps0_2 _ (by decide)).trans (W2_v3 m ρ c)

theorem W3_v6 : (Gen.W3 m ρ c (Proc.devRef .tc main_v6) : (⟨S850000, .i32⟩ : BufTy).Contents (Elt F)) = Stages.dst (m ((c.tc : Thread nD τ).loc main_arg1)) :=
  (show Gen.W3 m ρ c (Proc.devRef .tc main_v6) = Gen.W2 m ρ c (Proc.devRef .tc main_v6) from keeps0_2 _ (by decide)).trans (W2_v6 m ρ c)

/-! ### Boundary 4: region 0's exit -/

theorem W4_v20 : (Gen.W4 m ρ c (Proc.devRef .tc main_v20) : (⟨S50000x256, .bf16⟩ : BufTy).Contents (Elt F)) = (Gen.dat0 (Gen.V3 m ρ) c).arrAt 5 cfg0.N :=
  Gen.W4_arr m ρ c 5

theorem W4_arg4 : (Gen.W4 m ρ c (Proc.devRef .tc main_arg4) : (⟨S4x256x256, .f32⟩ : BufTy).Contents (Elt F)) = (m ((c.tc : Thread nD τ).loc main_arg4)) :=
  (show Gen.W4 m ρ c (Proc.devRef .tc main_arg4) = Gen.W3 m ρ c (Proc.devRef .tc main_arg4) from Gen.W4_of_ne m ρ c main_arg4 (by decide)).trans (W3_arg4 m ρ c)

theorem W4_arg5 : (Gen.W4 m ρ c (Proc.devRef .tc main_arg5) : (⟨S4x256, .f32⟩ : BufTy).Contents (Elt F)) = (m ((c.tc : Thread nD τ).loc main_arg5)) :=
  (show Gen.W4 m ρ c (Proc.devRef .tc main_arg5) = Gen.W3 m ρ c (Proc.devRef .tc main_arg5) from Gen.W4_of_ne m ρ c main_arg5 (by decide)).trans (W3_arg5 m ρ c)

theorem W4_arg6 : (Gen.W4 m ρ c (Proc.devRef .tc main_arg6) : (⟨S256x64, .f32⟩ : BufTy).Contents (Elt F)) = (m ((c.tc : Thread nD τ).loc main_arg6)) :=
  (show Gen.W4 m ρ c (Proc.devRef .tc main_arg6) = Gen.W3 m ρ c (Proc.devRef .tc main_arg6) from Gen.W4_of_ne m ρ c main_arg6 (by decide)).trans (W3_arg6 m ρ c)

theorem W4_arg7 : (Gen.W4 m ρ c (Proc.devRef .tc main_arg7) : (⟨S64, .f32⟩ : BufTy).Contents (Elt F)) = (m ((c.tc : Thread nD τ).loc main_arg7)) :=
  (show Gen.W4 m ρ c (Proc.devRef .tc main_arg7) = Gen.W3 m ρ c (Proc.devRef .tc main_arg7) from Gen.W4_of_ne m ρ c main_arg7 (by decide)).trans (W3_arg7 m ρ c)

theorem W4_v3 : (Gen.W4 m ρ c (Proc.devRef .tc main_v3) : (⟨S850000, .i32⟩ : BufTy).Contents (Elt F)) = Stages.src (m ((c.tc : Thread nD τ).loc main_arg1)) :=
  (show Gen.W4 m ρ c (Proc.devRef .tc main_v3) = Gen.W3 m ρ c (Proc.devRef .tc main_v3) from Gen.W4_of_ne m ρ c main_v3 (by decide)).trans (W3_v3 m ρ c)

theorem W4_v6 : (Gen.W4 m ρ c (Proc.devRef .tc main_v6) : (⟨S850000, .i32⟩ : BufTy).Contents (Elt F)) = Stages.dst (m ((c.tc : Thread nD τ).loc main_arg1)) :=
  (show Gen.W4 m ρ c (Proc.devRef .tc main_v6) = Gen.W3 m ρ c (Proc.devRef .tc main_v6) from Gen.W4_of_ne m ρ c main_v6 (by decide)).trans (W3_v6 m ρ c)

theorem W4_v16 : (Gen.W4 m ρ c (Proc.devRef .tc main_v16) : (⟨S50000x1, .f32⟩ : BufTy).Contents (Elt F)) = Stages.dcol (F := F) (m ((c.tc : Thread nD τ).loc main_arg1)) :=
  (show Gen.W4 m ρ c (Proc.devRef .tc main_v16) = Gen.W3 m ρ c (Proc.devRef .tc main_v16) from (Gen.W4_arr m ρ c 4).trans (((Gen.dat0 (Gen.V3 m ρ) c).arrAt_in 4 rfl _).trans (Gen.A_eq0 (Gen.V3 m ρ) c 4))).trans (W3_v16 m ρ c)

/-! ### Boundary 5: after `hostOps1` -/

theorem W5_v31 : (Gen.W5 m ρ c (Proc.devRef .tc main_v31) : (⟨S50000x256, .f32⟩ : BufTy).Contents (Elt F)) = Stages.agg ((Gen.dat0 (Gen.V3 m ρ) c).arrAt 5 cfg0.N) (m ((c.tc : Thread nD τ).loc main_arg1)) :=
  (ops1_v31 (Gen.W4 m ρ c) (m ((c.tc : Thread nD τ).loc main_arg1)) (W4_v3 m ρ c) (W4_v6 m ρ c)).trans (by rw [W4_v20 m ρ c])

theorem W5_v36 : (Gen.W5 m ρ c (Proc.devRef .tc main_v36) : (⟨S1x256, .f32⟩ : BufTy).Contents (Elt F)) = Stages.bRow0 (m ((c.tc : Thread nD τ).loc main_arg5)) :=
  (ops1_v36 (Gen.W4 m ρ c)).trans (by rw [W4_arg5 m ρ c])

theorem W5_v35 : (Gen.W5 m ρ c (Proc.devRef .tc main_v35) : (⟨S256x256, .f32⟩ : BufTy).Contents (Elt F)) = Stages.wc1 (m ((c.tc : Thread nD τ).loc main_arg4)) :=
  (ops1_v35 (Gen.W4 m ρ c)).trans (by rw [W4_arg4 m ρ c])

theorem W5_arg4 : (Gen.W5 m ρ c (Proc.devRef .tc main_arg4) : (⟨S4x256x256, .f32⟩ : BufTy).Contents (Elt F)) = (m ((c.tc : Thread nD τ).loc main_arg4)) :=
  (show Gen.W5 m ρ c (Proc.devRef .tc main_arg4) = Gen.W4 m ρ c (Proc.devRef .tc main_arg4) from keeps1 _ (by decide)).trans (W4_arg4 m ρ c)

theorem W5_arg5 : (Gen.W5 m ρ c (Proc.devRef .tc main_arg5) : (⟨S4x256, .f32⟩ : BufTy).Contents (Elt F)) = (m ((c.tc : Thread nD τ).loc main_arg5)) :=
  (show Gen.W5 m ρ c (Proc.devRef .tc main_arg5) = Gen.W4 m ρ c (Proc.devRef .tc main_arg5) from keeps1 _ (by decide)).trans (W4_arg5 m ρ c)

theorem W5_arg6 : (Gen.W5 m ρ c (Proc.devRef .tc main_arg6) : (⟨S256x64, .f32⟩ : BufTy).Contents (Elt F)) = (m ((c.tc : Thread nD τ).loc main_arg6)) :=
  (show Gen.W5 m ρ c (Proc.devRef .tc main_arg6) = Gen.W4 m ρ c (Proc.devRef .tc main_arg6) from keeps1 _ (by decide)).trans (W4_arg6 m ρ c)

theorem W5_arg7 : (Gen.W5 m ρ c (Proc.devRef .tc main_arg7) : (⟨S64, .f32⟩ : BufTy).Contents (Elt F)) = (m ((c.tc : Thread nD τ).loc main_arg7)) :=
  (show Gen.W5 m ρ c (Proc.devRef .tc main_arg7) = Gen.W4 m ρ c (Proc.devRef .tc main_arg7) from keeps1 _ (by decide)).trans (W4_arg7 m ρ c)

theorem W5_v3 : (Gen.W5 m ρ c (Proc.devRef .tc main_v3) : (⟨S850000, .i32⟩ : BufTy).Contents (Elt F)) = Stages.src (m ((c.tc : Thread nD τ).loc main_arg1)) :=
  (show Gen.W5 m ρ c (Proc.devRef .tc main_v3) = Gen.W4 m ρ c (Proc.devRef .tc main_v3) from keeps1 _ (by decide)).trans (W4_v3 m ρ c)

theorem W5_v6 : (Gen.W5 m ρ c (Proc.devRef .tc main_v6) : (⟨S850000, .i32⟩ : BufTy).Contents (Elt F)) = Stages.dst (m ((c.tc : Thread nD τ).loc main_arg1)) :=
  (show Gen.W5 m ρ c (Proc.devRef .tc main_v6) = Gen.W4 m ρ c (Proc.devRef .tc main_v6) from keeps1 _ (by decide)).trans (W4_v6 m ρ c)

theorem W5_v16 : (Gen.W5 m ρ c (Proc.devRef .tc main_v16) : (⟨S50000x1, .f32⟩ : BufTy).Contents (Elt F)) = Stages.dcol (F := F) (m ((c.tc : Thread nD τ).loc main_arg1)) :=
  (show Gen.W5 m ρ c (Proc.devRef .tc main_v16) = Gen.W4 m ρ c (Proc.devRef .tc main_v16) from keeps1 _ (by decide)).trans (W4_v16 m ρ c)

/-! ### Boundary 6: region 1's exit -/

theorem W6_v37 : (Gen.W6 m ρ c (Proc.devRef .tc main_v37) : (⟨S50000x256, .bf16⟩ : BufTy).Contents (Elt F)) = (Gen.dat1 (Gen.V5 m ρ) c).arrAt 4 cfg1.N :=
  Gen.W6_arr m ρ c 4

theorem W6_arg4 : (Gen.W6 m ρ c (Proc.devRef .tc main_arg4) : (⟨S4x256x256, .f32⟩ : BufTy).Contents (Elt F)) = (m ((c.tc : Thread nD τ).loc main_arg4)) :=
  (show Gen.W6 m ρ c (Proc.devRef .tc main_arg4) = Gen.W5 m ρ c (Proc.devRef .tc main_arg4) from Gen.W6_of_ne m ρ c main_arg4 (by decide)).trans (W5_arg4 m ρ c)

theorem W6_arg5 : (Gen.W6 m ρ c (Proc.devRef .tc main_arg5) : (⟨S4x256, .f32⟩ : BufTy).Contents (Elt F)) = (m ((c.tc : Thread nD τ).loc main_arg5)) :=
  (show Gen.W6 m ρ c (Proc.devRef .tc main_arg5) = Gen.W5 m ρ c (Proc.devRef .tc main_arg5) from Gen.W6_of_ne m ρ c main_arg5 (by decide)).trans (W5_arg5 m ρ c)

theorem W6_arg6 : (Gen.W6 m ρ c (Proc.devRef .tc main_arg6) : (⟨S256x64, .f32⟩ : BufTy).Contents (Elt F)) = (m ((c.tc : Thread nD τ).loc main_arg6)) :=
  (show Gen.W6 m ρ c (Proc.devRef .tc main_arg6) = Gen.W5 m ρ c (Proc.devRef .tc main_arg6) from Gen.W6_of_ne m ρ c main_arg6 (by decide)).trans (W5_arg6 m ρ c)

theorem W6_arg7 : (Gen.W6 m ρ c (Proc.devRef .tc main_arg7) : (⟨S64, .f32⟩ : BufTy).Contents (Elt F)) = (m ((c.tc : Thread nD τ).loc main_arg7)) :=
  (show Gen.W6 m ρ c (Proc.devRef .tc main_arg7) = Gen.W5 m ρ c (Proc.devRef .tc main_arg7) from Gen.W6_of_ne m ρ c main_arg7 (by decide)).trans (W5_arg7 m ρ c)

theorem W6_v3 : (Gen.W6 m ρ c (Proc.devRef .tc main_v3) : (⟨S850000, .i32⟩ : BufTy).Contents (Elt F)) = Stages.src (m ((c.tc : Thread nD τ).loc main_arg1)) :=
  (show Gen.W6 m ρ c (Proc.devRef .tc main_v3) = Gen.W5 m ρ c (Proc.devRef .tc main_v3) from Gen.W6_of_ne m ρ c main_v3 (by decide)).trans (W5_v3 m ρ c)

theorem W6_v6 : (Gen.W6 m ρ c (Proc.devRef .tc main_v6) : (⟨S850000, .i32⟩ : BufTy).Contents (Elt F)) = Stages.dst (m ((c.tc : Thread nD τ).loc main_arg1)) :=
  (show Gen.W6 m ρ c (Proc.devRef .tc main_v6) = Gen.W5 m ρ c (Proc.devRef .tc main_v6) from Gen.W6_of_ne m ρ c main_v6 (by decide)).trans (W5_v6 m ρ c)

theorem W6_v16 : (Gen.W6 m ρ c (Proc.devRef .tc main_v16) : (⟨S50000x1, .f32⟩ : BufTy).Contents (Elt F)) = Stages.dcol (F := F) (m ((c.tc : Thread nD τ).loc main_arg1)) :=
  (show Gen.W6 m ρ c (Proc.devRef .tc main_v16) = Gen.W5 m ρ c (Proc.devRef .tc main_v16) from (Gen.W6_arr m ρ c 1).trans (((Gen.dat1 (Gen.V5 m ρ) c).arrAt_in 1 rfl _).trans (Gen.A_eq1 (Gen.V5 m ρ) c 1))).trans (W5_v16 m ρ c)

/-! ### Boundary 7: after `hostOps2` -/

theorem W7_v48 : (Gen.W7 m ρ c (Proc.devRef .tc main_v48) : (⟨S50000x256, .f32⟩ : BufTy).Contents (Elt F)) = Stages.agg ((Gen.dat1 (Gen.V5 m ρ) c).arrAt 4 cfg1.N) (m ((c.tc : Thread nD τ).loc main_arg1)) :=
  (ops2_v48 (Gen.W6 m ρ c) (m ((c.tc : Thread nD τ).loc main_arg1)) (W6_v3 m ρ c) (W6_v6 m ρ c)).trans (by rw [W6_v37 m ρ c])

theorem W7_v53 : (Gen.W7 m ρ c (Proc.devRef .tc main_v53) : (⟨S1x256, .f32⟩ : BufTy).Contents (Elt F)) = Stages.bRow1 (m ((c.tc : Thread nD τ).loc main_arg5)) :=
  (ops2_v53 (Gen.W6 m ρ c)).trans (by rw [W6_arg5 m ρ c])

theorem W7_v52 : (Gen.W7 m ρ c (Proc.devRef .tc main_v52) : (⟨S256x256, .f32⟩ : BufTy).Contents (Elt F)) = Stages.wc2 (m ((c.tc : Thread nD τ).loc main_arg4)) :=
  (ops2_v52 (Gen.W6 m ρ c)).trans (by rw [W6_arg4 m ρ c])

theorem W7_arg4 : (Gen.W7 m ρ c (Proc.devRef .tc main_arg4) : (⟨S4x256x256, .f32⟩ : BufTy).Contents (Elt F)) = (m ((c.tc : Thread nD τ).loc main_arg4)) :=
  (show Gen.W7 m ρ c (Proc.devRef .tc main_arg4) = Gen.W6 m ρ c (Proc.devRef .tc main_arg4) from keeps2 _ (by decide)).trans (W6_arg4 m ρ c)

theorem W7_arg5 : (Gen.W7 m ρ c (Proc.devRef .tc main_arg5) : (⟨S4x256, .f32⟩ : BufTy).Contents (Elt F)) = (m ((c.tc : Thread nD τ).loc main_arg5)) :=
  (show Gen.W7 m ρ c (Proc.devRef .tc main_arg5) = Gen.W6 m ρ c (Proc.devRef .tc main_arg5) from keeps2 _ (by decide)).trans (W6_arg5 m ρ c)

theorem W7_arg6 : (Gen.W7 m ρ c (Proc.devRef .tc main_arg6) : (⟨S256x64, .f32⟩ : BufTy).Contents (Elt F)) = (m ((c.tc : Thread nD τ).loc main_arg6)) :=
  (show Gen.W7 m ρ c (Proc.devRef .tc main_arg6) = Gen.W6 m ρ c (Proc.devRef .tc main_arg6) from keeps2 _ (by decide)).trans (W6_arg6 m ρ c)

theorem W7_arg7 : (Gen.W7 m ρ c (Proc.devRef .tc main_arg7) : (⟨S64, .f32⟩ : BufTy).Contents (Elt F)) = (m ((c.tc : Thread nD τ).loc main_arg7)) :=
  (show Gen.W7 m ρ c (Proc.devRef .tc main_arg7) = Gen.W6 m ρ c (Proc.devRef .tc main_arg7) from keeps2 _ (by decide)).trans (W6_arg7 m ρ c)

theorem W7_v3 : (Gen.W7 m ρ c (Proc.devRef .tc main_v3) : (⟨S850000, .i32⟩ : BufTy).Contents (Elt F)) = Stages.src (m ((c.tc : Thread nD τ).loc main_arg1)) :=
  (show Gen.W7 m ρ c (Proc.devRef .tc main_v3) = Gen.W6 m ρ c (Proc.devRef .tc main_v3) from keeps2 _ (by decide)).trans (W6_v3 m ρ c)

theorem W7_v6 : (Gen.W7 m ρ c (Proc.devRef .tc main_v6) : (⟨S850000, .i32⟩ : BufTy).Contents (Elt F)) = Stages.dst (m ((c.tc : Thread nD τ).loc main_arg1)) :=
  (show Gen.W7 m ρ c (Proc.devRef .tc main_v6) = Gen.W6 m ρ c (Proc.devRef .tc main_v6) from keeps2 _ (by decide)).trans (W6_v6 m ρ c)

theorem W7_v16 : (Gen.W7 m ρ c (Proc.devRef .tc main_v16) : (⟨S50000x1, .f32⟩ : BufTy).Contents (Elt F)) = Stages.dcol (F := F) (m ((c.tc : Thread nD τ).loc main_arg1)) :=
  (show Gen.W7 m ρ c (Proc.devRef .tc main_v16) = Gen.W6 m ρ c (Proc.devRef .tc main_v16) from keeps2 _ (by decide)).trans (W6_v16 m ρ c)

/-! ### Boundary 8: region 2's exit -/

theorem W8_v54 : (Gen.W8 m ρ c (Proc.devRef .tc main_v54) : (⟨S50000x256, .bf16⟩ : BufTy).Contents (Elt F)) = (Gen.dat2 (Gen.V7 m ρ) c).arrAt 4 cfg2.N :=
  Gen.W8_arr m ρ c 4

theorem W8_arg4 : (Gen.W8 m ρ c (Proc.devRef .tc main_arg4) : (⟨S4x256x256, .f32⟩ : BufTy).Contents (Elt F)) = (m ((c.tc : Thread nD τ).loc main_arg4)) :=
  (show Gen.W8 m ρ c (Proc.devRef .tc main_arg4) = Gen.W7 m ρ c (Proc.devRef .tc main_arg4) from Gen.W8_of_ne m ρ c main_arg4 (by decide)).trans (W7_arg4 m ρ c)

theorem W8_arg5 : (Gen.W8 m ρ c (Proc.devRef .tc main_arg5) : (⟨S4x256, .f32⟩ : BufTy).Contents (Elt F)) = (m ((c.tc : Thread nD τ).loc main_arg5)) :=
  (show Gen.W8 m ρ c (Proc.devRef .tc main_arg5) = Gen.W7 m ρ c (Proc.devRef .tc main_arg5) from Gen.W8_of_ne m ρ c main_arg5 (by decide)).trans (W7_arg5 m ρ c)

theorem W8_arg6 : (Gen.W8 m ρ c (Proc.devRef .tc main_arg6) : (⟨S256x64, .f32⟩ : BufTy).Contents (Elt F)) = (m ((c.tc : Thread nD τ).loc main_arg6)) :=
  (show Gen.W8 m ρ c (Proc.devRef .tc main_arg6) = Gen.W7 m ρ c (Proc.devRef .tc main_arg6) from Gen.W8_of_ne m ρ c main_arg6 (by decide)).trans (W7_arg6 m ρ c)

theorem W8_arg7 : (Gen.W8 m ρ c (Proc.devRef .tc main_arg7) : (⟨S64, .f32⟩ : BufTy).Contents (Elt F)) = (m ((c.tc : Thread nD τ).loc main_arg7)) :=
  (show Gen.W8 m ρ c (Proc.devRef .tc main_arg7) = Gen.W7 m ρ c (Proc.devRef .tc main_arg7) from Gen.W8_of_ne m ρ c main_arg7 (by decide)).trans (W7_arg7 m ρ c)

theorem W8_v3 : (Gen.W8 m ρ c (Proc.devRef .tc main_v3) : (⟨S850000, .i32⟩ : BufTy).Contents (Elt F)) = Stages.src (m ((c.tc : Thread nD τ).loc main_arg1)) :=
  (show Gen.W8 m ρ c (Proc.devRef .tc main_v3) = Gen.W7 m ρ c (Proc.devRef .tc main_v3) from Gen.W8_of_ne m ρ c main_v3 (by decide)).trans (W7_v3 m ρ c)

theorem W8_v6 : (Gen.W8 m ρ c (Proc.devRef .tc main_v6) : (⟨S850000, .i32⟩ : BufTy).Contents (Elt F)) = Stages.dst (m ((c.tc : Thread nD τ).loc main_arg1)) :=
  (show Gen.W8 m ρ c (Proc.devRef .tc main_v6) = Gen.W7 m ρ c (Proc.devRef .tc main_v6) from Gen.W8_of_ne m ρ c main_v6 (by decide)).trans (W7_v6 m ρ c)

theorem W8_v16 : (Gen.W8 m ρ c (Proc.devRef .tc main_v16) : (⟨S50000x1, .f32⟩ : BufTy).Contents (Elt F)) = Stages.dcol (F := F) (m ((c.tc : Thread nD τ).loc main_arg1)) :=
  (show Gen.W8 m ρ c (Proc.devRef .tc main_v16) = Gen.W7 m ρ c (Proc.devRef .tc main_v16) from (Gen.W8_arr m ρ c 1).trans (((Gen.dat2 (Gen.V7 m ρ) c).arrAt_in 1 rfl _).trans (Gen.A_eq2 (Gen.V7 m ρ) c 1))).trans (W7_v16 m ρ c)

/-! ### Boundary 9: after `hostOps3` -/

theorem W9_v65 : (Gen.W9 m ρ c (Proc.devRef .tc main_v65) : (⟨S50000x256, .f32⟩ : BufTy).Contents (Elt F)) = Stages.agg ((Gen.dat2 (Gen.V7 m ρ) c).arrAt 4 cfg2.N) (m ((c.tc : Thread nD τ).loc main_arg1)) :=
  (ops3_v65 (Gen.W8 m ρ c) (m ((c.tc : Thread nD τ).loc main_arg1)) (W8_v3 m ρ c) (W8_v6 m ρ c)).trans (by rw [W8_v54 m ρ c])

theorem W9_v70 : (Gen.W9 m ρ c (Proc.devRef .tc main_v70) : (⟨S1x256, .f32⟩ : BufTy).Contents (Elt F)) = Stages.bRow2 (m ((c.tc : Thread nD τ).loc main_arg5)) :=
  (ops3_v70 (Gen.W8 m ρ c)).trans (by rw [W8_arg5 m ρ c])

theorem W9_v69 : (Gen.W9 m ρ c (Proc.devRef .tc main_v69) : (⟨S256x256, .f32⟩ : BufTy).Contents (Elt F)) = Stages.wc3 (m ((c.tc : Thread nD τ).loc main_arg4)) :=
  (ops3_v69 (Gen.W8 m ρ c)).trans (by rw [W8_arg4 m ρ c])

theorem W9_arg5 : (Gen.W9 m ρ c (Proc.devRef .tc main_arg5) : (⟨S4x256, .f32⟩ : BufTy).Contents (Elt F)) = (m ((c.tc : Thread nD τ).loc main_arg5)) :=
  (show Gen.W9 m ρ c (Proc.devRef .tc main_arg5) = Gen.W8 m ρ c (Proc.devRef .tc main_arg5) from keeps3 _ (by decide)).trans (W8_arg5 m ρ c)

theorem W9_arg6 : (Gen.W9 m ρ c (Proc.devRef .tc main_arg6) : (⟨S256x64, .f32⟩ : BufTy).Contents (Elt F)) = (m ((c.tc : Thread nD τ).loc main_arg6)) :=
  (show Gen.W9 m ρ c (Proc.devRef .tc main_arg6) = Gen.W8 m ρ c (Proc.devRef .tc main_arg6) from keeps3 _ (by decide)).trans (W8_arg6 m ρ c)

theorem W9_arg7 : (Gen.W9 m ρ c (Proc.devRef .tc main_arg7) : (⟨S64, .f32⟩ : BufTy).Contents (Elt F)) = (m ((c.tc : Thread nD τ).loc main_arg7)) :=
  (show Gen.W9 m ρ c (Proc.devRef .tc main_arg7) = Gen.W8 m ρ c (Proc.devRef .tc main_arg7) from keeps3 _ (by decide)).trans (W8_arg7 m ρ c)

theorem W9_v3 : (Gen.W9 m ρ c (Proc.devRef .tc main_v3) : (⟨S850000, .i32⟩ : BufTy).Contents (Elt F)) = Stages.src (m ((c.tc : Thread nD τ).loc main_arg1)) :=
  (show Gen.W9 m ρ c (Proc.devRef .tc main_v3) = Gen.W8 m ρ c (Proc.devRef .tc main_v3) from keeps3 _ (by decide)).trans (W8_v3 m ρ c)

theorem W9_v6 : (Gen.W9 m ρ c (Proc.devRef .tc main_v6) : (⟨S850000, .i32⟩ : BufTy).Contents (Elt F)) = Stages.dst (m ((c.tc : Thread nD τ).loc main_arg1)) :=
  (show Gen.W9 m ρ c (Proc.devRef .tc main_v6) = Gen.W8 m ρ c (Proc.devRef .tc main_v6) from keeps3 _ (by decide)).trans (W8_v6 m ρ c)

theorem W9_v16 : (Gen.W9 m ρ c (Proc.devRef .tc main_v16) : (⟨S50000x1, .f32⟩ : BufTy).Contents (Elt F)) = Stages.dcol (F := F) (m ((c.tc : Thread nD τ).loc main_arg1)) :=
  (show Gen.W9 m ρ c (Proc.devRef .tc main_v16) = Gen.W8 m ρ c (Proc.devRef .tc main_v16) from keeps3 _ (by decide)).trans (W8_v16 m ρ c)

/-! ### Boundary 10: region 3's exit -/

theorem W10_v71 : (Gen.W10 m ρ c (Proc.devRef .tc main_v71) : (⟨S50000x256, .bf16⟩ : BufTy).Contents (Elt F)) = (Gen.dat3 (Gen.V9 m ρ) c).arrAt 4 cfg3.N :=
  Gen.W10_arr m ρ c 4

theorem W10_arg5 : (Gen.W10 m ρ c (Proc.devRef .tc main_arg5) : (⟨S4x256, .f32⟩ : BufTy).Contents (Elt F)) = (m ((c.tc : Thread nD τ).loc main_arg5)) :=
  (show Gen.W10 m ρ c (Proc.devRef .tc main_arg5) = Gen.W9 m ρ c (Proc.devRef .tc main_arg5) from Gen.W10_of_ne m ρ c main_arg5 (by decide)).trans (W9_arg5 m ρ c)

theorem W10_arg6 : (Gen.W10 m ρ c (Proc.devRef .tc main_arg6) : (⟨S256x64, .f32⟩ : BufTy).Contents (Elt F)) = (m ((c.tc : Thread nD τ).loc main_arg6)) :=
  (show Gen.W10 m ρ c (Proc.devRef .tc main_arg6) = Gen.W9 m ρ c (Proc.devRef .tc main_arg6) from Gen.W10_of_ne m ρ c main_arg6 (by decide)).trans (W9_arg6 m ρ c)

theorem W10_arg7 : (Gen.W10 m ρ c (Proc.devRef .tc main_arg7) : (⟨S64, .f32⟩ : BufTy).Contents (Elt F)) = (m ((c.tc : Thread nD τ).loc main_arg7)) :=
  (show Gen.W10 m ρ c (Proc.devRef .tc main_arg7) = Gen.W9 m ρ c (Proc.devRef .tc main_arg7) from Gen.W10_of_ne m ρ c main_arg7 (by decide)).trans (W9_arg7 m ρ c)

theorem W10_v3 : (Gen.W10 m ρ c (Proc.devRef .tc main_v3) : (⟨S850000, .i32⟩ : BufTy).Contents (Elt F)) = Stages.src (m ((c.tc : Thread nD τ).loc main_arg1)) :=
  (show Gen.W10 m ρ c (Proc.devRef .tc main_v3) = Gen.W9 m ρ c (Proc.devRef .tc main_v3) from Gen.W10_of_ne m ρ c main_v3 (by decide)).trans (W9_v3 m ρ c)

theorem W10_v6 : (Gen.W10 m ρ c (Proc.devRef .tc main_v6) : (⟨S850000, .i32⟩ : BufTy).Contents (Elt F)) = Stages.dst (m ((c.tc : Thread nD τ).loc main_arg1)) :=
  (show Gen.W10 m ρ c (Proc.devRef .tc main_v6) = Gen.W9 m ρ c (Proc.devRef .tc main_v6) from Gen.W10_of_ne m ρ c main_v6 (by decide)).trans (W9_v6 m ρ c)

theorem W10_v16 : (Gen.W10 m ρ c (Proc.devRef .tc main_v16) : (⟨S50000x1, .f32⟩ : BufTy).Contents (Elt F)) = Stages.dcol (F := F) (m ((c.tc : Thread nD τ).loc main_arg1)) :=
  (show Gen.W10 m ρ c (Proc.devRef .tc main_v16) = Gen.W9 m ρ c (Proc.devRef .tc main_v16) from (Gen.W10_arr m ρ c 1).trans (((Gen.dat3 (Gen.V9 m ρ) c).arrAt_in 1 rfl _).trans (Gen.A_eq3 (Gen.V9 m ρ) c 1))).trans (W9_v16 m ρ c)

/-! ### Boundary 11: after `hostOps4` -/

theorem W11_v82 : (Gen.W11 m ρ c (Proc.devRef .tc main_v82) : (⟨S50000x256, .f32⟩ : BufTy).Contents (Elt F)) = Stages.agg ((Gen.dat3 (Gen.V9 m ρ) c).arrAt 4 cfg3.N) (m ((c.tc : Thread nD τ).loc main_arg1)) :=
  (ops4_v82 (Gen.W10 m ρ c) (m ((c.tc : Thread nD τ).loc main_arg1)) (W10_v3 m ρ c) (W10_v6 m ρ c)).trans (by rw [W10_v71 m ρ c])

theorem W11_c_14 : (Gen.W11 m ρ c (Proc.devRef .tc main_c_14) : (⟨S_, .i32⟩ : BufTy).Contents (Elt F)) = constantI S_ 32 0#32 :=
  ops4_c_14 (Gen.W10 m ρ c)

theorem W11_arg5 : (Gen.W11 m ρ c (Proc.devRef .tc main_arg5) : (⟨S4x256, .f32⟩ : BufTy).Contents (Elt F)) = (m ((c.tc : Thread nD τ).loc main_arg5)) :=
  (show Gen.W11 m ρ c (Proc.devRef .tc main_arg5) = Gen.W10 m ρ c (Proc.devRef .tc main_arg5) from keeps4 _ (by decide)).trans (W10_arg5 m ρ c)

theorem W11_arg6 : (Gen.W11 m ρ c (Proc.devRef .tc main_arg6) : (⟨S256x64, .f32⟩ : BufTy).Contents (Elt F)) = (m ((c.tc : Thread nD τ).loc main_arg6)) :=
  (show Gen.W11 m ρ c (Proc.devRef .tc main_arg6) = Gen.W10 m ρ c (Proc.devRef .tc main_arg6) from keeps4 _ (by decide)).trans (W10_arg6 m ρ c)

theorem W11_arg7 : (Gen.W11 m ρ c (Proc.devRef .tc main_arg7) : (⟨S64, .f32⟩ : BufTy).Contents (Elt F)) = (m ((c.tc : Thread nD τ).loc main_arg7)) :=
  (show Gen.W11 m ρ c (Proc.devRef .tc main_arg7) = Gen.W10 m ρ c (Proc.devRef .tc main_arg7) from keeps4 _ (by decide)).trans (W10_arg7 m ρ c)

theorem W11_v16 : (Gen.W11 m ρ c (Proc.devRef .tc main_v16) : (⟨S50000x1, .f32⟩ : BufTy).Contents (Elt F)) = Stages.dcol (F := F) (m ((c.tc : Thread nD τ).loc main_arg1)) :=
  (show Gen.W11 m ρ c (Proc.devRef .tc main_v16) = Gen.W10 m ρ c (Proc.devRef .tc main_v16) from keeps4 _ (by decide)).trans (W10_v16 m ρ c)

/-! ### Boundary 12: after `hostOps4_1` -/

theorem W12_v83 : (Gen.W12 m ρ c (Proc.devRef .tc main_v83) : (⟨S256x128, .f32⟩ : BufTy).Contents (Elt F)) = Stages.woPad (m ((c.tc : Thread nD τ).loc main_arg6)) :=
  (ops4_1_v83 (Gen.W11 m ρ c)).trans (by rw [W11_arg6 m ρ c, W11_c_14 m ρ c] <;> rfl)

theorem W12_arg5 : (Gen.W12 m ρ c (Proc.devRef .tc main_arg5) : (⟨S4x256, .f32⟩ : BufTy).Contents (Elt F)) = (m ((c.tc : Thread nD τ).loc main_arg5)) :=
  (show Gen.W12 m ρ c (Proc.devRef .tc main_arg5) = Gen.W11 m ρ c (Proc.devRef .tc main_arg5) from keeps4_1 _ (by decide)).trans (W11_arg5 m ρ c)

theorem W12_arg7 : (Gen.W12 m ρ c (Proc.devRef .tc main_arg7) : (⟨S64, .f32⟩ : BufTy).Contents (Elt F)) = (m ((c.tc : Thread nD τ).loc main_arg7)) :=
  (show Gen.W12 m ρ c (Proc.devRef .tc main_arg7) = Gen.W11 m ρ c (Proc.devRef .tc main_arg7) from keeps4_1 _ (by decide)).trans (W11_arg7 m ρ c)

theorem W12_v16 : (Gen.W12 m ρ c (Proc.devRef .tc main_v16) : (⟨S50000x1, .f32⟩ : BufTy).Contents (Elt F)) = Stages.dcol (F := F) (m ((c.tc : Thread nD τ).loc main_arg1)) :=
  (show Gen.W12 m ρ c (Proc.devRef .tc main_v16) = Gen.W11 m ρ c (Proc.devRef .tc main_v16) from keeps4_1 _ (by decide)).trans (W11_v16 m ρ c)

theorem W12_v82 : (Gen.W12 m ρ c (Proc.devRef .tc main_v82) : (⟨S50000x256, .f32⟩ : BufTy).Contents (Elt F)) = Stages.agg ((Gen.dat3 (Gen.V9 m ρ) c).arrAt 4 cfg3.N) (m ((c.tc : Thread nD τ).loc main_arg1)) :=
  (show Gen.W12 m ρ c (Proc.devRef .tc main_v82) = Gen.W11 m ρ c (Proc.devRef .tc main_v82) from keeps4_1 _ (by decide)).trans (W11_v82 m ρ c)

/-! ### Boundary 13: after `hostOps4_2` -/

theorem W13_c_15 : (Gen.W13 m ρ c (Proc.devRef .tc main_c_15) : (⟨S_, .i32⟩ : BufTy).Contents (Elt F)) = constantI S_ 32 0#32 :=
  ops4_2_c_15 (Gen.W12 m ρ c)

theorem W13_arg5 : (Gen.W13 m ρ c (Proc.devRef .tc main_arg5) : (⟨S4x256, .f32⟩ : BufTy).Contents (Elt F)) = (m ((c.tc : Thread nD τ).loc main_arg5)) :=
  (show Gen.W13 m ρ c (Proc.devRef .tc main_arg5) = Gen.W12 m ρ c (Proc.devRef .tc main_arg5) from keeps4_2 _ (by decide)).trans (W12_arg5 m ρ c)

theorem W13_arg7 : (Gen.W13 m ρ c (Proc.devRef .tc main_arg7) : (⟨S64, .f32⟩ : BufTy).Contents (Elt F)) = (m ((c.tc : Thread nD τ).loc main_arg7)) :=
  (show Gen.W13 m ρ c (Proc.devRef .tc main_arg7) = Gen.W12 m ρ c (Proc.devRef .tc main_arg7) from keeps4_2 _ (by decide)).trans (W12_arg7 m ρ c)

theorem W13_v16 : (Gen.W13 m ρ c (Proc.devRef .tc main_v16) : (⟨S50000x1, .f32⟩ : BufTy).Contents (Elt F)) = Stages.dcol (F := F) (m ((c.tc : Thread nD τ).loc main_arg1)) :=
  (show Gen.W13 m ρ c (Proc.devRef .tc main_v16) = Gen.W12 m ρ c (Proc.devRef .tc main_v16) from keeps4_2 _ (by decide)).trans (W12_v16 m ρ c)

theorem W13_v82 : (Gen.W13 m ρ c (Proc.devRef .tc main_v82) : (⟨S50000x256, .f32⟩ : BufTy).Contents (Elt F)) = Stages.agg ((Gen.dat3 (Gen.V9 m ρ) c).arrAt 4 cfg3.N) (m ((c.tc : Thread nD τ).loc main_arg1)) :=
  (show Gen.W13 m ρ c (Proc.devRef .tc main_v82) = Gen.W12 m ρ c (Proc.devRef .tc main_v82) from keeps4_2 _ (by decide)).trans (W12_v82 m ρ c)

theorem W13_v83 : (Gen.W13 m ρ c (Proc.devRef .tc main_v83) : (⟨S256x128, .f32⟩ : BufTy).Contents (Elt F)) = Stages.woPad (m ((c.tc : Thread nD τ).loc main_arg6)) :=
  (show Gen.W13 m ρ c (Proc.devRef .tc main_v83) = Gen.W12 m ρ c (Proc.devRef .tc main_v83) from keeps4_2 _ (by decide)).trans (W12_v83 m ρ c)

/-! ### Boundary 14: after `hostOps4_3` -/

theorem W14_v84 : (Gen.W14 m ρ c (Proc.devRef .tc main_v84) : (⟨S128, .f32⟩ : BufTy).Contents (Elt F)) = pad S128 ![0] ![64] ![0] (m ((c.tc : Thread nD τ).loc main_arg7)) (sitofp .f32 (constantI S_ 32 0#32)) pads_S64_S128_0640 h_S_ :=
  (ops4_3_v84 (Gen.W13 m ρ c)).trans (by rw [W13_arg7 m ρ c, W13_c_15 m ρ c] <;> rfl)

theorem W14_arg5 : (Gen.W14 m ρ c (Proc.devRef .tc main_arg5) : (⟨S4x256, .f32⟩ : BufTy).Contents (Elt F)) = (m ((c.tc : Thread nD τ).loc main_arg5)) :=
  (show Gen.W14 m ρ c (Proc.devRef .tc main_arg5) = Gen.W13 m ρ c (Proc.devRef .tc main_arg5) from keeps4_3 _ (by decide)).trans (W13_arg5 m ρ c)

theorem W14_v16 : (Gen.W14 m ρ c (Proc.devRef .tc main_v16) : (⟨S50000x1, .f32⟩ : BufTy).Contents (Elt F)) = Stages.dcol (F := F) (m ((c.tc : Thread nD τ).loc main_arg1)) :=
  (show Gen.W14 m ρ c (Proc.devRef .tc main_v16) = Gen.W13 m ρ c (Proc.devRef .tc main_v16) from keeps4_3 _ (by decide)).trans (W13_v16 m ρ c)

theorem W14_v82 : (Gen.W14 m ρ c (Proc.devRef .tc main_v82) : (⟨S50000x256, .f32⟩ : BufTy).Contents (Elt F)) = Stages.agg ((Gen.dat3 (Gen.V9 m ρ) c).arrAt 4 cfg3.N) (m ((c.tc : Thread nD τ).loc main_arg1)) :=
  (show Gen.W14 m ρ c (Proc.devRef .tc main_v82) = Gen.W13 m ρ c (Proc.devRef .tc main_v82) from keeps4_3 _ (by decide)).trans (W13_v82 m ρ c)

theorem W14_v83 : (Gen.W14 m ρ c (Proc.devRef .tc main_v83) : (⟨S256x128, .f32⟩ : BufTy).Contents (Elt F)) = Stages.woPad (m ((c.tc : Thread nD τ).loc main_arg6)) :=
  (show Gen.W14 m ρ c (Proc.devRef .tc main_v83) = Gen.W13 m ρ c (Proc.devRef .tc main_v83) from keeps4_3 _ (by decide)).trans (W13_v83 m ρ c)

/-! ### Boundary 15: after `hostOps4_4` -/

theorem W15_v87 : (Gen.W15 m ρ c (Proc.devRef .tc main_v87) : (⟨S1x256, .f32⟩ : BufTy).Contents (Elt F)) = Stages.bRow3 (m ((c.tc : Thread nD τ).loc main_arg5)) :=
  (ops4_4_v87 (Gen.W14 m ρ c)).trans (by rw [W14_arg5 m ρ c])

theorem W15_v88 : (Gen.W15 m ρ c (Proc.devRef .tc main_v88) : (⟨S1x128, .f32⟩ : BufTy).Contents (Elt F)) = Stages.boPadRow (m ((c.tc : Thread nD τ).loc main_arg7)) :=
  (ops4_4_v88 (Gen.W14 m ρ c)).trans (by rw [W14_v84 m ρ c] <;> rfl)

theorem W15_v16 : (Gen.W15 m ρ c (Proc.devRef .tc main_v16) : (⟨S50000x1, .f32⟩ : BufTy).Contents (Elt F)) = Stages.dcol (F := F) (m ((c.tc : Thread nD τ).loc main_arg1)) :=
  (show Gen.W15 m ρ c (Proc.devRef .tc main_v16) = Gen.W14 m ρ c (Proc.devRef .tc main_v16) from keeps4_4 _ (by decide)).trans (W14_v16 m ρ c)

theorem W15_v82 : (Gen.W15 m ρ c (Proc.devRef .tc main_v82) : (⟨S50000x256, .f32⟩ : BufTy).Contents (Elt F)) = Stages.agg ((Gen.dat3 (Gen.V9 m ρ) c).arrAt 4 cfg3.N) (m ((c.tc : Thread nD τ).loc main_arg1)) :=
  (show Gen.W15 m ρ c (Proc.devRef .tc main_v82) = Gen.W14 m ρ c (Proc.devRef .tc main_v82) from keeps4_4 _ (by decide)).trans (W14_v82 m ρ c)

theorem W15_v83 : (Gen.W15 m ρ c (Proc.devRef .tc main_v83) : (⟨S256x128, .f32⟩ : BufTy).Contents (Elt F)) = Stages.woPad (m ((c.tc : Thread nD τ).loc main_arg6)) :=
  (show Gen.W15 m ρ c (Proc.devRef .tc main_v83) = Gen.W14 m ρ c (Proc.devRef .tc main_v83) from keeps4_4 _ (by decide)).trans (W14_v83 m ρ c)

/-! ### Boundary 16: region 4's exit -/

theorem W16_v89 : (Gen.W16 m ρ c (Proc.devRef .tc main_v89) : (⟨S50000x128, .f32⟩ : BufTy).Contents (Elt F)) = (Gen.dat4 (Gen.V15 m ρ) c).arrAt 5 cfg4.N :=
  Gen.W16_arr m ρ c 5

/-! ### Boundary 17: after `hostOps5` -/

theorem W17_v90 : (Gen.W17 m ρ c (Proc.devRef .tc main_v90) : (⟨S50000x64, .f32⟩ : BufTy).Contents (Elt F)) = Stages.cols64 ((Gen.dat4 (Gen.V15 m ρ) c).arrAt 5 cfg4.N) :=
  (ops5_v90 (Gen.W16 m ρ c)).trans (by rw [W16_v89 m ρ c])

/-! ## The regions' entry contents and the result -/

theorem V3_arg0 : (Gen.V3 m ρ c main_arg0 : (⟨S50000x128, .f32⟩ : BufTy).Contents (Elt F)) = (m ((c.tc : Thread nD τ).loc main_arg0)) :=
  W3_arg0 m ρ c

theorem V3_arg2 : (Gen.V3 m ρ c main_arg2 : (⟨S128x256, .f32⟩ : BufTy).Contents (Elt F)) = (m ((c.tc : Thread nD τ).loc main_arg2)) :=
  W3_arg2 m ρ c

theorem V3_v19 : (Gen.V3 m ρ c main_v19 : (⟨S1x256, .f32⟩ : BufTy).Contents (Elt F)) = Stages.beRow (m ((c.tc : Thread nD τ).loc main_arg3)) :=
  W3_v19 m ρ c

theorem V3_v18 : (Gen.V3 m ρ c main_v18 : (⟨S256x256, .f32⟩ : BufTy).Contents (Elt F)) = Stages.wc0 (m ((c.tc : Thread nD τ).loc main_arg4)) :=
  W3_v18 m ρ c

theorem V3_v16 : (Gen.V3 m ρ c main_v16 : (⟨S50000x1, .f32⟩ : BufTy).Contents (Elt F)) = Stages.dcol (F := F) (m ((c.tc : Thread nD τ).loc main_arg1)) :=
  W3_v16 m ρ c

theorem V5_v31 : (Gen.V5 m ρ c main_v31 : (⟨S50000x256, .f32⟩ : BufTy).Contents (Elt F)) = Stages.agg ((Gen.dat0 (Gen.V3 m ρ) c).arrAt 5 cfg0.N) (m ((c.tc : Thread nD τ).loc main_arg1)) :=
  W5_v31 m ρ c

theorem V5_v16 : (Gen.V5 m ρ c main_v16 : (⟨S50000x1, .f32⟩ : BufTy).Contents (Elt F)) = Stages.dcol (F := F) (m ((c.tc : Thread nD τ).loc main_arg1)) :=
  W5_v16 m ρ c

theorem V5_v36 : (Gen.V5 m ρ c main_v36 : (⟨S1x256, .f32⟩ : BufTy).Contents (Elt F)) = Stages.bRow0 (m ((c.tc : Thread nD τ).loc main_arg5)) :=
  W5_v36 m ρ c

theorem V5_v35 : (Gen.V5 m ρ c main_v35 : (⟨S256x256, .f32⟩ : BufTy).Contents (Elt F)) = Stages.wc1 (m ((c.tc : Thread nD τ).loc main_arg4)) :=
  W5_v35 m ρ c

theorem V7_v48 : (Gen.V7 m ρ c main_v48 : (⟨S50000x256, .f32⟩ : BufTy).Contents (Elt F)) = Stages.agg ((Gen.dat1 (Gen.V5 m ρ) c).arrAt 4 cfg1.N) (m ((c.tc : Thread nD τ).loc main_arg1)) :=
  W7_v48 m ρ c

theorem V7_v16 : (Gen.V7 m ρ c main_v16 : (⟨S50000x1, .f32⟩ : BufTy).Contents (Elt F)) = Stages.dcol (F := F) (m ((c.tc : Thread nD τ).loc main_arg1)) :=
  W7_v16 m ρ c

theorem V7_v53 : (Gen.V7 m ρ c main_v53 : (⟨S1x256, .f32⟩ : BufTy).Contents (Elt F)) = Stages.bRow1 (m ((c.tc : Thread nD τ).loc main_arg5)) :=
  W7_v53 m ρ c

theorem V7_v52 : (Gen.V7 m ρ c main_v52 : (⟨S256x256, .f32⟩ : BufTy).Contents (Elt F)) = Stages.wc2 (m ((c.tc : Thread nD τ).loc main_arg4)) :=
  W7_v52 m ρ c

theorem V9_v65 : (Gen.V9 m ρ c main_v65 : (⟨S50000x256, .f32⟩ : BufTy).Contents (Elt F)) = Stages.agg ((Gen.dat2 (Gen.V7 m ρ) c).arrAt 4 cfg2.N) (m ((c.tc : Thread nD τ).loc main_arg1)) :=
  W9_v65 m ρ c

theorem V9_v16 : (Gen.V9 m ρ c main_v16 : (⟨S50000x1, .f32⟩ : BufTy).Contents (Elt F)) = Stages.dcol (F := F) (m ((c.tc : Thread nD τ).loc main_arg1)) :=
  W9_v16 m ρ c

theorem V9_v70 : (Gen.V9 m ρ c main_v70 : (⟨S1x256, .f32⟩ : BufTy).Contents (Elt F)) = Stages.bRow2 (m ((c.tc : Thread nD τ).loc main_arg5)) :=
  W9_v70 m ρ c

theorem V9_v69 : (Gen.V9 m ρ c main_v69 : (⟨S256x256, .f32⟩ : BufTy).Contents (Elt F)) = Stages.wc3 (m ((c.tc : Thread nD τ).loc main_arg4)) :=
  W9_v69 m ρ c

theorem V15_v82 : (Gen.V15 m ρ c main_v82 : (⟨S50000x256, .f32⟩ : BufTy).Contents (Elt F)) = Stages.agg ((Gen.dat3 (Gen.V9 m ρ) c).arrAt 4 cfg3.N) (m ((c.tc : Thread nD τ).loc main_arg1)) :=
  W15_v82 m ρ c

theorem V15_v16 : (Gen.V15 m ρ c main_v16 : (⟨S50000x1, .f32⟩ : BufTy).Contents (Elt F)) = Stages.dcol (F := F) (m ((c.tc : Thread nD τ).loc main_arg1)) :=
  W15_v16 m ρ c

theorem V15_v87 : (Gen.V15 m ρ c main_v87 : (⟨S1x256, .f32⟩ : BufTy).Contents (Elt F)) = Stages.bRow3 (m ((c.tc : Thread nD τ).loc main_arg5)) :=
  W15_v87 m ρ c

theorem V15_v83 : (Gen.V15 m ρ c main_v83 : (⟨S256x128, .f32⟩ : BufTy).Contents (Elt F)) = Stages.woPad (m ((c.tc : Thread nD τ).loc main_arg6)) :=
  W15_v83 m ρ c

theorem V15_v88 : (Gen.V15 m ρ c main_v88 : (⟨S1x128, .f32⟩ : BufTy).Contents (Elt F)) = Stages.boPadRow (m ((c.tc : Thread nD τ).loc main_arg7)) :=
  W15_v88 m ρ c

/-- The result buffer at the last boundary: the first 64 columns of region 4's output. -/
theorem result : (Gen.W17 m ρ c (Proc.devRef .tc main_v90) : (⟨S50000x64, .f32⟩ : BufTy).Contents (Elt F)) = Stages.cols64 ((Gen.dat4 (Gen.V15 m ρ) c).arrAt 5 cfg4.N) :=
  W17_v90 m ρ c

end Cert.KernelIdeal.Chain

end
-- ==== Proof.Spec.lean ====
/-
  Graph-convolution layers over the extended reals, entry by entry.

  A node table has one row per node. Three maps on rows are named here, each of an aggregate `A` (one row per node),
  a column `d` of node weights (the inverse square roots of the degrees), a one-row bias and a weight matrix:

    * `embedScaledAt`: entry (r, q) of ((X · We + be) · Wc), the row then scaled by `d r`;
    * `actAt`: entry (r, j) of tanh (A ∘ d + b), where row r of `A` is scaled by `d r` before the bias is added;
    * `midScaledAt`: entry (r, q) of (tanh (A ∘ d + b) · Wc), the row then scaled by `d r`;
    * `readoutAt`: entry (r, q) of tanh (A ∘ d + b) · Wo + bo.

  Every entry depends on ONE row of the node tables (and on the weights entry by entry): a block of rows of the result
  is the same function of the same block of rows of the operands (`*_congr_row`).
-/
import Idealize.ShloMosaic.PureOps.Ideal
import Idealize.ShloMosaic.Lib.ValueIdx

noncomputable section

namespace Cert.Gcn

open Idealize.ShloMosaic Idealize.ShloMosaic.ValueIdx

/-- A matrix of extended reals with `a` rows and `b` columns. -/
abbrev Mat (a b : Nat) : Type := (⟨2, ![a, b]⟩ : Shape).Idx → EReal

variable {n n' k h m : Nat}

/-- Entry (r, q) of `X · W`. -/
def linAt (X : Mat n k) (W : Mat k m) (r : Fin n) (q : Fin m) : EReal :=
  ∑ j : Fin k, X (ix2 r j) * W (ix2 j q)

/-- Entry (r, q) of `((X · We + be) · Wc)` with row r scaled by `d r`. -/
def embedScaledAt (X : Mat n k) (We : Mat k h) (be : Mat 1 h) (Wc : Mat h m) (d : Mat n 1) (r : Fin n) (q : Fin m) : EReal :=
  (∑ j : Fin h, ((∑ i : Fin k, X (ix2 r i) * We (ix2 i j)) + be (ix2 (0 : Fin 1) j)) * Wc (ix2 j q)) * d (ix2 r (0 : Fin 1))

/-- Entry (r, j) of `tanh (A ∘ d + b)`: row r of the aggregate scaled by `d r`, the bias added, then tanh. -/
def actAt (A : Mat n h) (d : Mat n 1) (b : Mat 1 h) (r : Fin n) (j : Fin h) : EReal :=
  Ideal.tanh (A (ix2 r j) * d (ix2 r (0 : Fin 1)) + b (ix2 (0 : Fin 1) j))

/-- Entry (r, q) of `tanh (A ∘ d + b) · Wc` with row r scaled by `d r`. -/
def midScaledAt (A : Mat n h) (d : Mat n 1) (b : Mat 1 h) (Wc : Mat h m) (r : Fin n) (q : Fin m) : EReal :=
  (∑ j : Fin h, actAt A d b r j * Wc (ix2 j q)) * d (ix2 r (0 : Fin 1))

/-- Entry (r, q) of `tanh (A ∘ d + b) · Wo + bo`. -/
def readoutAt (A : Mat n h) (d : Mat n 1) (b : Mat 1 h) (Wo : Mat h m) (bo : Mat 1 m) (r : Fin n) (q : Fin m) : EReal :=
  (∑ j : Fin h, actAt A d b r j * Wo (ix2 j q)) + bo (ix2 (0 : Fin 1) q)

/-- The same maps as whole matrices. -/
def embedScaled (X : Mat n k) (We : Mat k h) (be : Mat 1 h) (Wc : Mat h m) (d : Mat n 1) : Mat n m :=
  fun i => embedScaledAt X We be Wc d (i 0) (i 1)
def midScaled (A : Mat n h) (d : Mat n 1) (b : Mat 1 h) (Wc : Mat h m) : Mat n m :=
  fun i => midScaledAt A d b Wc (i 0) (i 1)
def readout (A : Mat n h) (d : Mat n 1) (b : Mat 1 h) (Wo : Mat h m) (bo : Mat 1 m) : Mat n m :=
  fun i => readoutAt A d b Wo bo (i 0) (i 1)

theorem embedScaled_apply (X : Mat n k) (We : Mat k h) (be : Mat 1 h) (Wc : Mat h m) (d : Mat n 1) (r : Fin n) (q : Fin m) :
    embedScaled X We be Wc d (ix2 r q) = embedScaledAt X We be Wc d r q := rfl
theorem midScaled_apply (A : Mat n h) (d : Mat n 1) (b : Mat 1 h) (Wc : Mat h m) (r : Fin n) (q : Fin m) :
    midScaled A d b Wc (ix2 r q) = midScaledAt A d b Wc r q := rfl
theorem readout_apply (A : Mat n h) (d : Mat n 1) (b : Mat 1 h) (Wo : Mat h m) (bo : Mat 1 m) (r : Fin n) (q : Fin m) :
    readout A d b Wo bo (ix2 r q) = readoutAt A d b Wo bo r q := rfl

/-- An entry of the embedding map depends on one row of `X` and one entry of `d`. -/
theorem embedScaledAt_congr_row (X : Mat n k) (X' : Mat n' k) (We : Mat k h) (be : Mat 1 h) (Wc : Mat h m)
    (d : Mat n 1) (d' : Mat n' 1) (r : Fin n) (r' : Fin n') (q : Fin m)
    (hX : ∀ i : Fin k, X (ix2 r i) = X' (ix2 r' i)) (hd : d (ix2 r (0 : Fin 1)) = d' (ix2 r' (0 : Fin 1))) :
    embedScaledAt X We be Wc d r q = embedScaledAt X' We be Wc d' r' q := by
  unfold embedScaledAt
  simp only [hX, hd]

/-- An entry of the activation depends on one row of `A` and one entry of `d`. -/
theorem actAt_congr_row (A : Mat n h) (A' : Mat n' h) (d : Mat n 1) (d' : Mat n' 1) (b : Mat 1 h) (r : Fin n) (r' : Fin n')
    (j : Fin h) (hA : ∀ i : Fin h, A (ix2 r i) = A' (ix2 r' i)) (hd : d (ix2 r (0 : Fin 1)) = d' (ix2 r' (0 : Fin 1))) :
    actAt A d b r j = actAt A' d' b r' j := by
  unfold actAt
  rw [hA j, hd]

/-- An entry of the middle map depends on one row of `A` and one entry of `d`. -/
theorem midScaledAt_congr_row (A : Mat n h) (A' : Mat n' h) (d : Mat n 1) (d' : Mat n' 1) (b : Mat 1 h) (Wc : Mat h m)
    (r : Fin n) (r' : Fin n') (q : Fin m)
    (hA : ∀ i : Fin h, A (ix2 r i) = A' (ix2 r' i)) (hd : d (ix2 r (0 : Fin 1)) = d' (ix2 r' (0 : Fin 1))) :
    midScaledAt A d b Wc r q = midScaledAt A' d' b Wc r' q := by
  unfold midScaledAt
  simp only [actAt_congr_row A A' d d' b r r' _ hA hd, hd]

/-- An entry of the read-out depends on one row of `A` and one entry of `d`. -/
theorem readoutAt_congr_row (A : Mat n h) (A' : Mat n' h) (d : Mat n 1) (d' : Mat n' 1) (b : Mat 1 h) (Wo : Mat h m)
    (bo : Mat 1 m) (r : Fin n) (r' : Fin n') (q : Fin m)
    (hA : ∀ i : Fin h, A (ix2 r i) = A' (ix2 r' i)) (hd : d (ix2 r (0 : Fin 1)) = d' (ix2 r' (0 : Fin 1))) :
    readoutAt A d b Wo bo r q = readoutAt A' d' b Wo bo r' q := by
  unfold readoutAt
  simp only [actAt_congr_row A A' d d' b r r' _ hA hd]

end Cert.Gcn

end
-- ==== Proof.LibTiles.lean ====
/-
  Two-dimensional tiles over the extended reals, read entry by entry.

  * a product of an m×k tile by a k×n tile accumulated into the zero tile: entry (a, b) is the sum over the contracted
    coordinate of the products of the entries;
  * a column (an m×1 tile) laid across n columns: entry (a, b) is the column's entry a;
  * a row (a 1×n tile) laid down m rows: entry (a, b) is the row's entry b.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx

variable {m n : Nat}

/-- The product of an m×k tile by a k×n tile (left operand contracted on its columns, right operand on its rows, no
    batch axes), accumulated into the zero tile, read at entry (a, b): the sum over the contracted coordinate `c` of
    `A (a, c) * B (c, b)`. `w` is the well-formedness of the dimension numbers, which a program states. -/
theorem matmul_zero_apply {k : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column laid across the columns of an m×n tile, read at entry (a, b): the column's entry `a`. -/
theorem broadcast_col_apply {α : Type} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) ?_
  intro ax
  match ax with
  | ⟨0, _⟩ =>
    show a.val = if m = 1 then 0 else a.val
    split
    · have := a.isLt; omega
    · rfl
  | ⟨1, _⟩ => rfl

/-- A row laid down the rows of an m×n tile, read at entry (a, b): the row's entry `b`. -/
theorem broadcast_row_apply {α : Type} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) ?_
  intro ax
  match ax with
  | ⟨0, _⟩ => rfl
  | ⟨1, _⟩ =>
    show b.val = if n = 1 then 0 else b.val
    split
    · have := b.isLt; omega
    · rfl

end Cert.LibTiles

end
-- ==== Proof.RegionEnds.lean ====
/-
  The first and the last of the five tiled regions of the graph convolution, as whole-array maps.

  The embedding region computes, 2000 rows at a time, ((X · We + be) · Wc) with each row scaled by its node weight; the
  read-out region computes tanh (A ∘ d + b) · Wo + bo the same way. Each region's body is read entry by entry
  (`embed_block`, `readout_block`); each input tile is read as rows of the array it is cut from; a tile of the map of a
  row block is the row block of the map of the whole tables, since an entry depends on one row; the 25 tiles cover the
  50000 rows. So after its last point each region's output array holds the map of the arrays the region read
  (`final0`, `final4`), whatever those arrays held.
-/
import proofs.«175976_j4475355922587_2_alg».proof.Proof.Gen.KernelIdeal.Frame
import proofs.«175976_j4475355922587_2_alg».proof.Proof.Spec
import proofs.«175976_j4475355922587_2_alg».proof.Proof.LibTiles
import Idealize.ShloMosaic.Lib.Pipeline.Value
import Idealize.ShloMosaic.Lib.ValueIdx

noncomputable section

namespace Cert.KernelIdeal.RegionEnds

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The embedding body's stored tile at entry (p, q): two products accumulated from zero, the bias row added between
    them, the row scaled by the node weight. -/
theorem embed_pay (x0 : Vec Ideal S2000x128 .f32) (x1 : Vec Ideal S128x256 .f32) (x2 : Vec Ideal S1x256 .f32)
    (x3 : Vec Ideal S256x256 .f32) (x4 : Vec Ideal S2000x1 .f32) (p : Fin 2000) (q : Fin 256) :
    Gen.k0_pay1 (F := Ideal) x0 x1 x2 x3 x4 (ix2 p q)
      = Cert.Gcn.embedScaledAt (n := 2000) x0 x1 x2 x3 x4 p q := by
  unfold Gen.k0_pay1 Cert.Gcn.embedScaledAt
  simp only [shapeCast_self]
  refine (congrArg₂ (· * ·) (Cert.LibTiles.matmul_zero_apply _ none _ _ p q) (Cert.LibTiles.broadcast_col_apply _ _ p q)).trans ?_
  refine congrArg₂ (· * ·) (Finset.sum_congr rfl fun j _ => ?_) rfl
  refine congrArg₂ (· * ·) ?_ rfl
  exact congrArg₂ (· + ·) (Cert.LibTiles.matmul_zero_apply _ none _ _ p j) (Cert.LibTiles.broadcast_row_apply _ _ p j)

/-- What the embedding body leaves in its output tile, entry by entry. -/
theorem embed_block (x0 : Vec Ideal S2000x128 .f32) (x1 : Vec Ideal S128x256 .f32) (x2 : Vec Ideal S1x256 .f32)
    (x3 : Vec Ideal S256x256 .f32) (x4 : Vec Ideal S2000x1 .f32) (p : Fin 2000) (q : Fin 256) :
    Gen.out0_5 (F := Ideal) x0 x1 x2 x3 x4 (ix2 p q)
      = Cert.Gcn.embedScaledAt (n := 2000) x0 x1 x2 x3 x4 p q := by
  unfold Gen.out0_5
  rw [View.canon_unit_zero hz]
  simp only [View.ld_unit_zero (S := S2000x128) hz, View.ld_unit_zero (S := S128x256) hz, View.ld_unit_zero (S := S1x256) hz,
    View.ld_unit_zero (S := S256x256) hz, View.ld_unit_zero (S := S2000x1) hz]
  exact embed_pay x0 x1 x2 x3 x4 p q

/-! ## The embedding region: from tiles to the array -/

/-- The block indices of the embedding region's windows at point t, decided over the grid: the three row-tiled windows
    sit at row block t, column block 0; the weights and the bias are one block. -/
theorem embed_idx : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b))

/-- The node-feature window's tile at point t is rows 2000 t … 2000 t + 1999 of its array. -/
theorem embed_in0 (c : Dev nD) (t : Fin cfg0.N) (y : S2000x128.Idx) (k : S50000x128.Idx)
    (hk0 : (k 0).val = 2000 * t.val + (y 0).val) (hk1 : (k 1).val = (y 1).val) :
    (iblk0 V c 0 t : Vec Ideal S2000x128 .f32) y = (V c main_arg0 : S50000x128.Idx → Elt Ideal .f32) k := by
  obtain ⟨e0, e1, -⟩ := embed_idx t
  unfold iblk0
  rw [View.read_apply]
  show V c main_arg0 _ = V c main_arg0 _
  congr 1
  funext a
  apply Fin.ext
  match a with
  | ⟨0, _⟩ => show win0_0.index t (0 : Fin 2) * 2000 + 1 * (y 0).val = (k 0).val; rw [e0, hk0]; omega
  | ⟨1, _⟩ => show win0_0.index t (1 : Fin 2) * 128 + 1 * (y 1).val = (k 1).val; rw [e1, hk1]; omega
end

section
variable (V : (c : Dev nD) → (b : Ref sig .tc) → Buf (Elt Ideal) ((c : Thread nD τ).loc b))

/-- The embedding weights' window is its whole array at every point. -/
theorem embed_in1 (c : Dev nD) (t : Fin cfg0.N) :
    (iblk0 V c 1 t : Vec Ideal S128x256 .f32) = (V c main_arg2 : S128x256.Idx → Elt Ideal .f32) := by
  obtain ⟨-, -, e0, e1, -⟩ := embed_idx t
  funext y
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 256 + 1 * (y 1).val = (y 1).val; rw [e1]; omega

/-- The embedding bias' window is its whole array at every point. -/
theorem embed_in2 (c : Dev nD) (t : Fin cfg0.N) :
    (iblk0 V c 2 t : Vec Ideal S1x256 .f32) = (V c main_v19 : S1x256.Idx → Elt Ideal .f32) := by
  obtain ⟨-, -, -, -, e0, e1, -⟩ := embed_idx t
  funext y
  unfold iblk0
  rw [View.read_apply]
  show V c main_v19 _ = V c main_v19 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- The first layer's weights' window is its whole array at every point. -/
theorem embed_in3 (c : Dev nD) (t : Fin cfg0.N) :
    (iblk0 V c 3 t : Vec Ideal S256x256 .f32) = (V c main_v18 : S256x256.Idx → Elt Ideal .f32) := by
  obtain ⟨-, -, -, -, -, -, e0, e1, -⟩ := embed_idx t
  funext y
  unfold iblk0
  rw [View.read_apply]
  show V c main_v18 _ = V c main_v18 _
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- The node-weight window's tile at point t is rows 2000 t … 2000 t + 1999 of its array. -/
theorem embed_in4 (c : Dev nD) (t : Fin cfg0.N) (y : S2000x1.Idx) (k : S50000x1.Idx)
    (hk0 : (k 0).val = 2000 * t.val + (y 0).val) (hk1 : (k 1).val = (y 1).val) :
    (iblk0 V c 4 t : Vec Ideal S2000x1 .f32) y = (V c main_v16 : S50000x1.Idx → Elt Ideal .f32) k := by
  obtain ⟨-, -, -, -, -, -, -, -, e0, e1, -⟩ := embed_idx t
  unfold iblk0
  rw [View.read_apply]
  show V c main_v16 _ = V c main_v16 _
  congr 1
  funext a
  apply Fin.ext
  match a with
  | ⟨0, _⟩ => show win0_4.index t (0 : Fin 2) * 2000 + 1 * (y 0).val = (k 0).val; rw [e0, hk0]; omega
  | ⟨1, _⟩ => show win0_4.index t (1 : Fin 2) * 1 + 1 * (y 1).val = (k 1).val; rw [e1, hk1]; omega
end

/-- A tile of the embedding map computed from row block s of the node tables is row block s of the map of the tables:
    entry j of the tile is entry i of the whole when i is j moved down by 2000 s rows. -/
theorem embed_tile (A0 : Cert.Gcn.Mat 50000 128) (A1 : Cert.Gcn.Mat 128 256) (A2 : Cert.Gcn.Mat 1 256)
    (A3 : Cert.Gcn.Mat 256 256) (A4 : Cert.Gcn.Mat 50000 1)
    (x0 : Vec Ideal S2000x128 .f32) (x1 : Vec Ideal S128x256 .f32) (x2 : Vec Ideal S1x256 .f32)
    (x3 : Vec Ideal S256x256 .f32) (x4 : Vec Ideal S2000x1 .f32) (s : Nat)
    (h0 : ∀ (y : S2000x128.Idx) (k : S50000x128.Idx), (k 0).val = 2000 * s + (y 0).val → (k 1).val = (y 1).val → x0 y = A0 k)
    (h1 : x1 = A1) (h2 : x2 = A2) (h3 : x3 = A3)
    (h4 : ∀ (y : S2000x1.Idx) (k : S50000x1.Idx), (k 0).val = 2000 * s + (y 0).val → (k 1).val = (y 1).val → x4 y = A4 k)
    (j : S2000x256.Idx) (i : S50000x256.Idx) (hi0 : (i 0).val = 2000 * s + (j 0).val) (hi1 : (i 1).val = (j 1).val) :
    Gen.out0_5 (F := Ideal) x0 x1 x2 x3 x4 j = Cert.Gcn.embedScaled (n := 50000) A0 A1 A2 A3 A4 i := by
  obtain ⟨p, q, rfl⟩ : ∃ (p : Fin 2000) (q : Fin 256), j = ix2 p q := ⟨j 0, j 1, eq_ix2 j⟩
  obtain ⟨r, q', rfl⟩ : ∃ (r : Fin 50000) (q' : Fin 256), i = ix2 r q' := ⟨i 0, i 1, eq_ix2 i⟩
  have hr : r.val = 2000 * s + p.val := hi0
  obtain rfl : q' = q := Fin.ext hi1
  subst h1 h2 h3
  rw [embed_block, Cert.Gcn.embedScaled_apply]
  exact Cert.Gcn.embedScaledAt_congr_row x0 A0 x1 x2 x3 x4 A4 p r q'
    (fun i => h0 (ix2 p i) (ix2 r i) hr rfl) (h4 (ix2 p 0) (ix2 r 0) hr rfl)

section
variable (V : (c : Dev nD) → (b : Ref sig .tc) → Buf (Elt Ideal) ((c : Thread nD τ).loc b))

/-- What point t of the embedding region writes back is block t of the embedding map of the arrays the region reads. -/
theorem embed_flushed (c : Dev nD) (t : Fin cfg0.N) :
    (Gen.dat0 (F := Ideal) V c).flushed 5 t = ((cfg0.win 5).blk t).view.read (Elt Ideal)
      (Cert.Gcn.embedScaled (n := 50000) (V c main_arg0) (V c main_arg2) (V c main_v19) (V c main_v18) (V c main_v16)) := by
  show (cfg0.win 5).cut (grid0.coords t) ((Gen.dat0 (F := Ideal) V c).after 5 t) = _
  rw [Gen.after0_5]
  obtain ⟨-, -, -, -, -, -, -, -, -, -, e0, e1⟩ := embed_idx t
  funext j
  rw [View.read_apply]
  refine embed_tile (V c main_arg0) (V c main_arg2) (V c main_v19) (V c main_v18) (V c main_v16)
    (iblk0 V c 0 t) (iblk0 V c 1 t) (iblk0 V c 2 t) (iblk0 V c 3 t) (iblk0 V c 4 t) t.val
    (embed_in0 V c t) (embed_in1 V c t) (embed_in2 V c t) (embed_in3 V c t) (embed_in4 V c t) j _ ?_ ?_
  · show win0_5.index t (0 : Fin 2) * 2000 + 1 * (j 0).val = 2000 * t.val + (j 0).val; rw [e0]; omega
  · show win0_5.index t (1 : Fin 2) * 256 + 1 * (j 1).val = (j 1).val; rw [e1]; omega

/-- An index of the output array is in point t's block iff each coordinate is in the block's range on its axis. -/
theorem embed_mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v20).slice (win0_5.rect t)).set ↔ _
  rw [View.set_slice_whole, Rect.mem_set_unit]
  exact Iff.rfl

/-- Every index of the output array is in some point's block: row r in point r / 2000's. -/
theorem embed_cover (i : S50000x256.Idx) :
    ∃ t : Fin cfg0.N, (cfg0.win 5).flush t = true ∧ i ∈ ((cfg0.win 5).blk t).view.set := by
  have hN : grid0.N = 25 := Gen.N_0
  have hi0 : (i 0).val < 50000 := (i 0).isLt
  have hi1 : (i 1).val < 256 := (i 1).isLt
  have ht : (i 0).val / 2000 < grid0.N := by omega
  obtain ⟨-, -, -, -, -, -, -, -, -, -, e0, e1⟩ := embed_idx ⟨(i 0).val / 2000, ht⟩
  refine ⟨⟨(i 0).val / 2000, ht⟩, Gen.flush0_5 _, ?_⟩
  rw [embed_mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    rw [e1]; omega

/-- The embedding region's output array after its last point: the embedding map of the arrays the region reads. -/
theorem final0 (c : Dev nD) :
    (Gen.dat0 (F := Ideal) V c).arrAt 5 cfg0.N
      = Cert.Gcn.embedScaled (n := 50000) (V c main_arg0) (V c main_arg2) (V c main_v19) (V c main_v18) (V c main_v16) :=
  (Gen.dat0 (F := Ideal) V c).arrAt_eq_of_cover 5 _ (fun t _ => embed_flushed V c t) embed_cover
end

/-! ## The read-out region -/

/-- The read-out body's stored tile at entry (p, q): the activation of the scaled aggregate, one product accumulated
    from zero, the bias row added. -/
theorem readout_pay (x0 : Vec Ideal S2000x256 .f32) (x1 : Vec Ideal S2000x1 .f32) (x2 : Vec Ideal S1x256 .f32)
    (x3 : Vec Ideal S256x128 .f32) (x4 : Vec Ideal S1x128 .f32) (p : Fin 2000) (q : Fin 128) :
    Gen.k4_pay1 (F := Ideal) x0 x1 x2 x3 x4 (ix2 p q)
      = Cert.Gcn.readoutAt (n := 2000) x0 x1 x2 x3 x4 p q := by
  unfold Gen.k4_pay1 Cert.Gcn.readoutAt Cert.Gcn.actAt
  simp only [shapeCast_self]
  refine (congrArg₂ (· + ·) (Cert.LibTiles.matmul_zero_apply _ none _ _ p q) (Cert.LibTiles.broadcast_row_apply _ _ p q)).trans ?_
  refine congrArg₂ (· + ·) (Finset.sum_congr rfl fun j _ => ?_) rfl
  refine congrArg₂ (· * ·) ?_ rfl
  refine congrArg Ideal.tanh ?_
  exact congrArg₂ (· + ·) (congrArg (x0 (ix2 p j) * ·) (Cert.LibTiles.broadcast_col_apply _ _ p j))
    (Cert.LibTiles.broadcast_row_apply _ _ p j)

/-- What the read-out body leaves in its output tile, entry by entry. -/
theorem readout_block (x0 : Vec Ideal S2000x256 .f32) (x1 : Vec Ideal S2000x1 .f32) (x2 : Vec Ideal S1x256 .f32)
    (x3 : Vec Ideal S256x128 .f32) (x4 : Vec Ideal S1x128 .f32) (p : Fin 2000) (q : Fin 128) :
    Gen.out4_5 (F := Ideal) x0 x1 x2 x3 x4 (ix2 p q)
      = Cert.Gcn.readoutAt (n := 2000) x0 x1 x2 x3 x4 p q := by
  unfold Gen.out4_5
  rw [View.canon_unit_zero hz]
  simp only [View.ld_unit_zero (S := S2000x256) hz, View.ld_unit_zero (S := S2000x1) hz, View.ld_unit_zero (S := S1x256) hz,
    View.ld_unit_zero (S := S256x128) hz, View.ld_unit_zero (S := S1x128) hz]
  exact readout_pay x0 x1 x2 x3 x4 p q

/-! ## The read-out region: from tiles to the array -/

/-- The block indices of the read-out region's windows at point t, decided over the grid: the three row-tiled windows
    sit at row block t, column block 0; the weights and the two biases are one block. -/
theorem readout_idx : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

section
variable (V : (c : Dev nD) → (b : Ref sig .tc) → Buf (Elt Ideal) ((c : Thread nD τ).loc b))

/-- The aggregate window's tile at point t is rows 2000 t … 2000 t + 1999 of its array. -/
theorem readout_in0 (c : Dev nD) (t : Fin cfg4.N) (y : S2000x256.Idx) (k : S50000x256.Idx)
    (hk0 : (k 0).val = 2000 * t.val + (y 0).val) (hk1 : (k 1).val = (y 1).val) :
    (iblk4 V c 0 t : Vec Ideal S2000x256 .f32) y = (V c main_v82 : S50000x256.Idx → Elt Ideal .f32) k := by
  obtain ⟨e0, e1, -⟩ := readout_idx t
  unfold iblk4
  rw [View.read_apply]
  show V c main_v82 _ = V c main_v82 _
  congr 1
  funext a
  apply Fin.ext
  match a with
  | ⟨0, _⟩ => show win4_0.index t (0 : Fin 2) * 2000 + 1 * (y 0).val = (k 0).val; rw [e0, hk0]; omega
  | ⟨1, _⟩ => show win4_0.index t (1 : Fin 2) * 256 + 1 * (y 1).val = (k 1).val; rw [e1, hk1]; omega

/-- The node-weight window's tile at point t is rows 2000 t … 2000 t + 1999 of its array. -/
theorem readout_in1 (c : Dev nD) (t : Fin cfg4.N) (y : S2000x1.Idx) (k : S50000x1.Idx)
    (hk0 : (k 0).val = 2000 * t.val + (y 0).val) (hk1 : (k 1).val = (y 1).val) :
    (iblk4 V c 1 t : Vec Ideal S2000x1 .f32) y = (V c main_v16 : S50000x1.Idx → Elt Ideal .f32) k := by
  obtain ⟨-, -, e0, e1, -⟩ := readout_idx t
  unfold iblk4
  rw [View.read_apply]
  show V c main_v16 _ = V c main_v16 _
  congr 1
  funext a
  apply Fin.ext
  match a with
  | ⟨0, _⟩ => show win4_1.index t (0 : Fin 2) * 2000 + 1 * (y 0).val = (k 0).val; rw [e0, hk0]; omega
  | ⟨1, _⟩ => show win4_1.index t (1 : Fin 2) * 1 + 1 * (y 1).val = (k 1).val; rw [e1, hk1]; omega

/-- The last layer's bias' window is its whole array at every point. -/
theorem readout_in2 (c : Dev nD) (t : Fin cfg4.N) :
    (iblk4 V c 2 t : Vec Ideal S1x256 .f32) = (V c main_v87 : S1x256.Idx → Elt Ideal .f32) := by
  obtain ⟨-, -, -, -, e0, e1, -⟩ := readout_idx t
  funext y
  unfold iblk4
  rw [View.read_apply]
  show V c main_v87 _ = V c main_v87 _
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 256 + 1 * (y 1).val = (y 1).val; rw [e1]; omega

/-- The read-out weights' window is its whole array at every point. -/
theorem readout_in3 (c : Dev nD) (t : Fin cfg4.N) :
    (iblk4 V c 3 t : Vec Ideal S256x128 .f32) = (V c main_v83 : S256x128.Idx → Elt Ideal .f32) := by
  obtain ⟨-, -, -, -, -, -, e0, e1, -⟩ := readout_idx t
  funext y
  unfold iblk4
  rw [View.read_apply]
  show V c main_v83 _ = V c main_v83 _
  congr 1
  funext a
  apply Fin.ext
  match a with
  | ⟨0, _⟩ => show win4_3.index t (0 : Fin 2) * 256 + 1 * (y 0).val = (y 0).val; rw [e0]; omega
  | ⟨1, _⟩ => show win4_3.index t (1 : Fin 2) * 128 + 1 * (y 1).val = (y 1).val; rw [e1]; omega

/-- The read-out bias' window is its whole array at every point. -/
theorem readout_in4 (c : Dev nD) (t : Fin cfg4.N) :
    (iblk4 V c 4 t : Vec Ideal S1x128 .f32) = (V c main_v88 : S1x128.Idx → Elt Ideal .f32) := by
  obtain ⟨-, -, -, -, -, -, -, -, e0, e1, -⟩ := readout_idx t
  funext y
  unfold iblk4
  rw [View.read_apply]
  show V c main_v88 _ = V c main_v88 _
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega
end

/-- A tile of the read-out computed from row block s of the node tables is row block s of the read-out of the tables:
    entry j of the tile is entry i of the whole when i is j moved down by 2000 s rows. -/
theorem readout_tile (A0 : Cert.Gcn.Mat 50000 256) (A1 : Cert.Gcn.Mat 50000 1) (A2 : Cert.Gcn.Mat 1 256)
    (A3 : Cert.Gcn.Mat 256 128) (A4 : Cert.Gcn.Mat 1 128)
    (x0 : Vec Ideal S2000x256 .f32) (x1 : Vec Ideal S2000x1 .f32) (x2 : Vec Ideal S1x256 .f32)
    (x3 : Vec Ideal S256x128 .f32) (x4 : Vec Ideal S1x128 .f32) (s : Nat)
    (h0 : ∀ (y : S2000x256.Idx) (k : S50000x256.Idx), (k 0).val = 2000 * s + (y 0).val → (k 1).val = (y 1).val → x0 y = A0 k)
    (h1 : ∀ (y : S2000x1.Idx) (k : S50000x1.Idx), (k 0).val = 2000 * s + (y 0).val → (k 1).val = (y 1).val → x1 y = A1 k)
    (h2 : x2 = A2) (h3 : x3 = A3) (h4 : x4 = A4)
    (j : S2000x128.Idx) (i : S50000x128.Idx) (hi0 : (i 0).val = 2000 * s + (j 0).val) (hi1 : (i 1).val = (j 1).val) :
    Gen.out4_5 (F := Ideal) x0 x1 x2 x3 x4 j = Cert.Gcn.readout (n := 50000) A0 A1 A2 A3 A4 i := by
  obtain ⟨p, q, rfl⟩ : ∃ (p : Fin 2000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hr : r.val = 2000 * s + p.val := hi0
  obtain rfl : q' = q := Fin.ext hi1
  subst h2 h3 h4
  rw [readout_block, Cert.Gcn.readout_apply]
  exact Cert.Gcn.readoutAt_congr_row x0 A0 x1 A1 x2 x3 x4 p r q'
    (fun i => h0 (ix2 p i) (ix2 r i) hr rfl) (h1 (ix2 p 0) (ix2 r 0) hr rfl)

section
variable (V : (c : Dev nD) → (b : Ref sig .tc) → Buf (Elt Ideal) ((c : Thread nD τ).loc b))

/-- What point t of the read-out region writes back is block t of the read-out of the arrays the region reads. -/
theorem readout_flushed (c : Dev nD) (t : Fin cfg4.N) :
    (Gen.dat4 (F := Ideal) V c).flushed 5 t = ((cfg4.win 5).blk t).view.read (Elt Ideal)
      (Cert.Gcn.readout (n := 50000) (V c main_v82) (V c main_v16) (V c main_v87) (V c main_v83) (V c main_v88)) := by
  show (cfg4.win 5).cut (grid4.coords t) ((Gen.dat4 (F := Ideal) V c).after 5 t) = _
  rw [Gen.after4_5]
  obtain ⟨-, -, -, -, -, -, -, -, -, -, e0, e1⟩ := readout_idx t
  funext j
  rw [View.read_apply]
  refine readout_tile (V c main_v82) (V c main_v16) (V c main_v87) (V c main_v83) (V c main_v88)
    (iblk4 V c 0 t) (iblk4 V c 1 t) (iblk4 V c 2 t) (iblk4 V c 3 t) (iblk4 V c 4 t) t.val
    (readout_in0 V c t) (readout_in1 V c t) (readout_in2 V c t) (readout_in3 V c t) (readout_in4 V c t) j _ ?_ ?_
  · show win4_5.index t (0 : Fin 2) * 2000 + 1 * (j 0).val = 2000 * t.val + (j 0).val; rw [e0]; omega
  · show win4_5.index t (1 : Fin 2) * 128 + 1 * (j 1).val = (j 1).val; rw [e1]; omega

/-- An index of the output array is in point t's block iff each coordinate is in the block's range on its axis. -/
theorem readout_mem_blk (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v89).slice (win4_5.rect t)).set ↔ _
  rw [View.set_slice_whole, Rect.mem_set_unit]
  exact Iff.rfl

/-- Every index of the output array is in some point's block: row r in point r / 2000's. -/
theorem readout_cover (i : S50000x128.Idx) :
    ∃ t : Fin cfg4.N, (cfg4.win 5).flush t = true ∧ i ∈ ((cfg4.win 5).blk t).view.set := by
  have hN : grid4.N = 25 := Gen.N_4
  have hi0 : (i 0).val < 50000 := (i 0).isLt
  have hi1 : (i 1).val < 128 := (i 1).isLt
  have ht : (i 0).val / 2000 < grid4.N := by omega
  obtain ⟨-, -, -, -, -, -, -, -, -, -, e0, e1⟩ := readout_idx ⟨(i 0).val / 2000, ht⟩
  refine ⟨⟨(i 0).val / 2000, ht⟩, Gen.flush4_5 _, ?_⟩
  rw [readout_mem_blk]
  intro a
  match a with
  | ⟨0, _⟩ =>
    show win4_5.index ⟨(i 0).val / 2000, ht⟩ (0 : Fin 2) * 2000 ≤ (i 0).val ∧ (i 0).val < win4_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_5.index ⟨(i 0).val / 2000, ht⟩ (1 : Fin 2) * 128 ≤ (i 1).val ∧ (i 1).val < win4_5.index ⟨(i 0).val / 2000, ht⟩ (1 : Fin 2) * 128 + 128
    rw [e1]; omega

/-- The read-out region's output array after its last point: the read-out of the arrays the region reads. -/
theorem final4 (c : Dev nD) :
    (Gen.dat4 (F := Ideal) V c).arrAt 5 cfg4.N
      = Cert.Gcn.readout (n := 50000) (V c main_v82) (V c main_v16) (V c main_v87) (V c main_v83) (V c main_v88) :=
  (Gen.dat4 (F := Ideal) V c).arrAt_eq_of_cover 5 _ (fun t _ => readout_flushed V c t) readout_cover
end

end Cert.KernelIdeal.RegionEnds

end
-- ==== Proof.RegionMid.lean ====
/-
  The three middle layers, from row tiles to whole arrays.

  Each middle layer runs over 25 grid points; point t loads rows 2000 t … 2000 t + 1999 of the aggregate and of the
  column of node weights, the whole bias row and the whole weight matrix, and stores the same rows of the result.

  * `mid_blockK`: entry (p, q) of the tile a point stores is `Cert.Gcn.midScaledAt` of the four tiles it loads: the
    row p of tanh (A ∘ d + b) times column q of W, scaled by d p. The narrowing casts are the identity over the
    extended reals, the product accumulates into the zero tile, and the column / row of node weights / biases is laid
    across the tile entry by entry.
  * `finalK`: the result array after the 25 points is `Cert.Gcn.midScaled` of the four arrays, whatever they held
    when the layer was entered: an entry depends on one row of the aggregate and of the node weights, tile row p of
    point t is array row 2000 t + p, and row r lies in the tile of point r / 2000.
-/
import proofs.«175976_j4475355922587_2_alg».proof.Proof.Gen.KernelIdeal.Frame
import proofs.«175976_j4475355922587_2_alg».proof.Proof.Spec
import proofs.«175976_j4475355922587_2_alg».proof.Proof.LibTiles
import Idealize.ShloMosaic.Lib.Pipeline.Value
import Idealize.ShloMosaic.Lib.ValueIdx

set_option maxRecDepth 16384

noncomputable section

namespace Cert.KernelIdeal.RegionMid

open Idealize.ShloMosaic Idealize.ShloMosaic.TcCoe Idealize.ShloMosaic.ValueIdx
open Idealize.ShloMosaic.Pipeline (Dat)
open Cert.KernelIdeal

theorem zero_offsets : (![0, 0] : Fin 2 → Nat) = fun _ => 0 := funext fun a => by fin_cases a <;> rfl

/-! ## Region 1 -/

/-- Entry (p, q) of the tile a grid point of region 1 stores, over the four tiles it loads: the product of the
    activation's row p with the weights' column q, scaled by the node weight of row p. -/
theorem pay1_apply (x0 : Vec Ideal S2000x256 .f32) (x1 : Vec Ideal S2000x1 .f32) (x2 : Vec Ideal S1x256 .f32)
    (x3 : Vec Ideal S256x256 .f32) (p : Fin 2000) (q : Fin 256) :
    Gen.k1_pay1 (F := Ideal) x0 x1 x2 x3 x1 (ix2 p q) = Cert.Gcn.midScaledAt (n := 2000) x0 x1 x2 x3 p q := by
  unfold Gen.k1_pay1
  simp only [shapeCast_self]
  rw [truncf_apply, mulf_apply, Cert.LibTiles.broadcast_col_apply]
  unfold dot_S2000x256_S256x256_S2000x256_1_0_0_1_n_n
  rw [Cert.LibTiles.matmul_zero_apply]
  unfold Cert.Gcn.midScaledAt Cert.Gcn.actAt
  congr 1
  refine Finset.sum_congr rfl fun j _ => ?_
  rw [truncf_apply, truncf_apply]
  show Ideal.tanh (x0 (ix2 p j) * broadcastTo S2000x256 x1 _ (ix2 p j) + broadcastTo S2000x256 x2 _ (ix2 p j))
      * x3 (ix2 j q) = _
  rw [Cert.LibTiles.broadcast_col_apply, Cert.LibTiles.broadcast_row_apply]

/-- The tile region 1 leaves in its output window at a grid point, entry by entry. -/
theorem mid_block1 (x0 : Vec Ideal S2000x256 .f32) (x1 : Vec Ideal S2000x1 .f32) (x2 : Vec Ideal S1x256 .f32)
    (x3 : Vec Ideal S256x256 .f32) (p : Fin 2000) (q : Fin 256) :
    Gen.out1_4 (F := Ideal) x0 x1 x2 x3 (ix2 p q) = Cert.Gcn.midScaledAt (n := 2000) x0 x1 x2 x3 p q := by
  unfold Gen.out1_4
  rw [View.canon_unit_zero zero_offsets]
  simp only [View.ld_unit_zero (S := S2000x256) zero_offsets, View.ld_unit_zero (S := S2000x1) zero_offsets,
    View.ld_unit_zero (S := S1x256) zero_offsets, View.ld_unit_zero (S := S256x256) zero_offsets]
  exact pay1_apply x0 x1 x2 x3 p q

/-- An entry of a row tile is the same function of the tile's rows as the whole array's entry is of the array's
    rows: tile row p of grid point t is array row 2000 t + p; the bias and the weights are read whole. -/
theorem rows_of_tile1 (A : Cert.Gcn.Mat 50000 256) (d : Cert.Gcn.Mat 50000 1) (b : Cert.Gcn.Mat 1 256)
    (W : Cert.Gcn.Mat 256 256) (x0 : Vec Ideal S2000x256 .f32) (x1 : Vec Ideal S2000x1 .f32)
    (x2 : Vec Ideal S1x256 .f32) (x3 : Vec Ideal S256x256 .f32) (t : Nat)
    (h0 : ∀ (p : Fin 2000) (j : Fin 256) (r : Fin 50000), r.val = 2000 * t + p.val → x0 (ix2 p j) = A (ix2 r j))
    (h1 : ∀ (p : Fin 2000) (r : Fin 50000), r.val = 2000 * t + p.val → x1 (ix2 p (0 : Fin 1)) = d (ix2 r (0 : Fin 1)))
    (h2 : x2 = b) (h3 : x3 = W)
    (y : S2000x256.Idx) (i : S50000x256.Idx) (hi0 : (i 0).val = 2000 * t + (y 0).val) (hi1 : (i 1).val = (y 1).val) :
    Gen.out1_4 (F := Ideal) x0 x1 x2 x3 y = Cert.Gcn.midScaled (n := 50000) A d b W i := by
  subst h2 h3
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  rw [mid_block1, Cert.Gcn.midScaled_apply]
  exact Cert.Gcn.midScaledAt_congr_row x0 A x1 d x2 x3 p r q' (fun j => h0 p j r hi0) (h1 p r hi0)

/-- The block indices of region 1's windows, decided over its 25 grid points: the aggregate, the node weights and
    the output move down their rows with the point; the bias and the weights stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- What grid point t of region 1 writes back is block t of the whole-array function of the arrays the region reads. -/
theorem flushed1_eq (c : Dev nD) (t : Fin cfg1.N) :
    (Gen.dat1 (F := Ideal) V c).flushed 4 t = ((cfg1.win 4).blk t).view.read (Elt Ideal)
      (Cert.Gcn.midScaled (n := 50000) (V c main_v31) (V c main_v16) (V c main_v36) (V c main_v35)) := by
  show (cfg1.win 4).cut (grid1.coords t) ((Gen.dat1 V c).after 4 t) = _
  rw [Gen.after1_4]
  obtain ⟨e00, e01, e10, e11, e20, e21, e30, e31, e40, e41⟩ := idx1 t
  funext j
  show Gen.out1_4 (Gen.iblk1 V c 0 t) (Gen.iblk1 V c 1 t) (Gen.iblk1 V c 2 t) (Gen.iblk1 V c 3 t) j
    = Cert.Gcn.midScaled (n := 50000) (V c main_v31) (V c main_v16) (V c main_v36) (V c main_v35)
        (((cfg1.win 4).blk t).view.emb j)
  refine rows_of_tile1 (V c main_v31) (V c main_v16) (V c main_v36) (V c main_v35) (Gen.iblk1 V c 0 t)
    (Gen.iblk1 V c 1 t) (Gen.iblk1 V c 2 t) (Gen.iblk1 V c 3 t) t.val ?_ ?_ ?_ ?_ j
    (((cfg1.win 4).blk t).view.emb j) ?_ ?_
  · intro p j' r hr
    show V c main_v31 (((cfg1.win 0).blk t).view.emb (ix2 p j')) = V c main_v31 (ix2 r j')
    refine congrArg _ (funext fun a => Fin.ext ?_)
    match a with
    | ⟨0, _⟩ => show win1_0.index t (0 : Fin 2) * 2000 + 1 * p.val = r.val; omega
    | ⟨1, _⟩ => show win1_0.index t (1 : Fin 2) * 256 + 1 * j'.val = j'.val; omega
  · intro p r hr
    show V c main_v16 (((cfg1.win 1).blk t).view.emb (ix2 p (0 : Fin 1))) = V c main_v16 (ix2 r (0 : Fin 1))
    refine congrArg _ (funext fun a => Fin.ext ?_)
    match a with
    | ⟨0, _⟩ => show win1_1.index t (0 : Fin 2) * 2000 + 1 * p.val = r.val; omega
    | ⟨1, _⟩ => show win1_1.index t (1 : Fin 2) * 1 + 1 * 0 = 0; omega
  · funext y
    show V c main_v36 (((cfg1.win 2).blk t).view.emb y) = V c main_v36 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 256 + 1 * (y 1).val = (y 1).val; omega
  · funext y
    show V c main_v35 (((cfg1.win 3).blk t).view.emb y) = V c main_v35 y
    refine congrArg _ (funext fun a => Fin.ext ?_)
    match a with
    | ⟨0, _⟩ => show win1_3.index t (0 : Fin 2) * 256 + 1 * (y 0).val = (y 0).val; omega
    | ⟨1, _⟩ => show win1_3.index t (1 : Fin 2) * 256 + 1 * (y 1).val = (y 1).val; omega
  · show win1_4.index t (0 : Fin 2) * 2000 + 1 * (j 0).val = 2000 * t.val + (j 0).val; omega
  · show win1_4.index t (1 : Fin 2) * 256 + 1 * (j 1).val = (j 1).val; omega
end

/-- An index of region 1's output array is in grid point t's block iff each coordinate is in the block's range. -/
theorem mem_blk1 (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v37).slice (win1_4.rect t)).set ↔ _
  rw [View.set_slice_whole, Rect.mem_set_unit]
  exact Iff.rfl

/-- The 25 row tiles cover the output array: row r is in the tile of point r / 2000. -/
theorem cover1 (i : S50000x256.Idx) :
    ∃ t : Fin cfg1.N, (cfg1.win 4).flush t = true ∧ i ∈ ((cfg1.win 4).blk t).view.set := by
  have hN : grid1.N = 25 := Gen.N_1
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by show _ < grid1.N; omega⟩, rfl⟩
  obtain ⟨-, -, -, -, -, -, -, -, e40, e41⟩ := idx1 t
  refine ⟨t, Gen.flush1_4 t, ?_⟩
  rw [mem_blk1]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 256 ≤ (i 1).val ∧ (i 1).val < win1_4.index t (1 : Fin 2) * 256 + 256
    omega

section
variable (V : (c : Dev nD) → (b : Ref sig .tc) → Buf (Elt Ideal) ((c : Thread nD τ).loc b))

/-- Region 1's output array after its 25 points, whatever the arrays held when the region was entered: the
    activation of the scaled aggregate times the weights, each row scaled by its node weight. -/
theorem final1 (c : Dev nD) :
    (Gen.dat1 (F := Ideal) V c).arrAt 4 cfg1.N
      = Cert.Gcn.midScaled (n := 50000) (V c main_v31) (V c main_v16) (V c main_v36) (V c main_v35) :=
  (Gen.dat1 (F := Ideal) V c).arrAt_eq_of_cover 4
    (Cert.Gcn.midScaled (n := 50000) (V c main_v31) (V c main_v16) (V c main_v36) (V c main_v35))
    (fun t _ => flushed1_eq V c t) (fun i => cover1 i)
end

/-! ## Region 2 -/

/-- Entry (p, q) of the tile a grid point of region 2 stores, over the four tiles it loads: the product of the
    activation's row p with the weights' column q, scaled by the node weight of row p. -/
theorem pay2_apply (x0 : Vec Ideal S2000x256 .f32) (x1 : Vec Ideal S2000x1 .f32) (x2 : Vec Ideal S1x256 .f32)
    (x3 : Vec Ideal S256x256 .f32) (p : Fin 2000) (q : Fin 256) :
    Gen.k2_pay1 (F := Ideal) x0 x1 x2 x3 x1 (ix2 p q) = Cert.Gcn.midScaledAt (n := 2000) x0 x1 x2 x3 p q := by
  unfold Gen.k2_pay1
  simp only [shapeCast_self]
  rw [truncf_apply, mulf_apply, Cert.LibTiles.broadcast_col_apply]
  unfold dot_S2000x256_S256x256_S2000x256_1_0_0_1_n_n
  rw [Cert.LibTiles.matmul_zero_apply]
  unfold Cert.Gcn.midScaledAt Cert.Gcn.actAt
  congr 1
  refine Finset.sum_congr rfl fun j _ => ?_
  rw [truncf_apply, truncf_apply]
  show Ideal.tanh (x0 (ix2 p j) * broadcastTo S2000x256 x1 _ (ix2 p j) + broadcastTo S2000x256 x2 _ (ix2 p j))
      * x3 (ix2 j q) = _
  rw [Cert.LibTiles.broadcast_col_apply, Cert.LibTiles.broadcast_row_apply]

/-- The tile region 2 leaves in its output window at a grid point, entry by entry. -/
theorem mid_block2 (x0 : Vec Ideal S2000x256 .f32) (x1 : Vec Ideal S2000x1 .f32) (x2 : Vec Ideal S1x256 .f32)
    (x3 : Vec Ideal S256x256 .f32) (p : Fin 2000) (q : Fin 256) :
    Gen.out2_4 (F := Ideal) x0 x1 x2 x3 (ix2 p q) = Cert.Gcn.midScaledAt (n := 2000) x0 x1 x2 x3 p q := by
  unfold Gen.out2_4
  rw [View.canon_unit_zero zero_offsets]
  simp only [View.ld_unit_zero (S := S2000x256) zero_offsets, View.ld_unit_zero (S := S2000x1) zero_offsets,
    View.ld_unit_zero (S := S1x256) zero_offsets, View.ld_unit_zero (S := S256x256) zero_offsets]
  exact pay2_apply x0 x1 x2 x3 p q

/-- An entry of a row tile is the same function of the tile's rows as the whole array's entry is of the array's
    rows: tile row p of grid point t is array row 2000 t + p; the bias and the weights are read whole. -/
theorem rows_of_tile2 (A : Cert.Gcn.Mat 50000 256) (d : Cert.Gcn.Mat 50000 1) (b : Cert.Gcn.Mat 1 256)
    (W : Cert.Gcn.Mat 256 256) (x0 : Vec Ideal S2000x256 .f32) (x1 : Vec Ideal S2000x1 .f32)
    (x2 : Vec Ideal S1x256 .f32) (x3 : Vec Ideal S256x256 .f32) (t : Nat)
    (h0 : ∀ (p : Fin 2000) (j : Fin 256) (r : Fin 50000), r.val = 2000 * t + p.val → x0 (ix2 p j) = A (ix2 r j))
    (h1 : ∀ (p : Fin 2000) (r : Fin 50000), r.val = 2000 * t + p.val → x1 (ix2 p (0 : Fin 1)) = d (ix2 r (0 : Fin 1)))
    (h2 : x2 = b) (h3 : x3 = W)
    (y : S2000x256.Idx) (i : S50000x256.Idx) (hi0 : (i 0).val = 2000 * t + (y 0).val) (hi1 : (i 1).val = (y 1).val) :
    Gen.out2_4 (F := Ideal) x0 x1 x2 x3 y = Cert.Gcn.midScaled (n := 50000) A d b W i := by
  subst h2 h3
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  rw [mid_block2, Cert.Gcn.midScaled_apply]
  exact Cert.Gcn.midScaledAt_congr_row x0 A x1 d x2 x3 p r q' (fun j => h0 p j r hi0) (h1 p r hi0)

/-- The block indices of region 2's windows, decided over its 25 grid points: the aggregate, the node weights and
    the output move down their rows with the point; the bias and the weights stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section
variable (V : (c : Dev nD) → (b : Ref sig .tc) → Buf (Elt Ideal) ((c : Thread nD τ).loc b))

/-- What grid point t of region 2 writes back is block t of the whole-array function of the arrays the region reads. -/
theorem flushed2_eq (c : Dev nD) (t : Fin cfg2.N) :
    (Gen.dat2 (F := Ideal) V c).flushed 4 t = ((cfg2.win 4).blk t).view.read (Elt Ideal)
      (Cert.Gcn.midScaled (n := 50000) (V c main_v48) (V c main_v16) (V c main_v53) (V c main_v52)) := by
  show (cfg2.win 4).cut (grid2.coords t) ((Gen.dat2 V c).after 4 t) = _
  rw [Gen.after2_4]
  obtain ⟨e00, e01, e10, e11, e20, e21, e30, e31, e40, e41⟩ := idx2 t
  funext j
  show Gen.out2_4 (Gen.iblk2 V c 0 t) (Gen.iblk2 V c 1 t) (Gen.iblk2 V c 2 t) (Gen.iblk2 V c 3 t) j
    = Cert.Gcn.midScaled (n := 50000) (V c main_v48) (V c main_v16) (V c main_v53) (V c main_v52)
        (((cfg2.win 4).blk t).view.emb j)
  refine rows_of_tile2 (V c main_v48) (V c main_v16) (V c main_v53) (V c main_v52) (Gen.iblk2 V c 0 t)
    (Gen.iblk2 V c 1 t) (Gen.iblk2 V c 2 t) (Gen.iblk2 V c 3 t) t.val ?_ ?_ ?_ ?_ j
    (((cfg2.win 4).blk t).view.emb j) ?_ ?_
  · intro p j' r hr
    show V c main_v48 (((cfg2.win 0).blk t).view.emb (ix2 p j')) = V c main_v48 (ix2 r j')
    refine congrArg _ (funext fun a => Fin.ext ?_)
    match a with
    | ⟨0, _⟩ => show win2_0.index t (0 : Fin 2) * 2000 + 1 * p.val = r.val; omega
    | ⟨1, _⟩ => show win2_0.index t (1 : Fin 2) * 256 + 1 * j'.val = j'.val; omega
  · intro p r hr
    show V c main_v16 (((cfg2.win 1).blk t).view.emb (ix2 p (0 : Fin 1))) = V c main_v16 (ix2 r (0 : Fin 1))
    refine congrArg _ (funext fun a => Fin.ext ?_)
    match a with
    | ⟨0, _⟩ => show win2_1.index t (0 : Fin 2) * 2000 + 1 * p.val = r.val; omega
    | ⟨1, _⟩ => show win2_1.index t (1 : Fin 2) * 1 + 1 * 0 = 0; omega
  · funext y
    show V c main_v53 (((cfg2.win 2).blk t).view.emb y) = V c main_v53 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 256 + 1 * (y 1).val = (y 1).val; omega
  · funext y
    show V c main_v52 (((cfg2.win 3).blk t).view.emb y) = V c main_v52 y
    refine congrArg _ (funext fun a => Fin.ext ?_)
    match a with
    | ⟨0, _⟩ => show win2_3.index t (0 : Fin 2) * 256 + 1 * (y 0).val = (y 0).val; omega
    | ⟨1, _⟩ => show win2_3.index t (1 : Fin 2) * 256 + 1 * (y 1).val = (y 1).val; omega
  · show win2_4.index t (0 : Fin 2) * 2000 + 1 * (j 0).val = 2000 * t.val + (j 0).val; omega
  · show win2_4.index t (1 : Fin 2) * 256 + 1 * (j 1).val = (j 1).val; omega
end

/-- An index of region 2's output array is in grid point t's block iff each coordinate is in the block's range. -/
theorem mem_blk2 (t : Fin cfg2.N) (i : S50000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v54).slice (win2_4.rect t)).set ↔ _
  rw [View.set_slice_whole, Rect.mem_set_unit]
  exact Iff.rfl

/-- The 25 row tiles cover the output array: row r is in the tile of point r / 2000. -/
theorem cover2 (i : S50000x256.Idx) :
    ∃ t : Fin cfg2.N, (cfg2.win 4).flush t = true ∧ i ∈ ((cfg2.win 4).blk t).view.set := by
  have hN : grid2.N = 25 := Gen.N_2
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, by show _ < grid2.N; omega⟩, rfl⟩
  obtain ⟨-, -, -, -, -, -, -, -, e40, e41⟩ := idx2 t
  refine ⟨t, Gen.flush2_4 t, ?_⟩
  rw [mem_blk2]
  intro a
  match a with
  | ⟨0, _⟩ =>
    show win2_4.index t (0 : Fin 2) * 2000 ≤ (i 0).val ∧ (i 0).val < win2_4.index t (0 : Fin 2) * 2000 + 2000
    omega
  | ⟨1, _⟩ =>
    show win2_4.index t (1 : Fin 2) * 256 ≤ (i 1).val ∧ (i 1).val < win2_4.index t (1 : Fin 2) * 256 + 256
    omega

section
variable (V : (c : Dev nD) → (b : Ref sig .tc) → Buf (Elt Ideal) ((c : Thread nD τ).loc b))

/-- Region 2's output array after its 25 points, whatever the arrays held when the region was entered: the
    activation of the scaled aggregate times the weights, each row scaled by its node weight. -/
theorem final2 (c : Dev nD) :
    (Gen.dat2 (F := Ideal) V c).arrAt 4 cfg2.N
      = Cert.Gcn.midScaled (n := 50000) (V c main_v48) (V c main_v16) (V c main_v53) (V c main_v52) :=
  (Gen.dat2 (F := Ideal) V c).arrAt_eq_of_cover 4
    (Cert.Gcn.midScaled (n := 50000) (V c main_v48) (V c main_v16) (V c main_v53) (V c main_v52))
    (fun t _ => flushed2_eq V c t) (fun i => cover2 i)
end

/-! ## Region 3 -/

/-- Entry (p, q) of the tile a grid point of region 3 stores, over the four tiles it loads: the product of the
    activation's row p with the weights' column q, scaled by the node weight of row p. -/
theorem pay3_apply (x0 : Vec Ideal S2000x256 .f32) (x1 : Vec Ideal S2000x1 .f32) (x2 : Vec Ideal S1x256 .f32)
    (x3 : Vec Ideal S256x256 .f32) (p : Fin 2000) (q : Fin 256) :
    Gen.k3_pay1 (F := Ideal) x0 x1 x2 x3 x1 (ix2 p q) = Cert.Gcn.midScaledAt (n := 2000) x0 x1 x2 x3 p q := by
  unfold Gen.k3_pay1
  simp only [shapeCast_self]
  rw [truncf_apply, mulf_apply, Cert.LibTiles.broadcast_col_apply]
  unfold dot_S2000x256_S256x256_S2000x256_1_0_0_1_n_n
  rw [Cert.LibTiles.matmul_zero_apply]
  unfold Cert.Gcn.midScaledAt Cert.Gcn.actAt
  congr 1
  refine Finset.sum_congr rfl fun j _ => ?_
  rw [truncf_apply, truncf_apply]
  show Ideal.tanh (x0 (ix2 p j) * broadcastTo S2000x256 x1 _ (ix2 p j) + broadcastTo S2000x256 x2 _ (ix2 p j))
      * x3 (ix2 j q) = _
  rw [Cert.LibTiles.broadcast_col_apply, Cert.LibTiles.broadcast_row_apply]

/-- The tile region 3 leaves in its output window at a grid point, entry by entry. -/
theorem mid_block3 (x0 : Vec Ideal S2000x256 .f32) (x1 : Vec Ideal S2000x1 .f32) (x2 : Vec Ideal S1x256 .f32)
    (x3 : Vec Ideal S256x256 .f32) (p : Fin 2000) (q : Fin 256) :
    Gen.out3_4 (F := Ideal) x0 x1 x2 x3 (ix2 p q) = Cert.Gcn.midScaledAt (n := 2000) x0 x1 x2 x3 p q := by
  unfold Gen.out3_4
  rw [View.canon_unit_zero zero_offsets]
  simp only [View.ld_unit_zero (S := S2000x256) zero_offsets, View.ld_unit_zero (S := S2000x1) zero_offsets,
    View.ld_unit_zero (S := S1x256) zero_offsets, View.ld_unit_zero (S := S256x256) zero_offsets]
  exact pay3_apply x0 x1 x2 x3 p q

/-- An entry of a row tile is the same function of the tile's rows as the whole array's entry is of the array's
    rows: tile row p of grid point t is array row 2000 t + p; the bias and the weights are read whole. -/
theorem rows_of_tile3 (A : Cert.Gcn.Mat 50000 256) (d : Cert.Gcn.Mat 50000 1) (b : Cert.Gcn.Mat 1 256)
    (W : Cert.Gcn.Mat 256 256) (x0 : Vec Ideal S2000x256 .f32) (x1 : Vec Ideal S2000x1 .f32)
    (x2 : Vec Ideal S1x256 .f32) (x3 : Vec Ideal S256x256 .f32) (t : Nat)
    (h0 : ∀ (p : Fin 2000) (j : Fin 256) (r : Fin 50000), r.val = 2000 * t + p.val → x0 (ix2 p j) = A (ix2 r j))
    (h1 : ∀ (p : Fin 2000) (r : Fin 50000), r.val = 2000 * t + p.val → x1 (ix2 p (0 : Fin 1)) = d (ix2 r (0 : Fin 1)))
    (h2 : x2 = b) (h3 : x3 = W)
    (y : S2000x256.Idx) (i : S50000x256.Idx) (hi0 : (i 0).val = 2000 * t + (y 0).val) (hi1 : (i 1).val = (y 1).val) :
    Gen.out3_4 (F := Ideal) x0 x1 x2 x3 y = Cert.Gcn.midScaled (n := 50000) A d b W i := by
  subst h2 h3
  obtain ⟨p, q, rfl⟩ : ∃ (p : Fin 2000) (q : Fin 256), y = ix2 p q := ⟨y 0, y 1, eq_ix2 y⟩
  obtain ⟨r, q', rfl⟩ : ∃ (r : Fin 50000) (q' : Fin 256), i = ix2 r q' := ⟨i 0, i 1, eq_ix2 i⟩
  obtain rfl : q' = q := Fin.ext hi1
  rw [mid_block3, Cert.Gcn.midScaled_apply]
  exact Cert.Gcn.midScaledAt_congr_row x0 A x1 d x2 x3 p r q' (fun j => h0 p j r hi0) (h1 p r hi0)

/-- The block indices of region 3's windows, decided over its 25 grid points: the aggregate, the node weights and
    the output move down their rows with the point; the bias and the weights stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

section
variable (V : (c : Dev nD) → (b : Ref sig .tc) → Buf (Elt Ideal) ((c : Thread nD τ).loc b))

/-- What grid point t of region 3 writes back is block t of the whole-array function of the arrays the region reads. -/
theorem flushed3_eq (c : Dev nD) (t : Fin cfg3.N) :
    (Gen.dat3 (F := Ideal) V c).flushed 4 t = ((cfg3.win 4).blk t).view.read (Elt Ideal)
      (Cert.Gcn.midScaled (n := 50000) (V c main_v65) (V c main_v16) (V c main_v70) (V c main_v69)) := by
  show (cfg3.win 4).cut (grid3.coords t) ((Gen.dat3 V c).after 4 t) = _
  rw [Gen.after3_4]
  obtain ⟨e00, e01, e10, e11, e20, e21, e30, e31, e40, e41⟩ := idx3 t
  funext j
  show Gen.out3_4 (Gen.iblk3 V c 0 t) (Gen.iblk3 V c 1 t) (Gen.iblk3 V c 2 t) (Gen.iblk3 V c 3 t) j
    = Cert.Gcn.midScaled (n := 50000) (V c main_v65) (V c main_v16) (V c main_v70) (V c main_v69)
        (((cfg3.win 4).blk t).view.emb j)
  refine rows_of_tile3 (V c main_v65) (V c main_v16) (V c main_v70) (V c main_v69) (Gen.iblk3 V c 0 t)
    (Gen.iblk3 V c 1 t) (Gen.iblk3 V c 2 t) (Gen.iblk3 V c 3 t) t.val ?_ ?_ ?_ ?_ j
    (((cfg3.win 4).blk t).view.emb j) ?_ ?_
  · intro p j' r hr
    show V c main_v65 (((cfg3.win 0).blk t).view.emb (ix2 p j')) = V c main_v65 (ix2 r j')
    refine congrArg _ (funext fun a => Fin.ext ?_)
    match a with
    | ⟨0, _⟩ => show win3_0.index t (0 : Fin 2) * 2000 + 1 * p.val = r.val; omega
    | ⟨1, _⟩ => show win3_0.index t (1 : Fin 2) * 256 + 1 * j'.val = j'.val; omega
  · intro p r hr
    show V c main_v16 (((cfg3.win 1).blk t).view.emb (ix2 p (0 : Fin 1))) = V c main_v16 (ix2 r (0 : Fin 1))
    refine congrArg _ (funext fun a => Fin.ext ?_)
    match a with
    | ⟨0, _⟩ => show win3_1.index t (0 : Fin 2) * 2000 + 1 * p.val = r.val; omega
    | ⟨1, _⟩ => show win3_1.index t (1 : Fin 2) * 1 + 1 * 0 = 0; omega
  · funext y
    show V c main_v70 (((cfg3.win 2).blk t).view.emb y) = V c main_v70 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 256 + 1 * (y 1).val = (y 1).val; omega
  · funext y
    show V c main_v69 (((cfg3.win 3).blk t).view.emb y) = V c main_v69 y
    refine congrArg _ (funext fun a => Fin.ext ?_)
    match a with
    | ⟨0, _⟩ => show win3_3.index t (0 : Fin 2) * 256 + 1 * (y 0).val = (y 0).val; omega
    | ⟨1, _⟩ => show win3_3.index t (1 : Fin 2) * 256 + 1 * (y 1).val = (y 1).val; omega
  · show win3_4.index t (0 : Fin 2) * 2000 + 1 * (j 0).val = 2000 * t.val + (j 0).val; omega
  · show win3_4.index t (1 : Fin 2) * 256 + 1 * (j 1).val = (j 1).val; omega
end

/-- An index of region 3's output array is in grid point t's block iff each coordinate is in the block's range. -/
theorem mem_blk3 (t : Fin cfg3.N) (i : S50000x256.Idx) :
    i ∈ ((cfg3.win 4).blk t).view.set ↔ ∀ a : Fin 2, win3_4.index t a * S2000x256.size a ≤ (i a).val
      ∧ (i a).val < win3_4.index t a * S2000x256.size a + S2000x256.size a := by
  show i ∈ ((View.whole main_v71).slice (win3_4.rect t)).set ↔ _
  rw [View.set_slice_whole, Rect.mem_set_unit]
  exact Iff.rfl

/-- The 25 row tiles cover the output array: row r is in the tile of point r / 2000. -/
theorem cover3 (i : S50000x256.Idx) :
    ∃ t : Fin cfg3.N, (cfg3.win 4).flush t = true ∧ i ∈ ((cfg3.win 4).blk t).view.set := by
  have hN : grid3.N = 25 := Gen.N_3
  have hi0 : (i 0).val < 50000 := (i 0).isLt
  have hi1 : (i 1).val < 256 := (i 1).isLt
  obtain ⟨t, ht⟩ : ∃ t : Fin cfg3.N, t.val = (i 0).val / 2000 :=
    ⟨⟨(i 0).val / 2000, by show _ < grid3.N; omega⟩, rfl⟩
  obtain ⟨-, -, -, -, -, -, -, -, e40, e41⟩ := idx3 t
  refine ⟨t, Gen.flush3_4 t, ?_⟩
  rw [mem_blk3]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 256 ≤ (i 1).val ∧ (i 1).val < win3_4.index t (1 : Fin 2) * 256 + 256
    omega

section
variable (V : (c : Dev nD) → (b : Ref sig .tc) → Buf (Elt Ideal) ((c : Thread nD τ).loc b))

/-- Region 3's output array after its 25 points, whatever the arrays held when the region was entered: the
    activation of the scaled aggregate times the weights, each row scaled by its node weight. -/
theorem final3 (c : Dev nD) :
    (Gen.dat3 (F := Ideal) V c).arrAt 4 cfg3.N
      = Cert.Gcn.midScaled (n := 50000) (V c main_v65) (V c main_v16) (V c main_v70) (V c main_v69) :=
  (Gen.dat3 (F := Ideal) V c).arrAt_eq_of_cover 4
    (Cert.Gcn.midScaled (n := 50000) (V c main_v65) (V c main_v16) (V c main_v70) (V c main_v69))
    (fun t _ => flushed3_eq V c t) (fun i => cover3 i)
end

end Cert.KernelIdeal.RegionMid

end
-- ==== Proof.LibEdgeIndex.lean ====
/-
  Gathers and a scatter along the first axis by ONE COLUMN of start indices `idx : [E, 1]`, read at coordinates.

  * whole rows of a table `x : [N, K]` (`x[idx]`: offset axis 1, collapsed axis 0, index vector along axis 1):
    result element `(e, k)` is `x` at row `idx[e, 0]` read signed and clamped into `[0, N − 1]`, column `k`;
  * entries of a vector `x : [N]`: result element `e` is `x` at `idx[e, 0]` read signed and clamped;
  * a scatter of rows `u : [E, K]` into a table `[N, K]` (`.at[idx].add`): update `(e, k)` lands, if anywhere, in the
    row that `idx[e, 0]` names when read signed, with no clamping;
  * a scatter-add over the extended reals, at one element: the element plus the sum of the updates over the set of
    update indices that land there (for any shapes).
-/
import Idealize.ShloMosaic.Lib.ValueIdx
import Idealize.ShloMosaic.PureOps.Ideal

noncomputable section

namespace EdgeIndex

open Idealize.ShloMosaic Idealize.ShloMosaic.ValueIdx

variable {α : Type}

/-- The dimension numbers of a gather of whole rows of `[N, K]` by a column `[E, 1]` of start indices. -/
abbrev rowDims (N E K : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(e, k)`: the table at the row `idx[e, 0]` names (signed, clamped), column `k`. -/
theorem gather_rows_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (rowDims N E K wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowDims N E K wf).start (ix2 e k) idx 0 + (rowDims N E K wf).batchCoord (ix2 e k) 0
      + (rowDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E K wf).startIndexMap from List.mem_singleton.mpr rfl)]
    have hsi : (rowDims N E K wf).siIdx (ix2 e k) ⟨List.idxOf (0 : Fin 2) (rowDims N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E K wf).start (ix2 e k) idx 1 + (rowDims N E K wf).batchCoord (ix2 e k) 1
      + (rowDims N E K wf).offCoord (ix2 e k) 1 = k.val
    rw [GatherDims.batchCoord_eq_zero _ _ _ List.not_mem_nil]
    have hs : (rowDims N E K wf).start (ix2 e k) idx 1 = 0 := by
      unfold GatherDims.start
      rw [dif_neg (show (1 : Fin 2) ∉ ([0] : List (Fin 2)) by decide)]
    have ho : (rowDims N E K wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [hs, ho]; omega

/-- The dimension numbers of a gather of entries of `[N]` by a column `[E, 1]` of start indices. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the vector at the entry `idx[e, 0]` names (signed, clamped). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of a scatter of rows `[E, K]` into `[N, K]` by a column `[E, 1]` of indices. -/
abbrev rowScatter (N E K : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- WHERE AN UPDATE LANDS: if update `j = (e, k)` lands at `i`, then `idx[e, 0]`, read signed, is `i`'s row. -/
theorem scatter_row_of_some {N E K w : Nat} (wf : ScatterDims.WF ⟨2, ![N, K]⟩ ⟨2, ![E, 1]⟩ ⟨2, ![E, K]⟩ [1] [0] [0] 1)
    (idx : IVec ⟨2, ![E, 1]⟩ w) (j : (⟨2, ![E, K]⟩ : Shape).Idx) (i : (⟨2, ![N, K]⟩ : Shape).Idx)
    (h : (rowScatter N E K wf).resultIdx? j idx = some i) : (idx (ix2 (j 0) 0)).toInt = ((i 0).val : Int) := by
  unfold ScatterDims.resultIdx? at h
  split at h
  · rename_i hall
    have hi := Option.some.inj h
    have h0 : ((rowScatter N E K wf).start j idx 0 + ((rowScatter N E K wf).window j 0 : Int)).toNat = (i 0).val :=
      congrArg (fun f : (⟨2, ![N, K]⟩ : Shape).Idx => (f 0).val) hi
    have hs : (rowScatter N E K wf).start j idx 0 = (idx (ix2 (j 0) 0)).toInt := by
      unfold ScatterDims.start
      rw [dif_pos (show (0 : Fin 2) ∈ (rowScatter N E K wf).scatterDimsToOperandDims from List.mem_singleton.mpr rfl)]
      have hsi : (rowScatter N E K wf).siIdx j ⟨List.idxOf (0 : Fin 2) (rowScatter N E K wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw : (rowScatter N E K wf).window j 0 = 0 := by
      unfold ScatterDims.window
      rw [dif_neg]
      intro hm
      simp [ScatterDims.sKept, Shape.kept, List.mem_filter] at hm
    have hpos := (hall 0).1
    rw [hs, hw] at h0 hpos
    simp only [Nat.cast_zero, add_zero] at h0 hpos
    omega
  · cases h

/-- The host's accumulating scatter over the extended reals is the exact scatter-add. -/
theorem scatterAdd_ideal {s si su : Shape} (d : ScatterDims s si su) {w : Nat} (x : FVec Ideal s .f32) (idx : IVec si w)
    (upd : FVec Ideal su .f32) : Host.scatterAdd d x idx upd = Ideal.hostScatterAdd d x idx upd := rfl

/-- A SCATTER-ADD AT ONE ELEMENT, over the extended reals: the operand's element plus the sum of the updates over a
    set `S` of update indices every one of which lands at that element. -/
theorem hostScatterAdd_sum {s si su : Shape} (d : ScatterDims s si su) {w : Nat} (x : s.Idx → EReal) (idx : IVec si w)
    (i : s.Idx) :
    ∃ S : Finset su.Idx, (∀ j ∈ S, d.resultIdx? j idx = some i)
      ∧ ∀ upd : su.Idx → EReal, Ideal.hostScatterAdd d x idx upd i = x i + ∑ j ∈ S, upd j := by
  refine ⟨_, ?_, fun upd => rfl⟩
  intro j hj
  exact (Finset.mem_filter.mp hj).2

end EdgeIndex

end
-- ==== Proof.LibRankFactor.lean ====
/-
  A sum over a rank index of (a row contracted with a factor's column) times the other factor's entry is the row
  contracted with the product of the two factors: on the extended reals, for entries that are all finite,

      ∑ k, (∑ i, a i * v i k) * u k  =  ∑ i, a i * ∑ k, u k * v i k.

  Distributivity and the exchange of the two sums are laws of the reals; they fail at the infinities, so every entry
  is first written as the coercion of a real number, the identity is proved there, and the coercion is pushed back
  through products and finite sums.
-/
import Mathlib.Data.EReal.Operations
import Mathlib.Algebra.BigOperators.Ring.Finset
import Mathlib.Algebra.BigOperators.Group.Finset.Sigma
import Mathlib.Tactic.Ring

namespace RankFactor

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of extended reals none of which is infinite is the coercion of a family of reals. -/
theorem exists_real {α : Type*} (f : α → EReal) (h : ∀ a, f a ≠ ⊤ ∧ f a ≠ ⊥) :
    ∃ g : α → ℝ, ∀ a, f a = (g a : EReal) :=
  ⟨fun a => (f a).toReal, fun a => (EReal.coe_toReal (h a).1 (h a).2).symm⟩

/-- An extended real whose absolute value `max x (-x)` is below `⊤` is neither infinity. -/
theorem finite_of_abs_lt_top {x : EReal} (h : max x (-x) < ⊤) : x ≠ ⊤ ∧ x ≠ ⊥ := by
  constructor
  · rintro rfl
    exact absurd h (by simp)
  · rintro rfl
    exact absurd h (by simp)

/-- The identity on the reals: expand both sides into the double sum of `a i * v i k * u k`. -/
theorem real_factor {ι κ : Type*} [Fintype ι] [Fintype κ] (a : ι → ℝ) (v : ι → κ → ℝ) (u : κ → ℝ) :
    ∑ k, (∑ i, a i * v i k) * u k = ∑ i, a i * ∑ k, u k * v i k := by
  simp only [Finset.sum_mul, Finset.mul_sum]
  rw [Finset.sum_comm]
  exact Finset.sum_congr rfl fun i _ => Finset.sum_congr rfl fun k _ => by ring

/-- The identity on the extended reals, for finite entries. -/
theorem factor {ι κ : Type*} [Fintype ι] [Fintype κ] (a : ι → EReal) (v : ι → κ → EReal) (u : κ → EReal)
    (ha : ∀ i, a i ≠ ⊤ ∧ a i ≠ ⊥) (hv : ∀ i k, v i k ≠ ⊤ ∧ v i k ≠ ⊥) (hu : ∀ k, u k ≠ ⊤ ∧ u k ≠ ⊥) :
    ∑ k, (∑ i, a i * v i k) * u k = ∑ i, a i * ∑ k, u k * v i k := by
  obtain ⟨a', ha'⟩ := exists_real a ha
  obtain ⟨v', hv'⟩ := exists_real (fun p : ι × κ => v p.1 p.2) (fun p => hv p.1 p.2)
  obtain ⟨u', hu'⟩ := exists_real u hu
  have hv'' : ∀ i k, v i k = (v' (i, k) : EReal) := fun i k => hv' (i, k)
  calc ∑ k, (∑ i, a i * v i k) * u k
      = ∑ k, (((∑ i, a' i * v' (i, k)) * u' k : ℝ) : EReal) :=
        Finset.sum_congr rfl fun k _ => by
          rw [EReal.coe_mul, coe_sum, hu' k]
          exact congrArg (· * (u' k : EReal)) (Finset.sum_congr rfl fun i _ => by rw [ha' i, hv'' i k, EReal.coe_mul])
    _ = ((∑ k, (∑ i, a' i * v' (i, k)) * u' k : ℝ) : EReal) := (coe_sum _ _).symm
    _ = ((∑ i, a' i * ∑ k, u' k * v' (i, k) : ℝ) : EReal) :=
        congrArg _ (real_factor a' (fun i k => v' (i, k)) u')
    _ = ∑ i, ((a' i * ∑ k, u' k * v' (i, k) : ℝ) : EReal) := coe_sum _ _
    _ = ∑ i, a i * ∑ k, u k * v i k :=
        Finset.sum_congr rfl fun i _ => by
          rw [EReal.coe_mul, coe_sum, ha' i]
          exact congrArg ((a' i : EReal) * ·) (Finset.sum_congr rfl fun k _ => by rw [hu' k, hv'' i k, EReal.coe_mul])

end RankFactor
-- ==== Proof.LibEdgeScale.lean ====
/-
  Scaling a sum of messages once, or every message by itself: on the extended reals, for finite entries,

      D · (0 + ∑_{j ∈ S} h j · s j) + b  =  (0 + ∑_{j ∈ S} (s j · d j) · h j) + b        when d j = D for every j ∈ S.

  Distributivity fails at the infinities, so the entries are first written as coercions of real numbers, the identity
  is the reals' `Finset.mul_sum` and commutativity, and the coercion is pushed back through products and the finite sum.
  Also here: the finite extended reals are closed under the operations the two programs use.
-/
import proofs.«175976_j4475355922587_2_alg».proof.Proof.LibRankFactor

namespace EdgeScale

/-- An extended real that is neither infinity. -/
def Finite (x : EReal) : Prop := x ≠ ⊤ ∧ x ≠ ⊥

theorem finite_coe (r : ℝ) : Finite (r : EReal) := ⟨EReal.coe_ne_top r, EReal.coe_ne_bot r⟩

theorem finite_zero : Finite (0 : EReal) := by simpa using finite_coe 0

theorem finite_one : Finite (1 : EReal) := by simpa using finite_coe 1

/-- A finite extended real is the coercion of a real. -/
theorem Finite.exists_coe {x : EReal} (h : Finite x) : ∃ r : ℝ, x = (r : EReal) :=
  ⟨x.toReal, (EReal.coe_toReal h.1 h.2).symm⟩

theorem Finite.mul {x y : EReal} (hx : Finite x) (hy : Finite y) : Finite (x * y) := by
  obtain ⟨a, rfl⟩ := hx.exists_coe
  obtain ⟨b, rfl⟩ := hy.exists_coe
  rw [← EReal.coe_mul]; exact finite_coe _

theorem Finite.add {x y : EReal} (hx : Finite x) (hy : Finite y) : Finite (x + y) := by
  obtain ⟨a, rfl⟩ := hx.exists_coe
  obtain ⟨b, rfl⟩ := hy.exists_coe
  rw [← EReal.coe_add]; exact finite_coe _

theorem Finite.max {x y : EReal} (hx : Finite x) (hy : Finite y) : Finite (max x y) := by
  rcases max_choice x y with h | h <;> rw [h] <;> assumption

theorem Finite.sum {ι : Type*} (S : Finset ι) (f : ι → EReal) (h : ∀ j ∈ S, Finite (f j)) : Finite (∑ j ∈ S, f j) := by
  classical
  induction S using Finset.induction_on with
  | empty => simpa using finite_zero
  | insert a s ha ih =>
    rw [Finset.sum_insert ha]
    exact (h a (Finset.mem_insert_self a s)).add (ih fun j hj => h j (Finset.mem_insert_of_mem hj))

/-- THE LAW: a common finite factor `D` of every message's weight comes out of the sum. -/
theorem scale_sum {ι : Type*} (S : Finset ι) (D b : EReal) (h s d : ι → EReal)
    (hD : Finite D) (hh : ∀ j, Finite (h j)) (hs : ∀ j, Finite (s j)) (hd : ∀ j ∈ S, d j = D) :
    D * (0 + ∑ j ∈ S, h j * s j) + b = (0 + ∑ j ∈ S, (s j * d j) * h j) + b := by
  obtain ⟨D', rfl⟩ := hD.exists_coe
  obtain ⟨h', hh'⟩ := RankFactor.exists_real h hh
  obtain ⟨s', hs'⟩ := RankFactor.exists_real s hs
  have e1 : ∑ j ∈ S, h j * s j = ((∑ j ∈ S, h' j * s' j : ℝ) : EReal) := by
    rw [RankFactor.coe_sum]
    exact Finset.sum_congr rfl fun j _ => by rw [hh' j, hs' j, EReal.coe_mul]
  have e2 : ∑ j ∈ S, (s j * d j) * h j = ((∑ j ∈ S, (s' j * D') * h' j : ℝ) : EReal) := by
    rw [RankFactor.coe_sum]
    exact Finset.sum_congr rfl fun j hj => by rw [hd j hj, hh' j, hs' j, EReal.coe_mul, EReal.coe_mul]
  rw [zero_add, zero_add, e1, e2, ← EReal.coe_mul]
  congr 2
  rw [Finset.mul_sum]
  exact Finset.sum_congr rfl fun j _ => by ring

end EdgeScale
-- ==== Proof.LibAggregate.lean ====
/-
  One aggregation step of a graph convolution, entry by entry, over the extended reals.

  Nodes carry rows of a table; every edge e has a source row (named by a start index read signed and clamped, as a
  gather names it) and a destination row (named by an index read signed and NOT clamped, as a scatter names it).
  With node weights `dv`, the symmetric normalisation weights edge e by `dv (source e) · dv (destination e)`.

  Scaling every row of the table by its node weight before the edges carry it, and scaling the sum that arrives at a
  node by that node's weight afterwards, gives the same entry as weighting every message by its edge's weight:

      (0 + ∑_{e → r} (L (src e, q) · dv (src e))) · dv r + b  =  (0 + ∑_{e → r} L (src e, q) · (dv (src e) · dv (dst e))) + b

  because every edge that arrives at node r has `dv (dst e) = dv r`, a common factor of the sum. Taking a common
  factor out of a sum is a law of the reals that fails at the infinities: all entries are required to be finite.
-/
import proofs.«175976_j4475355922587_2_alg».proof.Proof.LibEdgeIndex
import proofs.«175976_j4475355922587_2_alg».proof.Proof.LibEdgeScale

noncomputable section

namespace Cert.Gcn

open Idealize.ShloMosaic Idealize.ShloMosaic.ValueIdx EdgeScale

variable {N E K : Nat}

/-- The row a gather's start index names: read signed, clamped into [0, N − 1]. -/
def rowOf (hN : 0 < N) (v : BitVec 32) : Fin N := ⟨min v.toInt.toNat (N - 1), by omega⟩

/-- A gather of whole rows by a column of start indices, at any index of the result. -/
theorem gather_rows_at (hN : 0 < N)
    (wfR : GatherDims.WF ⟨2, ![N, K]⟩ ⟨2, ![E, 1]⟩ ⟨2, ![E, K]⟩ [1] [0] [] [0] [] 1 ![1, K])
    (A : (⟨2, ![N, K]⟩ : Shape).Idx → EReal) (srcI : IVec ⟨2, ![E, 1]⟩ 32) (u : (⟨2, ![E, K]⟩ : Shape).Idx) :
    Host.gather (EdgeIndex.rowDims N E K wfR) A srcI u = A (ix2 (rowOf hN (srcI (ix2 (u 0) (0 : Fin 1)))) (u 1)) := by
  obtain ⟨e, k, rfl⟩ : ∃ (e : Fin E) (k : Fin K), u = ix2 e k := ⟨u 0, u 1, eq_ix2 u⟩
  exact EdgeIndex.gather_rows_apply hN wfR A srcI e k

/-- THE AGGREGATION LAW at entry (r, q). `T` is the table scaled row by row (`hT`), `w` the edge weights laid across
    the columns (`hw`), `dstRow e` the row edge e's weight reads for its destination, which is the row the scatter
    sends e to whenever it sends it anywhere (`hdst`). -/
theorem aggregate_scaled (hN : 0 < N)
    (wfR : GatherDims.WF ⟨2, ![N, K]⟩ ⟨2, ![E, 1]⟩ ⟨2, ![E, K]⟩ [1] [0] [] [0] [] 1 ![1, K])
    (wfS : ScatterDims.WF ⟨2, ![N, K]⟩ ⟨2, ![E, 1]⟩ ⟨2, ![E, K]⟩ [1] [0] [0] 1)
    (T L : (⟨2, ![N, K]⟩ : Shape).Idx → EReal) (dv : Fin N → EReal)
    (srcI dstI : IVec ⟨2, ![E, 1]⟩ 32) (dstRow : Fin E → Fin N)
    (z : (⟨2, ![N, K]⟩ : Shape).Idx → EReal) (hz : ∀ i, z i = 0)
    (w : (⟨2, ![E, K]⟩ : Shape).Idx → EReal)
    (hT : ∀ (r : Fin N) (q : Fin K), T (ix2 r q) = L (ix2 r q) * dv r)
    (hw : ∀ (e : Fin E) (k : Fin K), w (ix2 e k) = dv (rowOf hN (srcI (ix2 e (0 : Fin 1)))) * dv (dstRow e))
    (hdst : ∀ (e : Fin E) (r : Fin N), (dstI (ix2 e (0 : Fin 1))).toInt = (r.val : Int) → dstRow e = r)
    (hL : ∀ i, Finite (L i)) (hdv : ∀ r, Finite (dv r)) (b : EReal) (r : Fin N) (q : Fin K) :
    Ideal.hostScatterAdd (EdgeIndex.rowScatter N E K wfS) z dstI
        (Host.gather (EdgeIndex.rowDims N E K wfR) T srcI) (ix2 r q) * dv r + b
      = Ideal.hostScatterAdd (EdgeIndex.rowScatter N E K wfS) z dstI
          (fun u => Host.gather (EdgeIndex.rowDims N E K wfR) L srcI u * w u) (ix2 r q) + b := by
  obtain ⟨S, hS, hsum⟩ := EdgeIndex.hostScatterAdd_sum (EdgeIndex.rowScatter N E K wfS) z dstI (ix2 r q)
  rw [hsum, hsum, hz]
  have key := scale_sum S (dv r) b
    (fun u => L (ix2 (rowOf hN (srcI (ix2 (u 0) (0 : Fin 1)))) (u 1)))
    (fun u => dv (rowOf hN (srcI (ix2 (u 0) (0 : Fin 1)))))
    (fun u => dv (dstRow (u 0))) (hdv r) (fun u => hL _) (fun u => hdv _)
    (fun u hu => by
      have h1 := EdgeIndex.scatter_row_of_some wfS dstI u (ix2 r q) (hS u hu)
      exact congrArg dv (hdst (u 0) r h1))
  have e1 : ∑ u ∈ S, Host.gather (EdgeIndex.rowDims N E K wfR) T srcI u
      = ∑ u ∈ S, L (ix2 (rowOf hN (srcI (ix2 (u 0) (0 : Fin 1)))) (u 1)) * dv (rowOf hN (srcI (ix2 (u 0) (0 : Fin 1)))) :=
    Finset.sum_congr rfl fun u _ => (gather_rows_at hN wfR T srcI u).trans (hT _ _)
  have e2 : ∑ u ∈ S, Host.gather (EdgeIndex.rowDims N E K wfR) L srcI u * w u
      = ∑ u ∈ S, (dv (rowOf hN (srcI (ix2 (u 0) (0 : Fin 1)))) * dv (dstRow (u 0)))
          * L (ix2 (rowOf hN (srcI (ix2 (u 0) (0 : Fin 1)))) (u 1)) :=
    Finset.sum_congr rfl fun u _ => by
      rw [gather_rows_at hN wfR L srcI u, mul_comm]
      congr 1
      obtain ⟨e, k, rfl⟩ : ∃ (e : Fin E) (k : Fin K), u = ix2 e k := ⟨u 0, u 1, eq_ix2 u⟩
      exact hw e k
  rw [e1, e2, mul_comm]
  exact key

end Cert.Gcn

end
-- ==== Proof.LibEdgeFacts.lean ====
/-
  Two small facts about the graph's bookkeeping.

  * The node weight `if 0 < x then x^(-1/2) else 0` is finite for EVERY extended real x: below or at zero it is 0, at
    +∞ the inverse square root is 0, and at a positive real it is a positive real.
  * An index that reads as a natural number r when signed is left alone by "add the node count if negative", and below
    the node count it names row r when clamped.
-/
import proofs.«175976_j4475355922587_2_alg».proof.Proof.LibAggregate

noncomputable section

namespace Cert.Gcn

open Idealize.ShloMosaic EdgeScale

/-- The node weight of any degree is finite. -/
theorem weight_finite (x : EReal) : Finite (Scalar.select (Ideal.cmp .ogt x 0) (Ideal.rsqrt x) 0) := by
  unfold Scalar.select Ideal.cmp
  by_cases h : (0 : EReal) < x
  · have hb : BitVec.ofBool (decide ((0 : EReal) < x)) = 1 := by simp [h]
    rw [if_pos hb]
    induction x using EReal.rec with
    | bot => exact absurd h (by simp)
    | top => rw [Ideal.rsqrt_top]; exact finite_zero
    | coe r =>
      have hr : 0 < r := by exact_mod_cast h
      rw [Ideal.rsqrt_coe, if_neg (not_lt.mpr hr.le), if_neg hr.ne']
      exact finite_coe _
  · have hb : ¬ BitVec.ofBool (decide ((0 : EReal) < x)) = 1 := by simp [h]
    rw [if_neg hb]
    exact finite_zero

/-- "Add N if negative" leaves an index that reads as the natural number r, and clamped it names row r. -/
theorem rowOf_norm {N : Nat} (hN : 0 < N) (n : BitVec 32) (v : BitVec 32) (r : Fin N) (h : v.toInt = (r.val : Int)) :
    rowOf hN (Scalar.select (IntOp.cmpi .slt v 0#32) (IntOp.addi v n) v) = r := by
  have hs : IntOp.cmpi .slt v 0#32 = 0#1 := by
    unfold IntOp.cmpi
    have : v.slt 0#32 = false := by
      rw [BitVec.slt, h]
      simp
    simp [this]
  unfold Scalar.select
  rw [hs, if_neg (by decide)]
  apply Fin.ext
  show min v.toInt.toNat (N - 1) = r.val
  rw [h]
  have := r.isLt
  simp only [Int.toNat_natCast]
  omega

end Cert.Gcn

end
-- ==== Proof.LibHostDot.lean ====
/-
  The host's matrix product over the extended reals, read entry by entry.

  A product of an m×k matrix by a k×n matrix (left operand contracted on its columns, right operand on its rows, no
  batch axes) has at entry (a, b) the sum over the contracted coordinate `c` of `A (a, c) * B (c, b)`: the host's
  product and a tile product accumulated into the zero tile are the same sum over the dimension record's contraction
  index, and the tile product is read in `Cert.LibTiles`.
-/
import proofs.«175976_j4475355922587_2_alg».proof.Proof.LibTiles

noncomputable section

namespace Cert.LibHostDot

open Idealize.ShloMosaic Idealize.ShloMosaic.ValueIdx

variable {m n k : Nat} {φ₁ φ₂ : FTy}

/-- The host's product read at entry (a, b). -/
theorem hostDot_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  ((Ideal.dotGeneral_apply (⟨[1], [0], [0], [1], [], [], w⟩ : DotDims _ _ _) prec .single A B (ix2 a b)).trans
    (Ideal.matmul_constant_zero_apply (⟨[1], [0], [0], [1], [], [], w⟩ : DotDims _ _ _) prec A B (ix2 a b)).symm).trans
    (Cert.LibTiles.matmul_zero_apply w prec A B a b)

end Cert.LibHostDot

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.LayerBridge.lean ====
/-
  One graph-convolution layer: the fused form against the reference's form, entry by entry.

  The reference computes a layer from the hidden table H as
      tanh ( scatter-add over edges of (H · W)[source] · (dv[source] · dv[destination])  +  b ).
  The fused form receives the table T = (H · W) with every row already scaled by its node weight, aggregates the
  gathered rows unweighted, and applies the destination's weight afterwards:
      tanh ( (scatter-add over edges of T[source]) ∘ dv  +  b ).
  Both use the same gather indices and the same scatter indices, built from the edge list by the same operations; the
  two are equal entry by entry by the aggregation law, for finite H and W (the node weights are always finite).
-/
import proofs.«175976_j4475355922587_2_alg».proof.Proof.RefRead
import proofs.«175976_j4475355922587_2_alg».proof.Proof.KernelStages
import proofs.«175976_j4475355922587_2_alg».proof.Proof.Spec
import proofs.«175976_j4475355922587_2_alg».proof.Proof.LibEdgeFacts
import proofs.«175976_j4475355922587_2_alg».proof.Proof.LibHostDot
import proofs.«175976_j4475355922587_2_alg».proof.Proof.LibCastForms

noncomputable section

namespace Cert.Proof.Bridge

open Idealize.ShloMosaic Idealize.ShloMosaic.ValueIdx EdgeScale Cert.Gcn
open Cert.ReferenceIdeal Cert.ReferenceIdeal.Gen Cert.ReferenceIdeal.Read
open Cert.KernelIdeal.Stages

/-! ## The two programs build the same index columns and node weights -/

variable (x1 : IVec S2x800000 32)

theorem srcCol_eq : srcCol x1 = val_main_v45 (F := Ideal) x1 := rfl
theorem srcCol_eq_norm : srcCol x1 = val_main_v21 (F := Ideal) x1 := rfl
theorem dstCol_eq : dstCol x1 = val_main_v51 (F := Ideal) x1 := rfl
theorem dinv_eq : dinv (F := Ideal) x1 = val_main_v15 (F := Ideal) x1 := rfl

/-- The node weight of node r. -/
def dv (r : Fin 50000) : EReal := dinv (F := Ideal) x1 (ix1 r)

/-- The weight `if 0 < d then d^(-1/2) else 0` of a table of degrees, at an index where the zero table reads 0. -/
theorem weight_finite_at {s : Shape} (d z : FVec Ideal s .f32) (i : s.Idx) (hz : z i = 0) :
    Finite (select (cmpf .ogt d z) (Host.rsqrt d) z i) := by
  show Finite (Scalar.select (Ideal.cmp .ogt (d i) (z i)) (Ideal.rsqrt (d i)) (z i))
  rw [hz]
  exact weight_finite _

/-- The splat of the zero word reads 0 everywhere. -/
theorem splat_zero {s : Shape} (h : S_.BroadcastsInDim s ![]) (i : s.Idx) :
    broadcastInDim s ![] h (constant (F := Ideal) S_ .f32 0x00000000#32) i = 0 :=
  Ideal.ofBits_zero_f32

theorem dv_finite (r : Fin 50000) : Finite (dv x1 r) := by
  unfold dv dinv
  exact weight_finite_at _ _ _ (splat_zero _ _)

/-- The node weights as a column, at (r, 0). -/
theorem dcol_apply (r : Fin 50000) : dcol (F := Ideal) x1 (ix2 r (0 : Fin 1)) = dv x1 r :=
  Cert.LibCastForms.cast_col _ _ r 0

/-! ## The edge weights and the destination rows -/

/-- The node weights gathered by a column of start indices, at edge e. -/
theorem gather_weights (idx : IVec S850000x1 32) (e : Fin 850000) :
    Host.gather gather_S50000_S850000x1_S850000_n_0_n_n_0_1_1 (val_main_v15 (F := Ideal) x1) idx (ix1 e)
      = val_main_v15 (F := Ideal) x1 (ix1 (rowOf (N := 50000) (by decide) (idx (ix2 e (0 : Fin 1))))) :=
  EdgeIndex.gather_vec_apply (N := 50000) (E := 850000) (by decide)
    gather_S50000_S850000x1_S850000_n_0_n_n_0_1_1_wf (val_main_v15 (F := Ideal) x1) idx e

/-- The reference's weight of edge e, laid across the columns: the source's node weight times the destination's. -/
theorem edge_weight (e : Fin 850000) (k : Fin 256) :
    val_main_v48 (F := Ideal) x1 (ix2 e k)
      = dv x1 (rowOf (by decide) (srcCol x1 (ix2 e (0 : Fin 1))))
        * dv x1 (rowOf (by decide) (val_main_v28 (F := Ideal) x1 (ix2 e (0 : Fin 1)))) := by
  have h1 : val_main_v48 (F := Ideal) x1 (ix2 e k) = val_main_v30 (F := Ideal) x1 (ix1 e) := by
    unfold val_main_v48 val_main_v47
    rw [Cert.LibCastForms.bcast_a1_ab_apply, Cert.LibCastForms.bcast_col]
  rw [h1]
  unfold val_main_v30 val_main_v22 val_main_v29 dv
  rw [mulf_apply, dinv_eq x1, srcCol_eq_norm x1]
  refine congrArg₂ (· * ·) ?_ ?_
  · exact gather_weights x1 _ e
  · exact gather_weights x1 _ e

/-- An edge the scatter sends to row r has r as the row its destination weight is read at. -/
theorem dst_row (e : Fin 850000) (r : Fin 50000) (h : (dstCol x1 (ix2 e (0 : Fin 1))).toInt = (r.val : Int)) :
    rowOf (N := 50000) (by decide) (val_main_v28 (F := Ideal) x1 (ix2 e (0 : Fin 1))) = r := by
  have h28 : val_main_v28 (F := Ideal) x1 (ix2 e (0 : Fin 1))
      = Scalar.select (IntOp.cmpi .slt (val_main_v6 (F := Ideal) x1 (ix1 e)) 0#32)
          (IntOp.addi (val_main_v6 (F := Ideal) x1 (ix1 e)) 50000#32) (val_main_v6 (F := Ideal) x1 (ix1 e)) := by
    unfold val_main_v28
    rw [Cert.LibCastForms.bcast_col]
    rfl
  have hd : dstCol x1 (ix2 e (0 : Fin 1)) = val_main_v6 (F := Ideal) x1 (ix1 e) := by
    unfold dstCol
    rw [Cert.LibCastForms.bcast_col]
    rfl
  rw [h28]
  exact rowOf_norm _ _ _ r (hd ▸ h)

end Cert.Proof.Bridge

end
-- ==== Proof.LayerStep.lean ====
/-
  One layer of the network in both forms (see LayerBridge for the index columns, the node weights and the edge
  weights): the reference's layer term, the host's products read at an entry, and the layer law applied to them.
-/
import proofs.«175976_j4475355922587_2_alg».proof.Proof.LayerBridge

noncomputable section

namespace Cert.Proof.Bridge

open Idealize.ShloMosaic Idealize.ShloMosaic.ValueIdx EdgeScale Cert.Gcn
open Cert.ReferenceIdeal Cert.ReferenceIdeal.Gen Cert.ReferenceIdeal.Read
open Cert.KernelIdeal.Stages

variable (x1 : IVec S2x800000 32)

/-! ## The layer -/

/-- The host's tanh of a table, at an index. -/
theorem hostTanh_apply {s : Shape} (x : FVec Ideal s .f32) (i : s.Idx) : Host.tanh x i = Ideal.tanh (x i) := rfl

/-- The reference's layer as a term of the hidden table, the weight matrix and the bias. -/
def refLayer (H : FVec Ideal S50000x256 .f32) (W : FVec Ideal S256x256 .f32) (b : FVec Ideal S256 .f32) :
    FVec Ideal S50000x256 .f32 :=
  Host.tanh (addf
    (Host.scatterAdd scatter_S50000x256_S850000x1_S850000x256_1_0_0_1 (val_main_v50 (F := Ideal)) (val_main_v51 (F := Ideal) x1)
      (mulf (Host.gather gather_S50000x256_S850000x1_S850000x256_1_0_n_n_0_1_1256
          (Host.dotGeneral dot_S50000x256_S256x256_S50000x256_1_0_0_1_n_n none H W) (val_main_v45 (F := Ideal) x1))
        (val_main_v48 (F := Ideal) x1)))
    (broadcastInDim S50000x256 ![0, 1] bcast_S1x256_S50000x256_0_1 (broadcastInDim S1x256 ![1] bcast_S256_S1x256_1 b)))

/-- The host's product of the hidden table with a weight matrix, at (r, q). -/
theorem lin_apply (H : FVec Ideal S50000x256 .f32) (W : FVec Ideal S256x256 .f32) (r : Fin 50000) (q : Fin 256) :
    Host.dotGeneral dot_S50000x256_S256x256_S50000x256_1_0_0_1_n_n none H W (ix2 r q) = ∑ j : Fin 256, H (ix2 r j) * W (ix2 j q) :=
  Cert.LibHostDot.hostDot_apply dot_S50000x256_S256x256_S50000x256_1_0_0_1_n_n_wf none H W r q

theorem lin_finite (H : FVec Ideal S50000x256 .f32) (W : FVec Ideal S256x256 .f32) (hH : ∀ i, Finite (H i)) (hW : ∀ i, Finite (W i))
    (i : S50000x256.Idx) : Finite (Host.dotGeneral dot_S50000x256_S256x256_S50000x256_1_0_0_1_n_n none H W i) := by
  obtain ⟨r, q, rfl⟩ : ∃ (r : Fin 50000) (q : Fin 256), i = ix2 r q := ⟨i 0, i 1, eq_ix2 i⟩
  rw [lin_apply]
  exact Finite.sum _ _ fun j _ => (hH _).mul (hW _)

/-- The fused aggregate is the exact scatter-add of the gathered rows (a change of float format is the identity). -/
theorem agg_eq (T : Mat 50000 256) :
    agg (F := Ideal) T x1
      = Ideal.hostScatterAdd (EdgeIndex.rowScatter 50000 850000 256 scatter_S50000x256_S850000x1_S850000x256_1_0_0_1_wf)
          (val_main_v50 (F := Ideal)) (dstCol x1)
          (Host.gather (EdgeIndex.rowDims 50000 850000 256 gather_S50000x256_S850000x1_S850000x256_1_0_n_n_0_1_1256_wf) T (srcCol x1)) :=
  rfl

/-- The reference's scatter-add of the weighted gathered rows, over the same index columns. -/
theorem ref_scatter_eq (L : FVec Ideal S50000x256 .f32) :
    Host.scatterAdd scatter_S50000x256_S850000x1_S850000x256_1_0_0_1 (val_main_v50 (F := Ideal)) (val_main_v51 (F := Ideal) x1)
        (mulf (Host.gather gather_S50000x256_S850000x1_S850000x256_1_0_n_n_0_1_1256 L (val_main_v45 (F := Ideal) x1))
          (val_main_v48 (F := Ideal) x1))
      = Ideal.hostScatterAdd (EdgeIndex.rowScatter 50000 850000 256 scatter_S50000x256_S850000x1_S850000x256_1_0_0_1_wf)
          (val_main_v50 (F := Ideal)) (dstCol x1)
          (fun u => Host.gather (EdgeIndex.rowDims 50000 850000 256 gather_S50000x256_S850000x1_S850000x256_1_0_n_n_0_1_1256_wf) L (srcCol x1) u
            * val_main_v48 (F := Ideal) x1 u) :=
  rfl

/-- ONE LAYER: the activation of the fused form, from a table scaled row by row, is the reference's layer. -/
theorem layer_step (T : Mat 50000 256) (H : FVec Ideal S50000x256 .f32) (W : FVec Ideal S256x256 .f32) (b : FVec Ideal S256 .f32)
    (brow : Mat 1 256)
    (hT : ∀ (r : Fin 50000) (q : Fin 256), T (ix2 r q) = (∑ j : Fin 256, H (ix2 r j) * W (ix2 j q)) * dv x1 r)
    (hb : ∀ j : Fin 256, brow (ix2 (0 : Fin 1) j) = b (ix1 j))
    (hH : ∀ i, Finite (H i)) (hW : ∀ i, Finite (W i)) (r : Fin 50000) (j : Fin 256) :
    actAt (agg (F := Ideal) T x1) (dcol (F := Ideal) x1) brow r j = refLayer x1 H W b (ix2 r j) := by
  unfold actAt refLayer
  rw [hostTanh_apply]
  refine congrArg Ideal.tanh ?_
  rw [dcol_apply, hb, addf_apply, Cert.LibCastForms.bcast_1b_ab_apply, Cert.LibCastForms.bcast_row, agg_eq, ref_scatter_eq]
  exact aggregate_scaled (N := 50000) (E := 850000) (K := 256) (by decide)
    gather_S50000x256_S850000x1_S850000x256_1_0_n_n_0_1_1256_wf scatter_S50000x256_S850000x1_S850000x256_1_0_0_1_wf
    T (Host.dotGeneral dot_S50000x256_S256x256_S50000x256_1_0_0_1_n_n none H W) (dv x1) (srcCol x1) (dstCol x1)
    (fun e => rowOf (by decide) (val_main_v28 (F := Ideal) x1 (ix2 e (0 : Fin 1))))
    (val_main_v50 (F := Ideal)) (fun i => splat_zero _ i) (val_main_v48 (F := Ideal) x1)
    (fun r q => (hT r q).trans (by rw [lin_apply])) (edge_weight x1) (dst_row x1)
    (lin_finite H W hH hW) (dv_finite x1) (b (ix1 j)) r j

end Cert.Proof.Bridge

end
-- ==== Proof.LibSlices.lean ====
/-
  One layer's slice of a stack of matrices, and of a stack of rows, recast to the layer's own rank, read at coordinates.

    * from a stack `x : [L, R, C]` the rows `o … o + n − 1` of layer `l` are sliced out as `[1, n, C]` and recast as a
      matrix `[n, C]`: entry (k, q) of the matrix is `x (l, o + k, q)`;
    * from a stack `x : [L, C]` row `l` is sliced out as `[1, C]` and recast as a vector `[C]`: entry q is `x (l, q)`.
-/
import Idealize.ShloMosaic.Lib.ValueIdx
import Idealize.ShloMosaic.Lib.Pipeline.Value

namespace Cert.LibSlices

open Idealize.ShloMosaic Idealize.ShloMosaic.ValueIdx

variable {α : Type}

/-- Rows `o … o + n − 1` of layer `l` of a stack of matrices, as a matrix, at (k, q): the stack at row `r = o + k`. -/
theorem layer_rows_apply {L R C n : ℕ} (l o : ℕ) (x : (⟨3, ![L, R, C]⟩ : Shape).Idx → α)
    (hs : (⟨3, ![L, R, C]⟩ : Shape).Slices ![l, o, 0] ⟨3, ![1, n, C]⟩)
    (hc : (⟨3, ![1, n, C]⟩ : Shape).ShapeCasts ⟨2, ![n, C]⟩) (hl : l < L) (k : Fin n) (q : Fin C) (r : Fin R)
    (hr : r.val = o + k.val) :
    shapeCast ⟨2, ![n, C]⟩ (extractStridedSlice ⟨3, ![1, n, C]⟩ ![l, o, 0] x hs) hc (ix2 k q) = x (ix3 ⟨l, hl⟩ r q) := by
  refine (shapeCast_apply _ hc (ix2 k q) (ix3 (0 : Fin 1) k q) ?_).trans ?_
  · rw [Shape.rowMajor_val_three, Shape.rowMajor_val_two]
    show (0 * n + k.val) * C + q.val = k.val * C + q.val
    rw [Nat.zero_mul, Nat.zero_add]
  · refine extractStridedSlice_apply _ x hs _ _ fun a => ?_
    match a with
    | ⟨0, _⟩ => show l = l + 0; omega
    | ⟨1, _⟩ => exact hr
    | ⟨2, _⟩ => show q.val = 0 + q.val; omega

/-- Row `l` of a stack of rows, as a vector, at q. -/
theorem layer_row_apply {L C : ℕ} (l : ℕ) (x : (⟨2, ![L, C]⟩ : Shape).Idx → α)
    (hs : (⟨2, ![L, C]⟩ : Shape).Slices ![l, 0] ⟨2, ![1, C]⟩)
    (hc : (⟨2, ![1, C]⟩ : Shape).ShapeCasts ⟨1, ![C]⟩) (hl : l < L) (q : Fin C) :
    shapeCast ⟨1, ![C]⟩ (extractStridedSlice ⟨2, ![1, C]⟩ ![l, 0] x hs) hc (ix1 q) = x (ix2 ⟨l, hl⟩ q) := by
  refine (shapeCast_apply _ hc (ix1 q) (ix2 (0 : Fin 1) q) ?_).trans ?_
  · rw [Shape.rowMajor_val_two, Shape.rowMajor_val_one]
    show 0 * C + q.val = q.val
    rw [Nat.zero_mul, Nat.zero_add]
  · refine extractStridedSlice_apply _ x hs _ _ fun a => ?_
    match a with
    | ⟨0, _⟩ => show l = l + 0; omega
    | ⟨1, _⟩ => show q.val = 0 + q.val; omega

end Cert.LibSlices
-- ==== Proof.LibPadInside.lean ====
/-
  A padded array read inside the original.

  `pad` with no low padding and no interior padding only appends entries at the high end of each axis. At an index whose
  every coordinate is below the operand's extent, the padded array holds the operand's entry at the same coordinates,
  whatever the padding value is.
-/
import Idealize.ShloMosaic.PureOps.ShapeOps

namespace Cert.LibPadInside

open Idealize.ShloMosaic

/-- A pad with zero low and zero interior padding, read at an index `j` whose coordinates are those of an index `k` of
    the operand: the operand at `k`. -/
theorem pad_apply_inside {s t u : Shape} {α : Type} (lo hi interior : Fin s.rank → Nat) (x : s.Idx → α) (v : u.Idx → α)
    (h : s.Pads lo hi interior t) (hu : 0 < u.numel) (j : t.Idx) (k : s.Idx)
    (hlo : ∀ a, lo a = 0) (hint : ∀ a, interior a = 0) (hk : ∀ a : Fin s.rank, (k a).val = (j (a.cast h.1)).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a := by
    intro a
    have hlt : (k a).val < s.size a := (k a).isLt
    rw [hlo a, hint a, ← hk a]
    exact ⟨Nat.zero_le _, by omega, by omega⟩
  rw [dif_pos hin]
  refine congrArg x (funext fun a => Fin.ext ?_)
  show ((j (a.cast h.1)).val - lo a) / (interior a + 1) = (k a).val
  rw [hlo a, hint a, hk a]
  omega

end Cert.LibPadInside
-- ==== Proof.NetBridge.lean ====
/-
  The whole network: the fused program's result is the reference's result, entry by entry, for finite parameters.

  Reference:  R0 = X · We + be;   R(l+1) = layer (R l) (W l) (b l)  for l = 0 … 3;   result = R4 · Wo + bo.
  Fused:      S0 = ((X · We + be) · W0) ∘ dv;   S(l+1) = (tanh (aggregate (S l) ∘ dv + b l) · W(l+1)) ∘ dv  for l = 0, 1, 2;
              result = the first 64 columns of  tanh (aggregate S3 ∘ dv + b3) · [Wo | 0] + [bo | 0].
  Invariant:  S l = (R l · W l) ∘ dv, row by row; by the layer law  tanh (aggregate (S l) ∘ dv + b l) = R(l+1).
  The hidden tables are finite: R0 is a finite sum of products of finite entries, and a tanh is finite at every
  extended real.
-/
import proofs.«175976_j4475355922587_2_alg».proof.Proof.LayerStep
import proofs.«175976_j4475355922587_2_alg».proof.Proof.LibSlices
import proofs.«175976_j4475355922587_2_alg».proof.Proof.LibPadInside
import Idealize.ShloMosaic.Lib.ValueLayout

noncomputable section

namespace Cert.Proof.Bridge

open Idealize.ShloMosaic Idealize.ShloMosaic.ValueIdx EdgeScale Cert.Gcn
open Cert.ReferenceIdeal Cert.ReferenceIdeal.Gen Cert.ReferenceIdeal.Read
open Cert.KernelIdeal.Stages

variable (x0 : FVec Ideal S50000x128 .f32) (x1 : IVec S2x800000 32) (x2 : FVec Ideal S128x256 .f32) (x3 : FVec Ideal S256 .f32)
  (x4 : FVec Ideal S4x256x256 .f32) (x5 : FVec Ideal S4x256 .f32) (x6 : FVec Ideal S256x64 .f32) (x7 : FVec Ideal S64 .f32)

/-! ## A tanh is finite -/

theorem tanh_finite (x : EReal) : Finite (Ideal.tanh x) := by
  induction x using EReal.rec with
  | bot => rw [Ideal.tanh_bot]; simpa using finite_coe (-1)
  | top => rw [Ideal.tanh_top]; exact finite_one
  | coe r => rw [Ideal.tanh_coe]; exact finite_coe _

theorem refLayer_finite (H : FVec Ideal S50000x256 .f32) (W : FVec Ideal S256x256 .f32) (b : FVec Ideal S256 .f32)
    (i : S50000x256.Idx) : Finite (refLayer x1 H W b i) := by
  unfold refLayer
  rw [hostTanh_apply]
  exact tanh_finite _

/-! ## The parameters, layer by layer: both programs slice the same stacks -/

theorem wc0_eq : wc0 (F := Ideal) x4 = val_main_v36 (F := Ideal) x4 := rfl
theorem wc1_eq : wc1 (F := Ideal) x4 = val_main_v58 (F := Ideal) x4 := rfl
theorem wc2_eq : wc2 (F := Ideal) x4 = val_main_v80 (F := Ideal) x4 := rfl
theorem wc3_eq : wc3 (F := Ideal) x4 = val_main_v102 (F := Ideal) x4 := rfl

theorem bRow0_apply (j : Fin 256) : bRow0 (F := Ideal) x5 (ix2 (0 : Fin 1) j) = val_main_v38 (F := Ideal) x5 (ix1 j) :=
  shapeCast_a_1a_apply (val_main_v38 (F := Ideal) x5) _ 0 j
theorem bRow1_apply (j : Fin 256) : bRow1 (F := Ideal) x5 (ix2 (0 : Fin 1) j) = val_main_v60 (F := Ideal) x5 (ix1 j) :=
  shapeCast_a_1a_apply (val_main_v60 (F := Ideal) x5) _ 0 j
theorem bRow2_apply (j : Fin 256) : bRow2 (F := Ideal) x5 (ix2 (0 : Fin 1) j) = val_main_v82 (F := Ideal) x5 (ix1 j) :=
  shapeCast_a_1a_apply (val_main_v82 (F := Ideal) x5) _ 0 j
theorem bRow3_apply (j : Fin 256) : bRow3 (F := Ideal) x5 (ix2 (0 : Fin 1) j) = val_main_v104 (F := Ideal) x5 (ix1 j) :=
  shapeCast_a_1a_apply (val_main_v104 (F := Ideal) x5) _ 0 j

/-- Every entry of a layer's weight matrix is an entry of the stack. -/
theorem w0_finite (h4 : ∀ i, Finite (x4 i)) (i : S256x256.Idx) : Finite (val_main_v36 (F := Ideal) x4 i) := by
  obtain ⟨k, q, rfl⟩ : ∃ (k : Fin 256) (q : Fin 256), i = ix2 k q := ⟨i 0, i 1, eq_ix2 i⟩
  rw [show val_main_v36 (F := Ideal) x4 (ix2 k q) = x4 (ix3 ⟨0, by decide⟩ k q) from
    Cert.LibSlices.layer_rows_apply 0 0 x4 _ _ _ k q k (by omega)]
  exact h4 _
theorem w1_finite (h4 : ∀ i, Finite (x4 i)) (i : S256x256.Idx) : Finite (val_main_v58 (F := Ideal) x4 i) := by
  obtain ⟨k, q, rfl⟩ : ∃ (k : Fin 256) (q : Fin 256), i = ix2 k q := ⟨i 0, i 1, eq_ix2 i⟩
  rw [show val_main_v58 (F := Ideal) x4 (ix2 k q) = x4 (ix3 ⟨1, by decide⟩ k q) from
    Cert.LibSlices.layer_rows_apply 1 0 x4 _ _ _ k q k (by omega)]
  exact h4 _
theorem w2_finite (h4 : ∀ i, Finite (x4 i)) (i : S256x256.Idx) : Finite (val_main_v80 (F := Ideal) x4 i) := by
  obtain ⟨k, q, rfl⟩ : ∃ (k : Fin 256) (q : Fin 256), i = ix2 k q := ⟨i 0, i 1, eq_ix2 i⟩
  rw [show val_main_v80 (F := Ideal) x4 (ix2 k q) = x4 (ix3 ⟨2, by decide⟩ k q) from
    Cert.LibSlices.layer_rows_apply 2 0 x4 _ _ _ k q k (by omega)]
  exact h4 _
theorem w3_finite (h4 : ∀ i, Finite (x4 i)) (i : S256x256.Idx) : Finite (val_main_v102 (F := Ideal) x4 i) := by
  obtain ⟨k, q, rfl⟩ : ∃ (k : Fin 256) (q : Fin 256), i = ix2 k q := ⟨i 0, i 1, eq_ix2 i⟩
  rw [show val_main_v102 (F := Ideal) x4 (ix2 k q) = x4 (ix3 ⟨3, by decide⟩ k q) from
    Cert.LibSlices.layer_rows_apply 3 0 x4 _ _ _ k q k (by omega)]
  exact h4 _

/-! ## The embedding -/

/-- The reference's embedded table at (r, j). -/
theorem embed_apply (r : Fin 50000) (j : Fin 256) :
    val_main_v34 (F := Ideal) x0 x2 x3 (ix2 r j) = (∑ i : Fin 128, x0 (ix2 r i) * x2 (ix2 i j)) + x3 (ix1 j) := by
  unfold val_main_v34
  rw [addf_apply]
  refine congrArg₂ (· + ·) (Cert.LibHostDot.hostDot_apply dot_S50000x128_S128x256_S50000x256_1_0_0_1_n_n_wf none x0 x2 r j) ?_
  unfold val_main_v33 val_main_v32
  rw [Cert.LibCastForms.bcast_1b_ab_apply, Cert.LibCastForms.bcast_row]

theorem embed_finite (h0 : ∀ i, Finite (x0 i)) (h2 : ∀ i, Finite (x2 i)) (h3 : ∀ i, Finite (x3 i)) (i : S50000x256.Idx) :
    Finite (val_main_v34 (F := Ideal) x0 x2 x3 i) := by
  obtain ⟨r, j, rfl⟩ : ∃ (r : Fin 50000) (j : Fin 256), i = ix2 r j := ⟨i 0, i 1, eq_ix2 i⟩
  rw [embed_apply]
  exact (Finite.sum _ _ fun k _ => (h0 _).mul (h2 _)).add (h3 _)

/-- The fused embedding: the embedded table times layer 0's weights, every row scaled by its node weight. -/
theorem embed_scaled (r : Fin 50000) (q : Fin 256) :
    embedScaled (n := 50000) x0 x2 (beRow (F := Ideal) x3) (wc0 (F := Ideal) x4) (dcol (F := Ideal) x1) (ix2 r q)
      = (∑ j : Fin 256, val_main_v34 (F := Ideal) x0 x2 x3 (ix2 r j) * val_main_v36 (F := Ideal) x4 (ix2 j q)) * dv x1 r := by
  rw [embedScaled_apply]
  unfold embedScaledAt
  rw [dcol_apply, wc0_eq]
  refine congrArg (· * dv x1 r) (Finset.sum_congr rfl fun j _ => ?_)
  rw [embed_apply]
  refine congrArg (· * val_main_v36 (F := Ideal) x4 (ix2 j q)) ?_
  refine congrArg ((∑ i : Fin 128, x0 (ix2 r i) * x2 (ix2 i j)) + ·) ?_
  exact shapeCast_a_1a_apply x3 _ 0 j

/-! ## A middle layer and the read-out -/

/-- A middle step: from a table scaled row by row, the next scaled table. -/
theorem mid_scaled (T : Mat 50000 256) (H : FVec Ideal S50000x256 .f32) (W : FVec Ideal S256x256 .f32) (b : FVec Ideal S256 .f32)
    (brow : Mat 1 256) (Wn : Mat 256 256)
    (hT : ∀ (r : Fin 50000) (q : Fin 256), T (ix2 r q) = (∑ j : Fin 256, H (ix2 r j) * W (ix2 j q)) * dv x1 r)
    (hb : ∀ j : Fin 256, brow (ix2 (0 : Fin 1) j) = b (ix1 j))
    (hH : ∀ i, Finite (H i)) (hW : ∀ i, Finite (W i)) (r : Fin 50000) (q : Fin 256) :
    midScaled (n := 50000) (agg (F := Ideal) T x1) (dcol (F := Ideal) x1) brow Wn (ix2 r q)
      = (∑ j : Fin 256, refLayer x1 H W b (ix2 r j) * Wn (ix2 j q)) * dv x1 r := by
  rw [midScaled_apply]
  unfold midScaledAt
  rw [dcol_apply]
  refine congrArg (· * dv x1 r) (Finset.sum_congr rfl fun j _ => ?_)
  rw [layer_step x1 T H W b brow hT hb hH hW r j]

/-- The padded read-out matrix inside the original columns. -/
theorem woPad_apply (j : Fin 256) (q : Fin 64) :
    woPad (F := Ideal) x6 (ix2 j (⟨q.val, by omega⟩ : Fin 128)) = x6 (ix2 j q) := by
  unfold woPad
  exact Cert.LibPadInside.pad_apply_inside _ _ _ x6 _ _ _ (ix2 j (⟨q.val, by omega⟩ : Fin 128)) (ix2 j q)
    (fun a => match a with | ⟨0, _⟩ => rfl | ⟨1, _⟩ => rfl) (fun a => match a with | ⟨0, _⟩ => rfl | ⟨1, _⟩ => rfl)
    (fun a => match a with | ⟨0, _⟩ => rfl | ⟨1, _⟩ => rfl)

/-- The padded read-out bias, as a row, inside the original columns. -/
theorem boPadRow_apply (q : Fin 64) :
    boPadRow (F := Ideal) x7 (ix2 (0 : Fin 1) (⟨q.val, by omega⟩ : Fin 128)) = x7 (ix1 q) := by
  unfold boPadRow
  rw [shapeCast_a_1a_apply]
  exact Cert.LibPadInside.pad_apply_inside _ _ _ x7 _ _ _ (ix1 (⟨q.val, by omega⟩ : Fin 128)) (ix1 q)
    (fun a => match a with | ⟨0, _⟩ => rfl) (fun a => match a with | ⟨0, _⟩ => rfl)
    (fun a => match a with | ⟨0, _⟩ => rfl)

/-- The read-out step: the first 64 columns of the padded read-out of the last aggregate. -/
theorem readout_cols (T : Mat 50000 256) (H : FVec Ideal S50000x256 .f32) (W : FVec Ideal S256x256 .f32) (b : FVec Ideal S256 .f32)
    (brow : Mat 1 256)
    (hT : ∀ (r : Fin 50000) (q : Fin 256), T (ix2 r q) = (∑ j : Fin 256, H (ix2 r j) * W (ix2 j q)) * dv x1 r)
    (hb : ∀ j : Fin 256, brow (ix2 (0 : Fin 1) j) = b (ix1 j))
    (hH : ∀ i, Finite (H i)) (hW : ∀ i, Finite (W i)) (r : Fin 50000) (q : Fin 64) :
    cols64 (F := Ideal) (readout (n := 50000) (agg (F := Ideal) T x1) (dcol (F := Ideal) x1) brow (woPad (F := Ideal) x6)
        (boPadRow (F := Ideal) x7)) (ix2 r q)
      = (∑ j : Fin 256, refLayer x1 H W b (ix2 r j) * x6 (ix2 j q)) + x7 (ix1 q) := by
  unfold cols64
  rw [extractStridedSlice_apply ![0, 0] _ _ (ix2 r q) (ix2 r (⟨q.val, by omega⟩ : Fin 128))
    (fun a => match a with | ⟨0, _⟩ => by show r.val = 0 + r.val; omega | ⟨1, _⟩ => by show q.val = 0 + q.val; omega)]
  rw [readout_apply]
  unfold readoutAt
  refine congrArg₂ (· + ·) (Finset.sum_congr rfl fun j _ => ?_) (boPadRow_apply x7 q)
  rw [layer_step x1 T H W b brow hT hb hH hW r j, woPad_apply]

/-- The reference's result at (r, q). -/
theorem result_apply (r : Fin 50000) (q : Fin 64) :
    val_main_v126 (F := Ideal) x0 x1 x2 x3 x4 x5 x6 x7 (ix2 r q)
      = (∑ j : Fin 256, val_main_v122 (F := Ideal) x0 x1 x2 x3 x4 x5 (ix2 r j) * x6 (ix2 j q)) + x7 (ix1 q) := by
  unfold val_main_v126
  rw [addf_apply]
  refine congrArg₂ (· + ·) ?_ ?_
  · unfold val_main_v123
    exact Cert.LibHostDot.hostDot_apply dot_S50000x256_S256x64_S50000x64_1_0_0_1_n_n_wf none _ x6 r q
  · unfold val_main_v125 val_main_v124
    rw [Cert.LibCastForms.bcast_1b_ab_apply, Cert.LibCastForms.bcast_row]

/-! ## The four layers chained -/

/-- The fused program's tables: the scaled embedding, then one scaled table per middle step. -/
def S0 : Mat 50000 256 :=
  embedScaled (n := 50000) x0 x2 (beRow (F := Ideal) x3) (wc0 (F := Ideal) x4) (dcol (F := Ideal) x1)
def S1 : Mat 50000 256 :=
  midScaled (n := 50000) (agg (F := Ideal) (S0 x0 x1 x2 x3 x4) x1) (dcol (F := Ideal) x1) (bRow0 (F := Ideal) x5) (wc1 (F := Ideal) x4)
def S2 : Mat 50000 256 :=
  midScaled (n := 50000) (agg (F := Ideal) (S1 x0 x1 x2 x3 x4 x5) x1) (dcol (F := Ideal) x1) (bRow1 (F := Ideal) x5) (wc2 (F := Ideal) x4)
def S3 : Mat 50000 256 :=
  midScaled (n := 50000) (agg (F := Ideal) (S2 x0 x1 x2 x3 x4 x5) x1) (dcol (F := Ideal) x1) (bRow2 (F := Ideal) x5) (wc3 (F := Ideal) x4)
/-- The fused program's result. -/
def fused : FVec Ideal S50000x64 .f32 :=
  cols64 (F := Ideal) (readout (n := 50000) (agg (F := Ideal) (S3 x0 x1 x2 x3 x4 x5) x1) (dcol (F := Ideal) x1) (bRow3 (F := Ideal) x5)
    (woPad (F := Ideal) x6) (boPadRow (F := Ideal) x7))

/-- The reference's hidden tables are its layer term applied four times. -/
theorem R1_eq : val_main_v56 (F := Ideal) x0 x1 x2 x3 x4 x5
    = refLayer x1 (val_main_v34 (F := Ideal) x0 x2 x3) (val_main_v36 (F := Ideal) x4) (val_main_v38 (F := Ideal) x5) := rfl
theorem R2_eq : val_main_v78 (F := Ideal) x0 x1 x2 x3 x4 x5
    = refLayer x1 (val_main_v56 (F := Ideal) x0 x1 x2 x3 x4 x5) (val_main_v58 (F := Ideal) x4) (val_main_v60 (F := Ideal) x5) := rfl
theorem R3_eq : val_main_v100 (F := Ideal) x0 x1 x2 x3 x4 x5
    = refLayer x1 (val_main_v78 (F := Ideal) x0 x1 x2 x3 x4 x5) (val_main_v80 (F := Ideal) x4) (val_main_v82 (F := Ideal) x5) := rfl
theorem R4_eq : val_main_v122 (F := Ideal) x0 x1 x2 x3 x4 x5
    = refLayer x1 (val_main_v100 (F := Ideal) x0 x1 x2 x3 x4 x5) (val_main_v102 (F := Ideal) x4) (val_main_v104 (F := Ideal) x5) := rfl

section Chain
variable (h0 : ∀ i, Finite (x0 i)) (h2 : ∀ i, Finite (x2 i)) (h3 : ∀ i, Finite (x3 i)) (h4 : ∀ i, Finite (x4 i))
include h0 h2 h3 h4

theorem scaled1 (r : Fin 50000) (q : Fin 256) :
    S1 x0 x1 x2 x3 x4 x5 (ix2 r q)
      = (∑ j : Fin 256, val_main_v56 (F := Ideal) x0 x1 x2 x3 x4 x5 (ix2 r j) * val_main_v58 (F := Ideal) x4 (ix2 j q)) * dv x1 r := by
  unfold S1
  rw [R1_eq, ← wc1_eq]
  exact mid_scaled x1 (S0 x0 x1 x2 x3 x4) (val_main_v34 (F := Ideal) x0 x2 x3) (val_main_v36 (F := Ideal) x4) (val_main_v38 (F := Ideal) x5)
    (bRow0 (F := Ideal) x5) (wc1 (F := Ideal) x4) (fun r q => embed_scaled x0 x1 x2 x3 x4 r q) (bRow0_apply x5)
    (embed_finite x0 x2 x3 h0 h2 h3) (w0_finite x4 h4) r q

theorem scaled2 (r : Fin 50000) (q : Fin 256) :
    S2 x0 x1 x2 x3 x4 x5 (ix2 r q)
      = (∑ j : Fin 256, val_main_v78 (F := Ideal) x0 x1 x2 x3 x4 x5 (ix2 r j) * val_main_v80 (F := Ideal) x4 (ix2 j q)) * dv x1 r := by
  unfold S2
  rw [R2_eq, ← wc2_eq]
  exact mid_scaled x1 (S1 x0 x1 x2 x3 x4 x5) (val_main_v56 (F := Ideal) x0 x1 x2 x3 x4 x5) (val_main_v58 (F := Ideal) x4)
    (val_main_v60 (F := Ideal) x5) (bRow1 (F := Ideal) x5) (wc2 (F := Ideal) x4) (scaled1 x0 x1 x2 x3 x4 x5 h0 h2 h3 h4) (bRow1_apply x5)
    (fun i => by rw [R1_eq]; exact refLayer_finite x1 _ _ _ i) (w1_finite x4 h4) r q

theorem scaled3 (r : Fin 50000) (q : Fin 256) :
    S3 x0 x1 x2 x3 x4 x5 (ix2 r q)
      = (∑ j : Fin 256, val_main_v100 (F := Ideal) x0 x1 x2 x3 x4 x5 (ix2 r j) * val_main_v102 (F := Ideal) x4 (ix2 j q)) * dv x1 r := by
  unfold S3
  rw [R3_eq, ← wc3_eq]
  exact mid_scaled x1 (S2 x0 x1 x2 x3 x4 x5) (val_main_v78 (F := Ideal) x0 x1 x2 x3 x4 x5) (val_main_v80 (F := Ideal) x4)
    (val_main_v82 (F := Ideal) x5) (bRow2 (F := Ideal) x5) (wc3 (F := Ideal) x4) (scaled2 x0 x1 x2 x3 x4 x5 h0 h2 h3 h4) (bRow2_apply x5)
    (fun i => by rw [R2_eq]; exact refLayer_finite x1 _ _ _ i) (w2_finite x4 h4) r q

/-- THE NETWORK: the fused result is the reference's result, for finite inputs, embedding parameters and layer weights. -/
theorem fused_eq : fused x0 x1 x2 x3 x4 x5 x6 x7 = val_main_v126 (F := Ideal) x0 x1 x2 x3 x4 x5 x6 x7 := by
  funext i
  obtain ⟨r, q, rfl⟩ : ∃ (r : Fin 50000) (q : Fin 64), i = ix2 r q := ⟨i 0, i 1, eq_ix2 i⟩
  rw [result_apply, R4_eq]
  unfold fused
  exact readout_cols x1 x6 x7 (S3 x0 x1 x2 x3 x4 x5) (val_main_v100 (F := Ideal) x0 x1 x2 x3 x4 x5) (val_main_v102 (F := Ideal) x4)
    (val_main_v104 (F := Ideal) x5) (bRow3 (F := Ideal) x5) (scaled3 x0 x1 x2 x3 x4 x5 h0 h2 h3 h4) (bRow3_apply x5)
    (fun i => by rw [R3_eq]; exact refLayer_finite x1 _ _ _ i) (w3_finite x4 h4) r q

end Chain

end Cert.Proof.Bridge

end
-- ==== Proof.FiniteArgs.lean ====
/-
  From the precondition to finiteness: the predicate `finite_inputs` is the conjunction, over the seven float arguments,
  of `all (|x| < +∞)`; when it is all ones, every entry of each of those arguments is finite (neither `+∞` nor `-∞`).
-/
import proofs.«175976_j4475355922587_2_alg».proof.Defs
import proofs.«175976_j4475355922587_2_alg».proof.Proof.Gen.Pre_finite_inputs
import proofs.«175976_j4475355922587_2_alg».proof.Proof.Gen.KernelIdeal
import proofs.«175976_j4475355922587_2_alg».proof.Proof.LibEdgeScale
import Idealize.ShloMosaic.Lib.ReduceAll
import Idealize.ShloMosaic.Lib.ValueIdx

namespace Cert.Proof.FiniteArgs

open Idealize.ShloMosaic Idealize.SL.Sem

/-- An extended real whose absolute value `max x (-x)` is below `+∞` (the pattern `0x7F800000`) is finite. -/
theorem finite_of_lt_inf (x : EReal)
    (h : Ideal.cmp .olt (max x (-x)) (Ideal.ofBits .f32 0x7F800000#32) = 1#1) : EdgeScale.Finite x := by
  have htop : Ideal.ofBits .f32 0x7F800000#32 = ⊤ := by simp [Ideal.ofBits, Ideal.ieee]
  rw [htop] at h
  have h' : max x (-x) < ⊤ := by
    by_contra hn
    simp [Ideal.cmp, hn] at h
  rw [max_lt_iff] at h'
  refine ⟨ne_of_lt h'.1, ?_⟩
  rintro rfl
  simp at h'

/-- The rank-0 shape has one index. -/
instance : Subsingleton Cert.Pre_finite_inputs.S_.Idx := ⟨fun a b => funext fun d => d.elim0⟩

open Cert.Pre_finite_inputs in
/-- `all (|a| < +∞)` over every axis of `a`, equal to 1, says every entry of `a` is finite. -/
theorem all_finite {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant S_ .f32 0x7F800000#32)))
          (constantI S_ 1 1#1) hr hu ValueIdx.ix0 = 1#1)
    (i : s.Idx) : EdgeScale.Finite (a i) :=
  finite_of_lt_inf (a i) (Host.reduce_andi_all _ _ hr hu _ e i)

open Cert.Pre_finite_inputs in
/-- The predicate `finite_inputs`, all ones, says every entry of each of its seven float arguments is finite. -/
theorem fn_finite [Cert.Pre_finite_inputs.Facts]
    (a0 : FVec Ideal S50000x128 .f32) (a1 : IVec S2x800000 32) (a2 : FVec Ideal S128x256 .f32)
    (a3 : FVec Ideal S256 .f32) (a4 : FVec Ideal S4x256x256 .f32) (a5 : FVec Ideal S4x256 .f32)
    (a6 : FVec Ideal S256x64 .f32) (a7 : FVec Ideal S64 .f32)
    (h : Cert.Pre_finite_inputs.fn (F := Ideal) a0 a1 a2 a3 a4 a5 a6 a7 = fun _ => 1#1) :
    (∀ i, EdgeScale.Finite (a0 i)) ∧ (∀ i, EdgeScale.Finite (a2 i)) ∧ (∀ i, EdgeScale.Finite (a3 i))
      ∧ (∀ i, EdgeScale.Finite (a4 i)) ∧ (∀ i, EdgeScale.Finite (a5 i)) ∧ (∀ i, EdgeScale.Finite (a6 i))
      ∧ (∀ i, EdgeScale.Finite (a7 i)) := by
  have h0 := congrFun h ValueIdx.ix0
  dsimp only [Cert.Pre_finite_inputs.fn, Cert.Pre_finite_inputs.fn_part1] at h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨r0, r2⟩ := IntOp.andi_eq_one.1 h0
  exact ⟨all_finite a0 _ _ _ r0, all_finite a2 _ _ _ r2, all_finite a3 _ _ _ r3, all_finite a4 _ _ _ r4,
    all_finite a5 _ _ _ r5, all_finite a6 _ _ _ r6, all_finite a7 _ _ _ r7⟩

/-- Under the certificate's precondition every entry of every float argument is finite, on every device. -/
theorem finite_args [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, EdgeScale.Finite (m ((c.tc : Thread Cert.KernelIdeal.nD Cert.KernelIdeal.τ).loc Cert.KernelIdeal.main_arg0) i))
    ∧ (∀ i, EdgeScale.Finite (m ((c.tc : Thread Cert.KernelIdeal.nD Cert.KernelIdeal.τ).loc Cert.KernelIdeal.main_arg2) i))
    ∧ (∀ i, EdgeScale.Finite (m ((c.tc : Thread Cert.KernelIdeal.nD Cert.KernelIdeal.τ).loc Cert.KernelIdeal.main_arg3) i))
    ∧ (∀ i, EdgeScale.Finite (m ((c.tc : Thread Cert.KernelIdeal.nD Cert.KernelIdeal.τ).loc Cert.KernelIdeal.main_arg4) i))
    ∧ (∀ i, EdgeScale.Finite (m ((c.tc : Thread Cert.KernelIdeal.nD Cert.KernelIdeal.τ).loc Cert.KernelIdeal.main_arg5) i))
    ∧ (∀ i, EdgeScale.Finite (m ((c.tc : Thread Cert.KernelIdeal.nD Cert.KernelIdeal.τ).loc Cert.KernelIdeal.main_arg6) i))
    ∧ (∀ i, EdgeScale.Finite (m ((c.tc : Thread Cert.KernelIdeal.nD Cert.KernelIdeal.τ).loc Cert.KernelIdeal.main_arg7) i)) :=
  fn_finite _ _ _ _ _ _ _ _ (h c)

end Cert.Proof.FiniteArgs
-- ==== Proof.KernelValue.lean ====
/-
  The value of the fused program: its result buffer after the run is the reference's result term of the arguments.

  The run leaves the result at the last host operation (the first 64 columns) applied to region 4's output array.
  Each region's output array is one function of the arrays the region reads (the scaled embedding, the three scaled
  middle tables, the padded read-out), and each array a region reads is either an argument, a slice of the stacked
  parameters, the column of node weights, or the aggregation of the previous region's output. Composing the five gives
  the fused network as one term of the arguments, which the network-level law identifies with the reference's term
  for finite inputs, embedding parameters and layer weights.
-/
import proofs.«175976_j4475355922587_2_alg».proof.Proof.KernelRun
import proofs.«175976_j4475355922587_2_alg».proof.Proof.KernelChain
import proofs.«175976_j4475355922587_2_alg».proof.Proof.RegionEnds
import proofs.«175976_j4475355922587_2_alg».proof.Proof.RegionMid
import proofs.«175976_j4475355922587_2_alg».proof.Proof.NetBridge
import proofs.«175976_j4475355922587_2_alg».proof.Proof.FiniteArgs

noncomputable section

namespace Cert.Proof.KernelValue

open Idealize.ShloMosaic Idealize.SL.Sem Cert.KernelIdeal

variable (m : (ℓ : Loc nD τ sig) → Buf (Elt Ideal) ℓ) (ρ : Dev nD → PrngReg) (c : Dev nD)

/-- Region 0's output array is the scaled embedding of the arguments. -/
theorem table0 :
    (Gen.dat0 (F := Ideal) (Gen.V3 m ρ) c).arrAt 5 cfg0.N
      = Cert.Proof.Bridge.S0 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [RegionEnds.final0 (Gen.V3 m ρ) c]
  rw [Chain.V3_arg0 m ρ c, Chain.V3_arg2 m ρ c, Chain.V3_v19 m ρ c, Chain.V3_v18 m ρ c, Chain.V3_v16 m ρ c]
  rfl

/-- Region 1's output array is the first scaled middle table. -/
theorem table1 :
    (Gen.dat1 (F := Ideal) (Gen.V5 m ρ) c).arrAt 4 cfg1.N
      = Cert.Proof.Bridge.S1 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  rw [RegionMid.final1 (Gen.V5 m ρ) c]
  rw [Chain.V5_v31 m ρ c, Chain.V5_v16 m ρ c, Chain.V5_v36 m ρ c, Chain.V5_v35 m ρ c, table0 m ρ c]
  rfl

/-- Region 2's output array is the second scaled middle table. -/
theorem table2 :
    (Gen.dat2 (F := Ideal) (Gen.V7 m ρ) c).arrAt 4 cfg2.N
      = Cert.Proof.Bridge.S2 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  rw [RegionMid.final2 (Gen.V7 m ρ) c]
  rw [Chain.V7_v48 m ρ c, Chain.V7_v16 m ρ c, Chain.V7_v53 m ρ c, Chain.V7_v52 m ρ c, table1 m ρ c]
  rfl

/-- Region 3's output array is the third scaled middle table. -/
theorem table3 :
    (Gen.dat3 (F := Ideal) (Gen.V9 m ρ) c).arrAt 4 cfg3.N
      = Cert.Proof.Bridge.S3 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  rw [RegionMid.final3 (Gen.V9 m ρ) c]
  rw [Chain.V9_v65 m ρ c, Chain.V9_v16 m ρ c, Chain.V9_v70 m ρ c, Chain.V9_v69 m ρ c, table2 m ρ c]
  rfl

/-- The five regions composed: the result buffer holds the fused network of the arguments. -/
theorem result_fused :
    Gen.W17 m ρ c (Proc.devRef .tc main_v90)
      = Cert.Proof.Bridge.fused (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  rw [Chain.result m ρ c, RegionEnds.final4 (Gen.V15 m ρ) c]
  rw [Chain.V15_v82 m ρ c, Chain.V15_v16 m ρ c, Chain.V15_v87 m ρ c, Chain.V15_v83 m ρ c, Chain.V15_v88 m ρ c, table3 m ρ c]
  rfl

/-- THE RUN of the fused program with its result named by the reference's term, under the precondition. -/
theorem run_value [hP : Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v90)
        = Cert.ReferenceIdeal.Read.val_main_v126 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨(h c).1.trans (by
      obtain ⟨h0, h2, h3, h4, -, -, -⟩ := Cert.Proof.FiniteArgs.finite_args m hpre c
      rw [result_fused m ρ c]
      exact Cert.Proof.Bridge.fused_eq _ _ _ _ _ _ _ _ h0 h2 h3 h4), (h c).2⟩)
    (Cert.KernelIdeal.Run.run_result m ρ)

end Cert.Proof.KernelValue

end
-- ==== Proof.lean ====
/-
  The certificate of a four-layer graph convolution (50000 nodes, 800000 edges and one self loop per node, hidden width
  256) in a fused form against its plain reference, over the extended reals.

  The reference weights every message by its edge's symmetric normalisation dv(source) · dv(destination) — dv the
  inverse square root of the in-degree — and sums the messages at each destination. The fused program scales every
  row of the transformed table by its node's weight BEFORE the edges carry it, sums the gathered rows unweighted, and
  scales the sum that arrives at a node by that node's weight in the next kernel, where the bias, the tanh and the
  next layer's product are fused too; the embedding is fused into layer 0 and the read-out, padded to 128 columns and
  cut back to 64, into the last kernel. Changes of float format are the identity over the extended reals, and a tile
  product into a zero accumulator is the host's product, so the only law between the two programs is that the
  destination's weight, common to every message arriving at a node, comes out of the sum (Aggregate.lean). That law
  holds for finite entries: the precondition gives finite inputs and parameters (FiniteArgs.lean), the node weights
  are finite at every degree, and every hidden table after the first is a tanh, finite everywhere (NetBridge.lean).

  The three frames are the generated ones (the reference's is its run with the result dropped); the ideal pass
  rewrote nothing, so the fused program's idealization is its own text. The value of the fused program is read off its
  run region by region (RegionEnds.lean, RegionMid.lean: each region's output array as one function of the arrays it
  reads; KernelChain.lean: the buffers between the regions; KernelValue.lean: the five composed).
-/
import proofs.«175976_j4475355922587_2_alg».proof.Defs
import proofs.«175976_j4475355922587_2_alg».proof.Proof.Gen.Kernel
import proofs.«175976_j4475355922587_2_alg».proof.Proof.Gen.Kernel.Skeleton
import proofs.«175976_j4475355922587_2_alg».proof.Proof.Gen.Kernel.Launch
import proofs.«175976_j4475355922587_2_alg».proof.Proof.Gen.Kernel.Points
import proofs.«175976_j4475355922587_2_alg».proof.Proof.Gen.Kernel.Frame
import proofs.«175976_j4475355922587_2_alg».proof.Proof.Gen.KernelIdeal
import proofs.«175976_j4475355922587_2_alg».proof.Proof.Gen.KernelIdeal.Skeleton
import proofs.«175976_j4475355922587_2_alg».proof.Proof.Gen.KernelIdeal.Launch
import proofs.«175976_j4475355922587_2_alg».proof.Proof.Gen.KernelIdeal.Points
import proofs.«175976_j4475355922587_2_alg».proof.Proof.Gen.KernelIdeal.Frame
import proofs.«175976_j4475355922587_2_alg».proof.Proof.Gen.ReferenceIdeal
import proofs.«175976_j4475355922587_2_alg».proof.Proof.Gen.Pre_finite_inputs
import proofs.«175976_j4475355922587_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the reference's result term of the (agreeing) arguments. -/
theorem algebraic : Cert.algebraic_KernelIdeal_ReferenceIdeal := by
  intro m ρ m' ρ' hpre hagree
  refine ⟨_, Cert.Proof.KernelValue.run_value m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v126_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
